-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S128x64 : Shape := ⟨2, ![128, 64]⟩
abbrev S128 : Shape := ⟨1, ![128]⟩
abbrev S128x128 : Shape := ⟨2, ![128, 128]⟩
abbrev S128x272 : Shape := ⟨2, ![128, 272]⟩
abbrev S1x128 : Shape := ⟨2, ![1, 128]⟩
abbrev S1 : Shape := ⟨1, ![1]⟩
abbrev S500000x16 : Shape := ⟨2, ![500000, 16]⟩
abbrev S2x1600000 : Shape := ⟨2, ![2, 1600000]⟩
abbrev S2x500000 : Shape := ⟨2, ![2, 500000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x272 : S_.BroadcastsInDim S128x272 (![] : Fin 0 → Fin S128x272.rank)
  reducesTo_S128x272_S_d0_1 : S128x272.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S500000x16 : S_.BroadcastsInDim S500000x16 (![] : Fin 0 → Fin S500000x16.rank)
  reducesTo_S500000x16_S_d0_1 : S500000x16.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x128 .f32) (main_arg12 : FVec F S1 .f32) (main_arg13 : FVec F S500000x16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S500000x16 .f32 := Host.absf main_arg13
  let main_cst_24 : FVec F S_ .f32 := constant S_ .f32 0x7F800000#32
  let main_v65 : FVec F S500000x16 .f32 := broadcastInDim S500000x16 ![] bcast_S_S500000x16 main_cst_24
  let main_v66 : IVec S500000x16 1 := cmpf .olt main_v64 main_v65
  let main_c_25 : IVec S_ 1 := constantI S_ 1 1#1
  let main_v67 : IVec S_ 1 := (fun x v => Host.reduce IntOp.andi x v reducesTo_S500000x16_S_d0_1 h_S_) main_v66 main_c_25
  fn_part4 (F := F) main_v63 main_v67

def fn_part2 {F : FTy → Type} [FloatOps F] (main_arg7 : FVec F S128x272 .f32) (main_arg8 : FVec F S128 .f32) (main_arg9 : FVec F S128 .f32) (main_arg10 : FVec F S128 .f32) (main_arg11 : FVec F S1x128 .f32) (main_arg12 : FVec F S1 .f32) (main_arg13 : FVec F S500000x16 .f32) (main_v33 : IVec S_ 1) : IVec S_ 1 :=
  let main_v34 : FVec F S128x272 .f32 := Host.absf main_arg7
  let main_cst_12 : FVec F S_ .f32 := constant S_ .f32 0x7F800000#32
  let main_v35 : FVec F S128x272 .f32 := broadcastInDim S128x272 ![] bcast_S_S128x272 main_cst_12
  let main_v36 : IVec S128x272 1 := cmpf .olt main_v34 main_v35
  let main_c_13 : IVec S_ 1 := constantI S_ 1 1#1
  let main_v37 : IVec S_ 1 := (fun x v => Host.reduce IntOp.andi x v reducesTo_S128x272_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x128 .f32) (main_arg7 : FVec F S128x272 .f32) (main_arg8 : FVec F S128 .f32) (main_arg9 : FVec F S128 .f32) (main_arg10 : FVec F S128 .f32) (main_arg11 : FVec F S1x128 .f32) (main_arg12 : FVec F S1 .f32) (main_arg13 : FVec F S500000x16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x64 .f32) (main_arg1 : FVec F S128x64 .f32) (main_arg2 : FVec F S128 .f32) (main_arg3 : FVec F S128x64 .f32) (main_arg4 : FVec F S128x128 .f32) (main_arg5 : FVec F S128 .f32) (main_arg6 : FVec F S128x128 .f32) (main_arg7 : FVec F S128x272 .f32) (main_arg8 : FVec F S128 .f32) (main_arg9 : FVec F S128 .f32) (main_arg10 : FVec F S128 .f32) (main_arg11 : FVec F S1x128 .f32) (main_arg12 : FVec F S1 .f32) (main_arg13 : FVec F S500000x16 .f32) (main_arg14 : IVec S2x1600000 32) (main_arg15 : IVec S2x500000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x64 : Shape := ⟨2, ![100000, 64]⟩
abbrev S128x64 : Shape := ⟨2, ![128, 64]⟩
abbrev S128 : Shape := ⟨1, ![128]⟩
abbrev S128x128 : Shape := ⟨2, ![128, 128]⟩
abbrev S128x272 : Shape := ⟨2, ![128, 272]⟩
abbrev S1x128 : Shape := ⟨2, ![1, 128]⟩
abbrev S1 : Shape := ⟨1, ![1]⟩
abbrev S500000x16 : Shape := ⟨2, ![500000, 16]⟩
abbrev S2x1600000 : Shape := ⟨2, ![2, 1600000]⟩
abbrev S2x500000 : Shape := ⟨2, ![2, 500000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S5000x64 : Shape := ⟨2, ![5000, 64]⟩
abbrev S5000x128 : Shape := ⟨2, ![5000, 128]⟩
abbrev S64x128 : Shape := ⟨2, ![64, 128]⟩
abbrev S1600000x128 : Shape := ⟨2, ![1600000, 128]⟩
abbrev S4000x128 : Shape := ⟨2, ![4000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S128x16 : Shape := ⟨2, ![128, 16]⟩
abbrev S125x1x128 : Shape := ⟨3, ![125, 1, 128]⟩
abbrev S4000x16 : Shape := ⟨2, ![4000, 16]⟩
abbrev S1x1x128 : Shape := ⟨3, ![1, 1, 128]⟩
abbrev S16x128 : Shape := ⟨2, ![16, 128]⟩
abbrev S1x1 : Shape := ⟨2, ![1, 1]⟩
abbrev S4000x1 : Shape := ⟨2, ![4000, 1]⟩
abbrev S4000 : Shape := ⟨1, ![4000]⟩

abbrev nBuf : Space → Nat
  | .hbm => 109
  | .vmem => 44
  | .smem => 0
  | _ => 0

abbrev bufTy : (tb : Table) → Fin (tcTables nBuf tb) → BufTy
  | .hbm, ⟨0, _⟩ => ⟨S100000x64, .f32⟩
  | .hbm, ⟨1, _⟩ => ⟨S128x64, .f32⟩
  | .hbm, ⟨2, _⟩ => ⟨S128, .f32⟩
  | .hbm, ⟨3, _⟩ => ⟨S128x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x272, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S500000x16, .f32⟩
  | .hbm, ⟨14, _⟩ => ⟨S2x1600000, .i32⟩
  | .hbm, ⟨15, _⟩ => ⟨S2x500000, .i32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .bf16⟩
  | .hbm, ⟨64, _⟩ => ⟨S1x500000, .i32⟩
  | .hbm, ⟨65, _⟩ => ⟨S500000, .i32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x128, .bf16⟩
  | .hbm, ⟨75, _⟩ => ⟨S1x500000, .i32⟩
  | .hbm, ⟨76, _⟩ => ⟨S500000, .i32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x128, .bf16⟩
  | .hbm, ⟨86, _⟩ => ⟨S128x128, .f32⟩
  | .hbm, ⟨87, _⟩ => ⟨S128x128, .f32⟩
  | .hbm, ⟨88, _⟩ => ⟨S128x16, .f32⟩
  | .hbm, ⟨89, _⟩ => ⟨S1x128, .f32⟩
  | .hbm, ⟨90, _⟩ => ⟨S500000x128, .bf16⟩
  | .hbm, ⟨91, _⟩ => ⟨S125x1x128, .f32⟩
  | .hbm, ⟨92, _⟩ => ⟨S125x1x128, .f32⟩
  | .hbm, ⟨93, _⟩ => ⟨S_, .f32⟩
  | .hbm, ⟨94, _⟩ => ⟨S1x128, .f32⟩
  | .hbm, ⟨95, _⟩ => ⟨S_, .f32⟩
  | .hbm, ⟨96, _⟩ => ⟨S1x128, .f32⟩
  | .hbm, ⟨97, _⟩ => ⟨S_, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x1, .f32⟩
  | .hbm, ⟨108, _⟩ => ⟨S500000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S128x64, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S4000x128, .bf16⟩
  | .local _ .vmem, ⟨17, _⟩ => ⟨S4000x128, .bf16⟩
  | .local _ .vmem, ⟨18, _⟩ => ⟨S4000x128, .bf16⟩
  | .local _ .vmem, ⟨19, _⟩ => ⟨S4000x128, .bf16⟩
  | .local _ .vmem, ⟨20, _⟩ => ⟨S4000x128, .bf16⟩
  | .local _ .vmem, ⟨21, _⟩ => ⟨S4000x128, .bf16⟩
  | .local _ .vmem, ⟨22, _⟩ => ⟨S4000x16, .f32⟩
  | .local _ .vmem, ⟨23, _⟩ => ⟨S4000x16, .f32⟩
  | .local _ .vmem, ⟨24, _⟩ => ⟨S128x128, .f32⟩
  | .local _ .vmem, ⟨25, _⟩ => ⟨S128x128, .f32⟩
  | .local _ .vmem, ⟨26, _⟩ => ⟨S128x16, .f32⟩
  | .local _ .vmem, ⟨27, _⟩ => ⟨S1x128, .f32⟩
  | .local _ .vmem, ⟨28, _⟩ => ⟨S4000x128, .bf16⟩
  | .local _ .vmem, ⟨29, _⟩ => ⟨S4000x128, .bf16⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S4000x128, .bf16⟩
  | .local _ .vmem, ⟨35, _⟩ => ⟨S4000x128, .bf16⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x1, .f32⟩
  | .local _ .vmem, ⟨42, _⟩ => ⟨S4000x1, .f32⟩
  | .local _ .vmem, ⟨43, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_c_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61_0 : Ref sig .tc := ⟨.hbm, 90, rfl⟩
abbrev main_v61_1 : Ref sig .tc := ⟨.hbm, 91, rfl⟩
abbrev main_v61_2 : Ref sig .tc := ⟨.hbm, 92, rfl⟩
abbrev main_cst_11 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_cst_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31
abbrev cc2_sem9_0 : DmaSem sig := 32
abbrev cc2_sem9_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S128x272_S128x128_0_0 : S128x272.Slices ![0, 0] S128x128
  slices_S128x272_S128x128_0_128 : S128x272.Slices ![0, 128] S128x128
  slices_S128x272_S128x16_0_256 : S128x272.Slices ![0, 256] S128x16
  inb_S4000x16_S4000x16_0_0 : ∀ a, (![0, 0] : Fin 2 → Nat) a + S4000x16.size a ≤ S4000x16.size a
  h_S4000x16 : 0 < S4000x16.numel
  shapeCasts_S128x128_S128x128 : S128x128.ShapeCasts S128x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  transposes_S128x16_p1_0_S16x128 : S128x16.Transposes [1, 0] S16x128
  reduces_S4000x128_S128 : S4000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S125x1x128_S1x128_d0 : S125x1x128.ReducesTo [0] S1x128
  h_S_ : 0 < S_.numel
  bcast_S_S1x128 : S_.BroadcastsInDim S1x128 (![] : Fin 0 → Fin S1x128.rank)
  shapeCasts_S1_S1x1 : S1.ShapeCasts S1x1
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  gather_S100000x128_S500000x1_S500000x128_1_0_n_n_0_1_1128_wf : GatherDims.WF S100000x128 S500000x1 S500000x128 [1] [0] [] [0] [] 1 ![1, 128]
  dot_S4000x16_S16x128_S4000x128_1_0_0_1_n_n_wf : DotDims.WF S4000x16 S16x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S500000x128.size a
  hwx2_0 : ∀ i : grid2.Coords, EltTy.bits .bf16 = 32 ∨ (Rect.block (s := S500000x128) S4000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S500000x128.size a
  hwx2_1 : ∀ i : grid2.Coords, EltTy.bits .bf16 = 32 ∨ (Rect.block (s := S500000x128) S4000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S500000x16.size a
  hwx2_2 : ∀ i : grid2.Coords, EltTy.bits .f32 = 32 ∨ (Rect.block (s := S500000x16) S4000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x16.size a ≤ S128x16.size a
  hwx2_5 : ∀ i : grid2.Coords, EltTy.bits .f32 = 32 ∨ (Rect.block (s := S128x16) S128x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S500000x128.size a
  hwx2_7 : ∀ i : grid2.Coords, EltTy.bits .bf16 = 32 ∨ (Rect.block (s := S500000x128) S4000x128.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x1x128.size a ≤ S125x1x128.size a
  hwx2_8 : ∀ i : grid2.Coords, EltTy.bits .f32 = 32 ∨ (Rect.block (s := S125x1x128) S1x1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1x128.size a ≤ S125x1x128.size a
  hwx2_9 : ∀ i : grid2.Coords, EltTy.bits .f32 = 32 ∨ (Rect.block (s := S125x1x128) S1x1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S500000x128.size a
  hwx3_0 : ∀ i : grid3.Coords, EltTy.bits .bf16 = 32 ∨ (Rect.block (s := S500000x128) S4000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x1.size a ≤ S500000x1.size a
  hwx3_7 : ∀ i : grid3.Coords, EltTy.bits .f32 = 32 ∨ (Rect.block (s := S500000x1) S4000x1.size (cc3_transform_7 i) (hinb3_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S4000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S128x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v61_0) S4000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v61_1) S1x1x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v61_2) S1x1x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v61_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S4000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x64 : Shape := ⟨2, ![100000, 64]⟩
abbrev S128x64 : Shape := ⟨2, ![128, 64]⟩
abbrev S128 : Shape := ⟨1, ![128]⟩
abbrev S128x128 : Shape := ⟨2, ![128, 128]⟩
abbrev S128x272 : Shape := ⟨2, ![128, 272]⟩
abbrev S1x128 : Shape := ⟨2, ![1, 128]⟩
abbrev S1 : Shape := ⟨1, ![1]⟩
abbrev S500000x16 : Shape := ⟨2, ![500000, 16]⟩
abbrev S2x1600000 : Shape := ⟨2, ![2, 1600000]⟩
abbrev S2x500000 : Shape := ⟨2, ![2, 500000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x272 : Shape := ⟨2, ![500000, 272]⟩
abbrev S272x128 : Shape := ⟨2, ![272, 128]⟩
abbrev S128x1 : Shape := ⟨2, ![128, 1]⟩
abbrev S1x1 : Shape := ⟨2, ![1, 1]⟩

abbrev nBuf : Space → Nat
  | .hbm => 173
  | .vmem => 0
  | .smem => 0
  | _ => 0

abbrev hbmTy0_0 (i : Nat) : BufTy := match i % 128 with
  | 0 => ⟨S100000x64, .f32⟩
  | 1 => ⟨S128x64, .f32⟩
  | 2 => ⟨S128, .f32⟩
  | 3 => ⟨S128x64, .f32⟩
  | 4 => ⟨S128x128, .f32⟩
  | 5 => ⟨S128, .f32⟩
  | 6 => ⟨S128x128, .f32⟩
  | 7 => ⟨S128x272, .f32⟩
  | 8 => ⟨S128, .f32⟩
  | 9 => ⟨S128, .f32⟩
  | 10 => ⟨S128, .f32⟩
  | 11 => ⟨S1x128, .f32⟩
  | 12 => ⟨S1, .f32⟩
  | 13 => ⟨S500000x16, .f32⟩
  | 14 => ⟨S2x1600000, .i32⟩
  | 15 => ⟨S2x500000, .i32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S64x128, .f32⟩
  | 46 => ⟨S100000x128, .f32⟩
  | 47 => ⟨S1x128, .f32⟩
  | 48 => ⟨S100000x128, .f32⟩
  | 49 => ⟨S100000x128, .f32⟩
  | 50 => ⟨S64x128, .f32⟩
  | 51 => ⟨S100000x128, .f32⟩
  | 52 => ⟨S100000x128, .f32⟩
  | 53 => ⟨S_, .f32⟩
  | 54 => ⟨S100000x128, .f32⟩
  | 55 => ⟨S100000x128, .f32⟩
  | 56 => ⟨S1x1600000, .i32⟩
  | 57 => ⟨S1600000, .i32⟩
  | 58 => ⟨S1x1600000, .i32⟩
  | 59 => ⟨S1600000, .i32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000x1, .f32⟩
  | 83 => ⟨S100000x128, .f32⟩
  | 84 => ⟨S100000x128, .f32⟩
  | 85 => ⟨S128x128, .f32⟩
  | 86 => ⟨S100000x128, .f32⟩
  | 87 => ⟨S1x128, .f32⟩
  | 88 => ⟨S100000x128, .f32⟩
  | 89 => ⟨S100000x128, .f32⟩
  | 90 => ⟨S128x128, .f32⟩
  | 91 => ⟨S100000x128, .f32⟩
  | 92 => ⟨S100000x128, .f32⟩
  | 93 => ⟨S1x500000, .i32⟩
  | 94 => ⟨S500000, .i32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000x128, .f32⟩
  | 104 => ⟨S1x500000, .i32⟩
  | 105 => ⟨S500000, .i32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000x128, .f32⟩
  | 115 => ⟨S500000x272, .f32⟩
  | 116 => ⟨S272x128, .f32⟩
  | 117 => ⟨S500000x128, .f32⟩
  | 118 => ⟨S1x128, .f32⟩
  | 119 => ⟨S500000x128, .f32⟩
  | 120 => ⟨S500000x128, .f32⟩
  | 121 => ⟨S_, .f32⟩
  | 122 => ⟨S128, .f32⟩
  | 123 => ⟨S_, .f32⟩
  | 124 => ⟨S128, .f32⟩
  | 125 => ⟨S128, .f32⟩
  | 126 => ⟨S_, .i32⟩
  | 127 => ⟨S_, .f32⟩
  | _ => ⟨S100000x64, .f32⟩

abbrev hbmTy0_1 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S500000x128, .f32⟩
  | 6 => ⟨S500000x128, .f32⟩
  | 7 => ⟨S500000x128, .f32⟩
  | 8 => ⟨S_, .f32⟩
  | 9 => ⟨S_, .f32⟩
  | 10 => ⟨S_, .f32⟩
  | 11 => ⟨S_, .f32⟩
  | 12 => ⟨S128, .f32⟩
  | 13 => ⟨S128, .f32⟩
  | 14 => ⟨S128, .f32⟩
  | 15 => ⟨S_, .f32⟩
  | 16 => ⟨S_, .i1⟩
  | 17 => ⟨S_, .f32⟩
  | 18 => ⟨S_, .f32⟩
  | 19 => ⟨S128, .f32⟩
  | 20 => ⟨S128, .f32⟩
  | 21 => ⟨S1x128, .f32⟩
  | 22 => ⟨S500000x128, .f32⟩
  | 23 => ⟨S500000x128, .f32⟩
  | 24 => ⟨S_, .f32⟩
  | 25 => ⟨S128, .f32⟩
  | 26 => ⟨S128, .f32⟩
  | 27 => ⟨S128, .f32⟩
  | 28 => ⟨S1x128, .f32⟩
  | 29 => ⟨S500000x128, .f32⟩
  | 30 => ⟨S500000x128, .f32⟩
  | 31 => ⟨S1x128, .f32⟩
  | 32 => ⟨S500000x128, .f32⟩
  | 33 => ⟨S500000x128, .f32⟩
  | 34 => ⟨S1x128, .f32⟩
  | 35 => ⟨S500000x128, .f32⟩
  | 36 => ⟨S500000x128, .f32⟩
  | 37 => ⟨S_, .f32⟩
  | 38 => ⟨S500000x128, .f32⟩
  | 39 => ⟨S500000x128, .f32⟩
  | 40 => ⟨S128x1, .f32⟩
  | 41 => ⟨S500000x1, .f32⟩
  | 42 => ⟨S1x1, .f32⟩
  | 43 => ⟨S500000x1, .f32⟩
  | 44 => ⟨S500000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_4 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_10 : Ref sig .tc := ⟨.hbm, 95, rfl⟩
abbrev main_v65 : Ref sig .tc := ⟨.hbm, 96, rfl⟩
abbrev main_v66 : Ref sig .tc := ⟨.hbm, 97, rfl⟩
abbrev main_c_11 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_12 : Ref sig .tc := ⟨.hbm, 106, rfl⟩
abbrev main_v74 : Ref sig .tc := ⟨.hbm, 107, rfl⟩
abbrev main_v75 : Ref sig .tc := ⟨.hbm, 108, rfl⟩
abbrev main_c_13 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_14 : Ref sig .tc := ⟨.hbm, 121, rfl⟩
abbrev main_v87 : Ref sig .tc := ⟨.hbm, 122, rfl⟩
abbrev main_cst_15 : Ref sig .tc := ⟨.hbm, 123, rfl⟩
abbrev main_v88 : Ref sig .tc := ⟨.hbm, 124, rfl⟩
abbrev main_v89 : Ref sig .tc := ⟨.hbm, 125, rfl⟩
abbrev main_c_16 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_cst_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_cst_1 : Ref sig .tc := ⟨.hbm, 137, rfl⟩
abbrev main_call1_v8 : Ref sig .tc := ⟨.hbm, 138, rfl⟩
abbrev main_call1_cst_2 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_cst_3 : Ref sig .tc := ⟨.hbm, 143, rfl⟩
abbrev main_call1_v12 : Ref sig .tc := ⟨.hbm, 144, rfl⟩
abbrev main_call1_cst_4 : Ref sig .tc := ⟨.hbm, 145, rfl⟩
abbrev main_call1_call0_v0 : Ref sig .tc := ⟨.hbm, 146, rfl⟩
abbrev main_call1_call0_v1 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_cst_17 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_call2_cst : Ref sig .tc := ⟨.hbm, 165, rfl⟩
abbrev main_call2_v0 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x16_S500000x272_d1 : Shape.Concatenates [S500000x128, S500000x128, S500000x16] S500000x272 1
  transposes_S128x272_S272x128_1_0 : S128x272.Transposes [1, 0] S272x128
  bcast_S1x128_S500000x128_0_1 : S1x128.BroadcastsInDim S500000x128 (![0, 1] : Fin 2 → Fin S500000x128.rank)
  reducesTo_S500000x128_S128_d0 : S500000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x272_S272x128_S500000x128_1_0_0_1_n_n_wf : DotDims.WF S500000x272 S272x128 S500000x128 [1] [0] [0] [1] [] []
  dot_S500000x128_S128x1_S500000x1_1_0_0_1_n_n_wf : DotDims.WF S500000x128 S128x1 S500000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x272_S272x128_S500000x128_1_0_0_1_n_n : DotDims S500000x272 S272x128 S500000x128 where
  lhsContracting := [1]
  rhsContracting := [0]
  lhsNonContracting := [0]
  rhsNonContracting := [1]
  lhsBatch := []
  rhsBatch := []
  wf := dot_S500000x272_S272x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelRun.lean ====
/-
  The idealized kernel's run WITH ITS RESULT: from any launch memory every weakly fair execution of the program
  terminates without a fault, the sixteen argument arrays end as launched, and the result array ends at the contents the
  last segment boundary holds for it — the program's four pipelined regions and the stretches of host operations
  between them, folded from the launch memory (the boundary contents `W0 … W8` of the generated frame).
-/
import proofs.«158941_j57870389346679_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the four regions and the host stretches, with the result array read at the last boundary: the frame's
    launch over the same segments, its final thread state read at the result buffer as well as at the arguments. -/
theorem run_value : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.KernelRun

end
-- ==== Proof.RefOps.lean ====
/- @main of the reference as consecutive lists of its host operations, the outlined functions' lines at their call
   sites over the call's buffer record. A table: each entry is the operation term of the line whose MLIR the comment gives. -/
import proofs.«158941_j57870389346679_2_alg».proof.ReferenceIdeal
import proofs.«158941_j57870389346679_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations writing buffers 16 … 44 (main_v0 … main_v22), 29 of them. -/
abbrev opsA : List (HloOp τ sig (Elt F)) :=
  [ StableHlo.unary main_arg14 main_v0 ((extractStridedSlice S1x1600000 ![0, 0] · slices_S2x1600000_S1x1600000_0_0) : (⟨S2x1600000, .i32⟩ : BufTy).Contents (Elt F) → (⟨S1x1600000, .i32⟩ : BufTy).Contents (Elt F)),  -- %0
    StableHlo.reshape main_v0 main_v1 rfl shapeCasts_S1x1600000_S1600000,  -- %1
    StableHlo.unary main_arg14 main_v2 ((extractStridedSlice S1x1600000 ![1, 0] · slices_S2x1600000_S1x1600000_1_0) : (⟨S2x1600000, .i32⟩ : BufTy).Contents (Elt F) → (⟨S1x1600000, .i32⟩ : BufTy).Contents (Elt F)),  -- %2
    StableHlo.reshape main_v2 main_v3 rfl shapeCasts_S1x1600000_S1600000,  -- %3
    StableHlo.nullary main_c (constantI S_ 32 0#32),  -- %c
    StableHlo.unary main_c main_v4 (broadcastInDim S1600000 ![] bcast_S_S1600000 : (⟨S_, .i32⟩ : BufTy).Contents (Elt F) → (⟨S1600000, .i32⟩ : BufTy).Contents (Elt F)),  -- %4
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),  -- %5
    StableHlo.nullary main_c_0 (constantI S_ 32 100000#32),  -- %c_0
    StableHlo.unary main_c_0 main_v6 (broadcastInDim S1600000 ![] bcast_S_S1600000 : (⟨S_, .i32⟩ : BufTy).Contents (Elt F) → (⟨S1600000, .i32⟩ : BufTy).Contents (Elt F)),  -- %6
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),  -- %7
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %8
    StableHlo.unary main_v8 main_v9 (broadcastInDim S1600000x1 ![0] bcast_S1600000_S1600000x1_0 : (⟨S1600000, .i32⟩ : BufTy).Contents (Elt F) → (⟨S1600000x1, .i32⟩ : BufTy).Contents (Elt F)),  -- %9
    StableHlo.binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),  -- %10
    StableHlo.nullary main_cst (constant S_ .f32 0x00000000#32),  -- %cst
    StableHlo.unary main_cst main_v11 (broadcastInDim S100000x64 ![] bcast_S_S100000x64 : (⟨S_, .f32⟩ : BufTy).Contents (Elt F) → (⟨S100000x64, .f32⟩ : BufTy).Contents (Elt F)),  -- %11
    StableHlo.unary main_v3 main_v12 (broadcastInDim S1600000x1 ![0] bcast_S1600000_S1600000x1_0 : (⟨S1600000, .i32⟩ : BufTy).Contents (Elt F) → (⟨S1600000x1, .i32⟩ : BufTy).Contents (Elt F)),  -- %12
    StableHlo.ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),  -- %13
    StableHlo.nullary main_cst_1 (constant S_ .f32 0x3F800000#32),  -- %cst_1
    StableHlo.unary main_cst_1 main_v14 (broadcastInDim S1600000 ![] bcast_S_S1600000 : (⟨S_, .f32⟩ : BufTy).Contents (Elt F) → (⟨S1600000, .f32⟩ : BufTy).Contents (Elt F)),  -- %14
    StableHlo.nullary main_cst_2 (constant S_ .f32 0x00000000#32),  -- %cst_2
    StableHlo.unary main_cst_2 main_v15 (broadcastInDim S100000 ![] bcast_S_S100000 : (⟨S_, .f32⟩ : BufTy).Contents (Elt F) → (⟨S100000, .f32⟩ : BufTy).Contents (Elt F)),  -- %15
    StableHlo.unary main_v3 main_v16 (broadcastInDim S1600000x1 ![0] bcast_S1600000_S1600000x1_0 : (⟨S1600000, .i32⟩ : BufTy).Contents (Elt F) → (⟨S1600000x1, .i32⟩ : BufTy).Contents (Elt F)),  -- %16
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),  -- %17
    StableHlo.nullary main_cst_3 (constant S_ .f32 0x3F800000#32),  -- %cst_3
    StableHlo.unary main_cst_3 main_v18 (broadcastInDim S100000 ![] bcast_S_S100000 : (⟨S_, .f32⟩ : BufTy).Contents (Elt F) → (⟨S100000, .f32⟩ : BufTy).Contents (Elt F)),  -- %18
    StableHlo.binary main_v17 main_v18 main_v19 (maximumf : (⟨S100000, .f32⟩ : BufTy).Contents (Elt F) → (⟨S100000, .f32⟩ : BufTy).Contents (Elt F) → (⟨S100000, .f32⟩ : BufTy).Contents (Elt F)),  -- %19
    StableHlo.unary main_v19 main_v20 (broadcastInDim S100000x1 ![0] bcast_S100000_S100000x1_0 : (⟨S100000, .f32⟩ : BufTy).Contents (Elt F) → (⟨S100000x1, .f32⟩ : BufTy).Contents (Elt F)),  -- %20
    StableHlo.unary main_v20 main_v21 (broadcastInDim S100000x64 ![0, 1] bcast_S100000x1_S100000x64_0_1 : (⟨S100000x1, .f32⟩ : BufTy).Contents (Elt F) → (⟨S100000x64, .f32⟩ : BufTy).Contents (Elt F)),  -- %21
    StableHlo.binary main_v13 main_v21 main_v22 (Host.divf : (⟨S100000x64, .f32⟩ : BufTy).Contents (Elt F) → (⟨S100000x64, .f32⟩ : BufTy).Contents (Elt F) → (⟨S100000x64, .f32⟩ : BufTy).Contents (Elt F)) ]  -- %22

/-- Operations writing buffers 45 … 55 (main_v23 … main_v31), 11 of them. -/
abbrev opsB : List (HloOp τ sig (Elt F)) :=
  [ StableHlo.unary main_arg1 main_v23 ((transpose S64x128 [1, 0] · transposes_S128x64_S64x128_1_0) : (⟨S128x64, .f32⟩ : BufTy).Contents (Elt F) → (⟨S64x128, .f32⟩ : BufTy).Contents (Elt F)),  -- %23
    StableHlo.binary main_v22 main_v23 main_v24 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),  -- %24
    StableHlo.unary main_arg2 main_v25 (broadcastInDim S1x128 ![1] bcast_S128_S1x128_1 : (⟨S128, .f32⟩ : BufTy).Contents (Elt F) → (⟨S1x128, .f32⟩ : BufTy).Contents (Elt F)),  -- %25
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),  -- %26
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),  -- %27
    StableHlo.unary main_arg3 main_v28 ((transpose S64x128 [1, 0] · transposes_S128x64_S64x128_1_0) : (⟨S128x64, .f32⟩ : BufTy).Contents (Elt F) → (⟨S64x128, .f32⟩ : BufTy).Contents (Elt F)),  -- %28
    StableHlo.binary main_arg0 main_v28 main_v29 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),  -- %29
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)),  -- %30
    StableHlo.TRef.nullary main_call0.cst (constant S_ .f32 0x00000000#32),  -- @relu's %cst
    StableHlo.TRef.unary main_call0.cst main_call0.v0 (broadcastInDim S100000x128 ![] bcast_S_S100000x128),  -- @relu's %0
    StableHlo.TRef.binary (.of main_v30 : StableHlo.TRef sig ⟨S100000x128, .f32⟩) main_call0.v0 main_call0.v1 maximumf ]  -- @relu's %1

/-- Operations writing buffers 56 … 77 (main_v32 … main_v48), 22 of them. -/
abbrev opsC0 : List (HloOp τ sig (Elt F)) :=
  [ StableHlo.unary main_arg14 main_v32 ((extractStridedSlice S1x1600000 ![0, 0] · slices_S2x1600000_S1x1600000_0_0) : (⟨S2x1600000, .i32⟩ : BufTy).Contents (Elt F) → (⟨S1x1600000, .i32⟩ : BufTy).Contents (Elt F)),  -- %32
    StableHlo.reshape main_v32 main_v33 rfl shapeCasts_S1x1600000_S1600000,  -- %33
    StableHlo.unary main_arg14 main_v34 ((extractStridedSlice S1x1600000 ![1, 0] · slices_S2x1600000_S1x1600000_1_0) : (⟨S2x1600000, .i32⟩ : BufTy).Contents (Elt F) → (⟨S1x1600000, .i32⟩ : BufTy).Contents (Elt F)),  -- %34
    StableHlo.reshape main_v34 main_v35 rfl shapeCasts_S1x1600000_S1600000,  -- %35
    StableHlo.nullary main_c_4 (constantI S_ 32 0#32),  -- %c_4
    StableHlo.unary main_c_4 main_v36 (broadcastInDim S1600000 ![] bcast_S_S1600000 : (⟨S_, .i32⟩ : BufTy).Contents (Elt F) → (⟨S1600000, .i32⟩ : BufTy).Contents (Elt F)),  -- %36
    StableHlo.binary main_v33 main_v36 main_v37 (cmpi .slt : (⟨S1600000, .i32⟩ : BufTy).Contents (Elt F) → (⟨S1600000, .i32⟩ : BufTy).Contents (Elt F) → (⟨S1600000, .i1⟩ : BufTy).Contents (Elt F)),  -- %37
    StableHlo.nullary main_c_5 (constantI S_ 32 100000#32),  -- %c_5
    StableHlo.unary main_c_5 main_v38 (broadcastInDim S1600000 ![] bcast_S_S1600000 : (⟨S_, .i32⟩ : BufTy).Contents (Elt F) → (⟨S1600000, .i32⟩ : BufTy).Contents (Elt F)),  -- %38
    StableHlo.binary main_v33 main_v38 main_v39 (addi : (⟨S1600000, .i32⟩ : BufTy).Contents (Elt F) → (⟨S1600000, .i32⟩ : BufTy).Contents (Elt F) → (⟨S1600000, .i32⟩ : BufTy).Contents (Elt F)),  -- %39
    StableHlo.ternary main_v37 main_v39 main_v33 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),  -- %40
    StableHlo.unary main_v40 main_v41 (broadcastInDim S1600000x1 ![0] bcast_S1600000_S1600000x1_0 : (⟨S1600000, .i32⟩ : BufTy).Contents (Elt F) → (⟨S1600000x1, .i32⟩ : BufTy).Contents (Elt F)),  -- %41
    StableHlo.binary main_v31 main_v41 main_v42 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),  -- %42
    StableHlo.nullary main_cst_6 (constant S_ .f32 0x00000000#32),  -- %cst_6
    StableHlo.unary main_cst_6 main_v43 (broadcastInDim S100000x128 ![] bcast_S_S100000x128 : (⟨S_, .f32⟩ : BufTy).Contents (Elt F) → (⟨S100000x128, .f32⟩ : BufTy).Contents (Elt F)),  -- %43
    StableHlo.unary main_v35 main_v44 (broadcastInDim S1600000x1 ![0] bcast_S1600000_S1600000x1_0 : (⟨S1600000, .i32⟩ : BufTy).Contents (Elt F) → (⟨S1600000x1, .i32⟩ : BufTy).Contents (Elt F)),  -- %44
    StableHlo.ternary main_v43 main_v44 main_v42 main_v45 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),  -- %45
    StableHlo.nullary main_cst_7 (constant S_ .f32 0x3F800000#32),  -- %cst_7
    StableHlo.unary main_cst_7 main_v46 (broadcastInDim S1600000 ![] bcast_S_S1600000 : (⟨S_, .f32⟩ : BufTy).Contents (Elt F) → (⟨S1600000, .f32⟩ : BufTy).Contents (Elt F)),  -- %46
    StableHlo.nullary main_cst_8 (constant S_ .f32 0x00000000#32),  -- %cst_8
    StableHlo.unary main_cst_8 main_v47 (broadcastInDim S100000 ![] bcast_S_S100000 : (⟨S_, .f32⟩ : BufTy).Contents (Elt F) → (⟨S100000, .f32⟩ : BufTy).Contents (Elt F)),  -- %47
    StableHlo.unary main_v35 main_v48 (broadcastInDim S1600000x1 ![0] bcast_S1600000_S1600000x1_0 : (⟨S1600000, .i32⟩ : BufTy).Contents (Elt F) → (⟨S1600000x1, .i32⟩ : BufTy).Contents (Elt F)) ]  -- %48

/-- Operations writing buffers 78 … 84 (main_v49 … main_v54), 7 of them. -/
abbrev opsC1 : List (HloOp τ sig (Elt F)) :=
  [ StableHlo.ternary main_v47 main_v48 main_v46 main_v49 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),  -- %49
    StableHlo.nullary main_cst_9 (constant S_ .f32 0x3F800000#32),  -- %cst_9
    StableHlo.unary main_cst_9 main_v50 (broadcastInDim S100000 ![] bcast_S_S100000 : (⟨S_, .f32⟩ : BufTy).Contents (Elt F) → (⟨S100000, .f32⟩ : BufTy).Contents (Elt F)),  -- %50
    StableHlo.binary main_v49 main_v50 main_v51 (maximumf : (⟨S100000, .f32⟩ : BufTy).Contents (Elt F) → (⟨S100000, .f32⟩ : BufTy).Contents (Elt F) → (⟨S100000, .f32⟩ : BufTy).Contents (Elt F)),  -- %51
    StableHlo.unary main_v51 main_v52 (broadcastInDim S100000x1 ![0] bcast_S100000_S100000x1_0 : (⟨S100000, .f32⟩ : BufTy).Contents (Elt F) → (⟨S100000x1, .f32⟩ : BufTy).Contents (Elt F)),  -- %52
    StableHlo.unary main_v52 main_v53 (broadcastInDim S100000x128 ![0, 1] bcast_S100000x1_S100000x128_0_1 : (⟨S100000x1, .f32⟩ : BufTy).Contents (Elt F) → (⟨S100000x128, .f32⟩ : BufTy).Contents (Elt F)),  -- %53
    StableHlo.binary main_v45 main_v53 main_v54 (Host.divf : (⟨S100000x128, .f32⟩ : BufTy).Contents (Elt F) → (⟨S100000x128, .f32⟩ : BufTy).Contents (Elt F) → (⟨S100000x128, .f32⟩ : BufTy).Contents (Elt F)) ]  -- %54

/-- Operations writing buffers 85 … 92 (main_v55 … main_v62), 8 of them. -/
abbrev opsD : List (HloOp τ sig (Elt F)) :=
  [ StableHlo.unary main_arg4 main_v55 ((transpose S128x128 [1, 0] · transposes_S128x128_S128x128_1_0) : (⟨S128x128, .f32⟩ : BufTy).Contents (Elt F) → (⟨S128x128, .f32⟩ : BufTy).Contents (Elt F)),  -- %55
    StableHlo.binary main_v54 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %56
    StableHlo.unary main_arg5 main_v57 (broadcastInDim S1x128 ![1] bcast_S128_S1x128_1 : (⟨S128, .f32⟩ : BufTy).Contents (Elt F) → (⟨S1x128, .f32⟩ : BufTy).Contents (Elt F)),  -- %57
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),  -- %58
    StableHlo.binary main_v56 main_v58 main_v59 (addf : (⟨S100000x128, .f32⟩ : BufTy).Contents (Elt F) → (⟨S100000x128, .f32⟩ : BufTy).Contents (Elt F) → (⟨S100000x128, .f32⟩ : BufTy).Contents (Elt F)),  -- %59
    StableHlo.unary main_arg6 main_v60 ((transpose S128x128 [1, 0] · transposes_S128x128_S128x128_1_0) : (⟨S128x128, .f32⟩ : BufTy).Contents (Elt F) → (⟨S128x128, .f32⟩ : BufTy).Contents (Elt F)),  -- %60
    StableHlo.binary main_v31 main_v60 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),  -- %61
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)) ]  -- %62

/-- Operations writing buffers 93 … 103 (main_v63 … main_v71), 11 of them. -/
abbrev opsE : List (HloOp τ sig (Elt F)) :=
  [ StableHlo.unary main_arg15 main_v63 ((extractStridedSlice S1x500000 ![0, 0] · slices_S2x500000_S1x500000_0_0) : (⟨S2x500000, .i32⟩ : BufTy).Contents (Elt F) → (⟨S1x500000, .i32⟩ : BufTy).Contents (Elt F)),  -- %63
    StableHlo.reshape main_v63 main_v64 rfl shapeCasts_S1x500000_S500000,  -- %64
    StableHlo.nullary main_c_10 (constantI S_ 32 0#32),  -- %c_10
    StableHlo.unary main_c_10 main_v65 (broadcastInDim S500000 ![] bcast_S_S500000 : (⟨S_, .i32⟩ : BufTy).Contents (Elt F) → (⟨S500000, .i32⟩ : BufTy).Contents (Elt F)),  -- %65
    StableHlo.binary main_v64 main_v65 main_v66 (cmpi .slt : (⟨S500000, .i32⟩ : BufTy).Contents (Elt F) → (⟨S500000, .i32⟩ : BufTy).Contents (Elt F) → (⟨S500000, .i1⟩ : BufTy).Contents (Elt F)),  -- %66
    StableHlo.nullary main_c_11 (constantI S_ 32 100000#32),  -- %c_11
    StableHlo.unary main_c_11 main_v67 (broadcastInDim S500000 ![] bcast_S_S500000 : (⟨S_, .i32⟩ : BufTy).Contents (Elt F) → (⟨S500000, .i32⟩ : BufTy).Contents (Elt F)),  -- %67
    StableHlo.binary main_v64 main_v67 main_v68 (addi : (⟨S500000, .i32⟩ : BufTy).Contents (Elt F) → (⟨S500000, .i32⟩ : BufTy).Contents (Elt F) → (⟨S500000, .i32⟩ : BufTy).Contents (Elt F)),  -- %68
    StableHlo.ternary main_v66 main_v68 main_v64 main_v69 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),  -- %69
    StableHlo.unary main_v69 main_v70 (broadcastInDim S500000x1 ![0] bcast_S500000_S500000x1_0 : (⟨S500000, .i32⟩ : BufTy).Contents (Elt F) → (⟨S500000x1, .i32⟩ : BufTy).Contents (Elt F)),  -- %70
    StableHlo.binary main_v62 main_v70 main_v71 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) ]  -- %71

/-- Operations writing buffers 104 … 114 (main_v72 … main_v80), 11 of them. -/
abbrev opsF : List (HloOp τ sig (Elt F)) :=
  [ StableHlo.unary main_arg15 main_v72 ((extractStridedSlice S1x500000 ![1, 0] · slices_S2x500000_S1x500000_1_0) : (⟨S2x500000, .i32⟩ : BufTy).Contents (Elt F) → (⟨S1x500000, .i32⟩ : BufTy).Contents (Elt F)),  -- %72
    StableHlo.reshape main_v72 main_v73 rfl shapeCasts_S1x500000_S500000,  -- %73
    StableHlo.nullary main_c_12 (constantI S_ 32 0#32),  -- %c_12
    StableHlo.unary main_c_12 main_v74 (broadcastInDim S500000 ![] bcast_S_S500000 : (⟨S_, .i32⟩ : BufTy).Contents (Elt F) → (⟨S500000, .i32⟩ : BufTy).Contents (Elt F)),  -- %74
    StableHlo.binary main_v73 main_v74 main_v75 (cmpi .slt : (⟨S500000, .i32⟩ : BufTy).Contents (Elt F) → (⟨S500000, .i32⟩ : BufTy).Contents (Elt F) → (⟨S500000, .i1⟩ : BufTy).Contents (Elt F)),  -- %75
    StableHlo.nullary main_c_13 (constantI S_ 32 100000#32),  -- %c_13
    StableHlo.unary main_c_13 main_v76 (broadcastInDim S500000 ![] bcast_S_S500000 : (⟨S_, .i32⟩ : BufTy).Contents (Elt F) → (⟨S500000, .i32⟩ : BufTy).Contents (Elt F)),  -- %76
    StableHlo.binary main_v73 main_v76 main_v77 (addi : (⟨S500000, .i32⟩ : BufTy).Contents (Elt F) → (⟨S500000, .i32⟩ : BufTy).Contents (Elt F) → (⟨S500000, .i32⟩ : BufTy).Contents (Elt F)),  -- %77
    StableHlo.ternary main_v75 main_v77 main_v73 main_v78 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),  -- %78
    StableHlo.unary main_v78 main_v79 (broadcastInDim S500000x1 ![0] bcast_S500000_S500000x1_0 : (⟨S500000, .i32⟩ : BufTy).Contents (Elt F) → (⟨S500000x1, .i32⟩ : BufTy).Contents (Elt F)),  -- %79
    StableHlo.binary main_v62 main_v79 main_v80 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)) ]  -- %80

/-- Operations writing buffers 115 … 120 (main_v81 … main_v86), 6 of them. -/
abbrev opsG : List (HloOp τ sig (Elt F)) :=
  [ StableHlo.nary ![main_v71, main_v80, main_arg13] main_v81 (fun u => concatenate S500000x272 1 [⟨S500000x128, u 0⟩, ⟨S500000x128, u 1⟩, ⟨S500000x16, u 2⟩] concatenates_S500000x128_S500000x128_S500000x16_S500000x272_d1),  -- %81
    StableHlo.unary main_arg7 main_v82 ((transpose S272x128 [1, 0] · transposes_S128x272_S272x128_1_0) : (⟨S128x272, .f32⟩ : BufTy).Contents (Elt F) → (⟨S272x128, .f32⟩ : BufTy).Contents (Elt F)),  -- %82
    StableHlo.binary main_v81 main_v82 main_v83 ((fun l r => Host.dotGeneral dot_S500000x272_S272x128_S500000x128_1_0_0_1_n_n none l r) : (⟨S500000x272, .f32⟩ : BufTy).Contents (Elt F) → (⟨S272x128, .f32⟩ : BufTy).Contents (Elt F) → (⟨S500000x128, .f32⟩ : BufTy).Contents (Elt F)),  -- %83
    StableHlo.unary main_arg8 main_v84 (broadcastInDim S1x128 ![1] bcast_S128_S1x128_1 : (⟨S128, .f32⟩ : BufTy).Contents (Elt F) → (⟨S1x128, .f32⟩ : BufTy).Contents (Elt F)),  -- %84
    StableHlo.unary main_v84 main_v85 (broadcastInDim S500000x128 ![0, 1] bcast_S1x128_S500000x128_0_1 : (⟨S1x128, .f32⟩ : BufTy).Contents (Elt F) → (⟨S500000x128, .f32⟩ : BufTy).Contents (Elt F)),  -- %85
    StableHlo.binary main_v83 main_v85 main_v86 (addf : (⟨S500000x128, .f32⟩ : BufTy).Contents (Elt F) → (⟨S500000x128, .f32⟩ : BufTy).Contents (Elt F) → (⟨S500000x128, .f32⟩ : BufTy).Contents (Elt F)) ]  -- %86

/-- Operations writing buffers 121 … 125 (main_cst_14 … main_v89), 5 of them. -/
abbrev opsH : List (HloOp τ sig (Elt F)) :=
  [ StableHlo.nullary main_cst_14 (constant S_ .f32 0x00000000#32),  -- %cst_14
    StableHlo.binary main_v86 main_cst_14 main_v87 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),  -- %87
    StableHlo.nullary main_cst_15 (constant S_ .f32 0x48F42400#32),  -- %cst_15
    StableHlo.unary main_cst_15 main_v88 (broadcastInDim S128 ![] bcast_S_S128 : (⟨S_, .f32⟩ : BufTy).Contents (Elt F) → (⟨S128, .f32⟩ : BufTy).Contents (Elt F)),  -- %88
    StableHlo.binary main_v87 main_v88 main_v89 (Host.divf : (⟨S128, .f32⟩ : BufTy).Contents (Elt F) → (⟨S128, .f32⟩ : BufTy).Contents (Elt F) → (⟨S128, .f32⟩ : BufTy).Contents (Elt F)) ]  -- %89

/-- Operations writing buffers 126 … 148 (main_c_16 … main_v90), 23 of them. -/
abbrev opsI : List (HloOp τ sig (Elt F)) :=
  [ StableHlo.nullary main_c_16 (constantI S_ 32 0#32),  -- %c_16
    StableHlo.TRef.nullary main_call1.cst (constant S_ .f32 0x00000000#32),  -- @var's %cst
    StableHlo.TRef.binary (.of main_v86 : StableHlo.TRef sig ⟨S500000x128, .f32⟩) main_call1.cst main_call1.v0 (fun x v => Host.reduceAdd x v reducesTo_S500000x128_S128_d0 h_S_),  -- @var's %0
    StableHlo.TRef.unary main_call1.v0 main_call1.v1 (broadcastInDim S1x128 ![1] bcast_S128_S1x128_1),  -- @var's %1
    StableHlo.TRef.nullary main_call1.cst_0 (constant S_ .f32 0x48F42400#32),  -- @var's %cst_0
    StableHlo.TRef.unary main_call1.cst_0 main_call1.v2 (broadcastInDim S1x128 ![] bcast_S_S1x128),  -- @var's %2
    StableHlo.TRef.binary main_call1.v1 main_call1.v2 main_call1.v3 Host.divf,  -- @var's %3
    StableHlo.TRef.unary main_call1.v3 main_call1.v4 (broadcastInDim S500000x128 ![0, 1] bcast_S1x128_S500000x128_0_1),  -- @var's %4
    StableHlo.TRef.binary (.of main_v86 : StableHlo.TRef sig ⟨S500000x128, .f32⟩) main_call1.v4 main_call1.v5 subf,  -- @var's %5
    StableHlo.TRef.binary main_call1.v5 main_call1.v5 main_call1.v6 mulf,  -- @var's %6
    StableHlo.TRef.unary (.of main_c_16 : StableHlo.TRef sig ⟨S_, .i32⟩) main_call1.v7 (sitofp .f32),  -- @var's %7
    StableHlo.TRef.nullary main_call1.cst_1 (constant S_ .f32 0x48F42400#32),  -- @var's %cst_1
    StableHlo.TRef.binary main_call1.cst_1 main_call1.v7 main_call1.v8 subf,  -- @var's %8
    StableHlo.TRef.nullary main_call1.cst_2 (constant S_ .f32 0x00000000#32),  -- @var's %cst_2
    StableHlo.TRef.binary main_call1.v6 main_call1.cst_2 main_call1.v9 (fun x v => Host.reduceAdd x v reducesTo_S500000x128_S128_d0 h_S_),  -- @var's %9
    StableHlo.TRef.unary main_call1.v8 main_call1.v10 (broadcastInDim S128 ![] bcast_S_S128),  -- @var's %10
    StableHlo.TRef.binary main_call1.v9 main_call1.v10 main_call1.v11 Host.divf,  -- @var's %11
    StableHlo.TRef.nullary main_call1.cst_3 (constant S_ .f32 0x00000000#32),  -- @var's %cst_3
    StableHlo.TRef.binary main_call1.v8 main_call1.cst_3 main_call1.v12 (cmpf .ogt),  -- @var's %12
    StableHlo.TRef.nullary main_call1.cst_4 (constant S_ .f32 0x7FC00000#32),  -- @var's %cst_4
    StableHlo.TRef.unary main_call1.cst_4 main_call1.call0.v0 id,  -- @where's %0
    StableHlo.TRef.unary main_call1.call0.v0 main_call1.call0.v1 (broadcastInDim S128 ![] bcast_S_S128),  -- @where's %1
    StableHlo.TRef.ternary main_call1.v12 main_call1.v11 main_call1.call0.v1 main_call1.call0.v2 (fun p a b => select (broadcastInDim S128 ![] bcast_S_S128 p) a b) ]  -- @where's %2

/-- Operations writing buffers 149 … 158 (main_v91 … main_v99), 10 of them. -/
abbrev opsJ0 : List (HloOp τ sig (Elt F)) :=
  [ StableHlo.unary main_v89 main_v91 (broadcastInDim S1x128 ![1] bcast_S128_S1x128_1 : (⟨S128, .f32⟩ : BufTy).Contents (Elt F) → (⟨S1x128, .f32⟩ : BufTy).Contents (Elt F)),  -- %91
    StableHlo.unary main_v91 main_v92 (broadcastInDim S500000x128 ![0, 1] bcast_S1x128_S500000x128_0_1 : (⟨S1x128, .f32⟩ : BufTy).Contents (Elt F) → (⟨S500000x128, .f32⟩ : BufTy).Contents (Elt F)),  -- %92
    StableHlo.binary main_v86 main_v92 main_v93 (subf : (⟨S500000x128, .f32⟩ : BufTy).Contents (Elt F) → (⟨S500000x128, .f32⟩ : BufTy).Contents (Elt F) → (⟨S500000x128, .f32⟩ : BufTy).Contents (Elt F)),  -- %93
    StableHlo.nullary main_cst_17 (constant S_ .f32 0x3727C5AC#32),  -- %cst_17
    StableHlo.unary main_cst_17 main_v94 (broadcastInDim S128 ![] bcast_S_S128 : (⟨S_, .f32⟩ : BufTy).Contents (Elt F) → (⟨S128, .f32⟩ : BufTy).Contents (Elt F)),  -- %94
    StableHlo.binary main_v90 main_v94 main_v95 (addf : (⟨S128, .f32⟩ : BufTy).Contents (Elt F) → (⟨S128, .f32⟩ : BufTy).Contents (Elt F) → (⟨S128, .f32⟩ : BufTy).Contents (Elt F)),  -- %95
    StableHlo.unary main_v95 main_v96 (Host.rsqrt : (⟨S128, .f32⟩ : BufTy).Contents (Elt F) → (⟨S128, .f32⟩ : BufTy).Contents (Elt F)),  -- %96
    StableHlo.unary main_v96 main_v97 (broadcastInDim S1x128 ![1] bcast_S128_S1x128_1 : (⟨S128, .f32⟩ : BufTy).Contents (Elt F) → (⟨S1x128, .f32⟩ : BufTy).Contents (Elt F)),  -- %97
    StableHlo.unary main_v97 main_v98 (broadcastInDim S500000x128 ![0, 1] bcast_S1x128_S500000x128_0_1 : (⟨S1x128, .f32⟩ : BufTy).Contents (Elt F) → (⟨S500000x128, .f32⟩ : BufTy).Contents (Elt F)),  -- %98
    StableHlo.binary main_v93 main_v98 main_v99 (mulf : (⟨S500000x128, .f32⟩ : BufTy).Contents (Elt F) → (⟨S500000x128, .f32⟩ : BufTy).Contents (Elt F) → (⟨S500000x128, .f32⟩ : BufTy).Contents (Elt F)) ]  -- %99

/-- Operations writing buffers 159 … 172 (main_v100 … main_v111), 14 of them. -/
abbrev opsJ1 : List (HloOp τ sig (Elt F)) :=
  [ StableHlo.unary main_arg9 main_v100 (broadcastInDim S1x128 ![1] bcast_S128_S1x128_1 : (⟨S128, .f32⟩ : BufTy).Contents (Elt F) → (⟨S1x128, .f32⟩ : BufTy).Contents (Elt F)),  -- %100
    StableHlo.unary main_v100 main_v101 (broadcastInDim S500000x128 ![0, 1] bcast_S1x128_S500000x128_0_1 : (⟨S1x128, .f32⟩ : BufTy).Contents (Elt F) → (⟨S500000x128, .f32⟩ : BufTy).Contents (Elt F)),  -- %101
    StableHlo.binary main_v99 main_v101 main_v102 (mulf : (⟨S500000x128, .f32⟩ : BufTy).Contents (Elt F) → (⟨S500000x128, .f32⟩ : BufTy).Contents (Elt F) → (⟨S500000x128, .f32⟩ : BufTy).Contents (Elt F)),  -- %102
    StableHlo.unary main_arg10 main_v103 (broadcastInDim S1x128 ![1] bcast_S128_S1x128_1 : (⟨S128, .f32⟩ : BufTy).Contents (Elt F) → (⟨S1x128, .f32⟩ : BufTy).Contents (Elt F)),  -- %103
    StableHlo.unary main_v103 main_v104 (broadcastInDim S500000x128 ![0, 1] bcast_S1x128_S500000x128_0_1 : (⟨S1x128, .f32⟩ : BufTy).Contents (Elt F) → (⟨S500000x128, .f32⟩ : BufTy).Contents (Elt F)),  -- %104
    StableHlo.binary main_v102 main_v104 main_v105 (addf : (⟨S500000x128, .f32⟩ : BufTy).Contents (Elt F) → (⟨S500000x128, .f32⟩ : BufTy).Contents (Elt F) → (⟨S500000x128, .f32⟩ : BufTy).Contents (Elt F)),  -- %105
    StableHlo.TRef.nullary main_call2.cst (constant S_ .f32 0x00000000#32),  -- @relu_0's %cst
    StableHlo.TRef.unary main_call2.cst main_call2.v0 (broadcastInDim S500000x128 ![] bcast_S_S500000x128),  -- @relu_0's %0
    StableHlo.TRef.binary (.of main_v105 : StableHlo.TRef sig ⟨S500000x128, .f32⟩) main_call2.v0 main_call2.v1 maximumf,  -- @relu_0's %1
    StableHlo.unary main_arg11 main_v107 ((transpose S128x1 [1, 0] · transposes_S1x128_S128x1_1_0) : (⟨S1x128, .f32⟩ : BufTy).Contents (Elt F) → (⟨S128x1, .f32⟩ : BufTy).Contents (Elt F)),  -- %107
    StableHlo.binary main_v106 main_v107 main_v108 ((fun l r => Host.dotGeneral dot_S500000x128_S128x1_S500000x1_1_0_0_1_n_n none l r) : (⟨S500000x128, .f32⟩ : BufTy).Contents (Elt F) → (⟨S128x1, .f32⟩ : BufTy).Contents (Elt F) → (⟨S500000x1, .f32⟩ : BufTy).Contents (Elt F)),  -- %108
    StableHlo.unary main_arg12 main_v109 (broadcastInDim S1x1 ![1] bcast_S1_S1x1_1 : (⟨S1, .f32⟩ : BufTy).Contents (Elt F) → (⟨S1x1, .f32⟩ : BufTy).Contents (Elt F)),  -- %109
    StableHlo.unary main_v109 main_v110 (broadcastInDim S500000x1 ![0, 1] bcast_S1x1_S500000x1_0_1 : (⟨S1x1, .f32⟩ : BufTy).Contents (Elt F) → (⟨S500000x1, .f32⟩ : BufTy).Contents (Elt F)),  -- %110
    StableHlo.binary main_v108 main_v110 main_v111 (addf : (⟨S500000x1, .f32⟩ : BufTy).Contents (Elt F) → (⟨S500000x1, .f32⟩ : BufTy).Contents (Elt F) → (⟨S500000x1, .f32⟩ : BufTy).Contents (Elt F)) ]  -- %111

/-- The first window's operations (statements 1 … 60 of @main). -/
abbrev ops0 : List (HloOp τ sig (Elt F)) := opsA ++ opsB ++ opsC0

/-- The second window's operations (statements 61 … 120). -/
abbrev ops1 : List (HloOp τ sig (Elt F)) := opsC1 ++ opsD ++ opsE ++ opsF ++ opsG ++ opsH ++ opsI ++ opsJ0

/-- The third window's operations (statements 121 … 133). -/
abbrev ops2 : List (HloOp τ sig (Elt F)) := opsJ1

/-- @main's 157 host operations, in order. -/
abbrev ops : List (HloOp τ sig (Elt F)) := ops0 ++ ops1 ++ ops2

end Cert.ReferenceIdeal.RefRun

end
-- ==== Proof.RefRun.lean ====
/-
  The reference's run. @main is a straight line of host operations, the outlined functions' lines at their call sites:
  every weakly fair execution terminates with each buffer at the fold of the operations over the launch contents.
  Each operation writes one buffer, and the buffers are numbered in program order, the sixteen arguments first: so a
  list of consecutive operations writes a range of indices, and leaves every buffer outside the range as it was.
-/
import proofs.«158941_j57870389346679_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation -/

/-- Two lists folded one after the other are their concatenation folded. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What the run and the frame ask of each operation -/

/-- The operation touches TensorCore buffers only, determines everything it writes, and every buffer it writes has its
    index between lo and hi. -/
structure Ok (lo hi : Nat) (op : HloOp τ sig (Elt F)) : Prop where
  sub : op.bufs ⊆ tcRefs τ sig
  fresh : op.fresh = ∅
  range : ∀ b ∈ op.writes, lo ≤ b.idx.val ∧ b.idx.val ≤ hi

/-- Every operation of the list is such. -/
def AllOk (lo hi : Nat) (l : List (HloOp τ sig (Elt F))) : Prop := ∀ op ∈ l, Ok lo hi op

theorem AllOk.append {lo hi : Nat} {l₁ l₂ : List (HloOp τ sig (Elt F))} (h₁ : AllOk lo hi l₁) (h₂ : AllOk lo hi l₂) :
    AllOk lo hi (l₁ ++ l₂) :=
  fun op h => (List.mem_append.mp h).elim (h₁ op) (h₂ op)

theorem AllOk.mono {lo hi lo' hi' : Nat} {l : List (HloOp τ sig (Elt F))} (h : AllOk lo hi l) (hlo : lo' ≤ lo) (hhi : hi ≤ hi') :
    AllOk lo' hi' l :=
  fun op hop => ⟨(h op hop).sub, (h op hop).fresh,
    fun b hb => ⟨le_trans hlo ((h op hop).range b hb).1, le_trans ((h op hop).range b hb).2 hhi⟩⟩

/-- A buffer whose index is outside the range a list writes keeps its contents. -/
theorem after_frame {lo hi : Nat} {l : List (HloOp τ sig (Elt F))} (h : AllOk lo hi l) (V : Valuation τ sig (Elt F))
    (b : DevRef τ sig) (hb : b.idx.val < lo ∨ hi < b.idx.val) : after l V b = V b :=
  after_of_forall_not_mem l V fun op hop hmem => by
    have := (h op hop).range b hmem
    omega

/-- One operation of a literal list: its buffers by its builder's lemma (found by the builder's name, never by trying
    another builder's), nothing fresh by computation, the one buffer it writes read off and its index compared. -/
local macro "ok_op" : tactic =>
  `(tactic| exact ⟨by simp only [nullary_bufs_sub, unary_bufs_sub, binary_bufs_sub, ternary_bufs_sub, reshape_bufs_sub,
        nary_bufs_sub],
      rfl, fun b hb => by rw [Finset.mem_singleton.mp hb]; decide⟩)

/-- A literal list, one operation at a time. -/
local macro "ok_list" : tactic =>
  `(tactic| (intro op h; (repeat (cases h with | head => ok_op | tail _ h => ?_)); exact nomatch h))

theorem okA : AllOk 16 44 (opsA (F := F)) := by ok_list
theorem okB : AllOk 45 55 (opsB (F := F)) := by ok_list
theorem okC0 : AllOk 56 77 (opsC0 (F := F)) := by ok_list
theorem okC1 : AllOk 78 84 (opsC1 (F := F)) := by ok_list
theorem okD : AllOk 85 92 (opsD (F := F)) := by ok_list
theorem okE : AllOk 93 103 (opsE (F := F)) := by ok_list
theorem okF : AllOk 104 114 (opsF (F := F)) := by ok_list
theorem okG : AllOk 115 120 (opsG (F := F)) := by ok_list
theorem okH : AllOk 121 125 (opsH (F := F)) := by ok_list
theorem okI : AllOk 126 148 (opsI (F := F)) := by ok_list
theorem okJ0 : AllOk 149 158 (opsJ0 (F := F)) := by ok_list
theorem okJ1 : AllOk 159 172 (opsJ1 (F := F)) := by ok_list

/-- No operation of @main writes an argument: every written index is 16 or more. -/
theorem ok : AllOk 16 172 (ops (F := F)) :=
  ((okA.mono (by decide) (by decide)).append ((okB.mono (by decide) (by decide)).append (okC0.mono (by decide) (by decide)))).append
    (((okC1.mono (by decide) (by decide)).append ((okD.mono (by decide) (by decide)).append ((okE.mono (by decide) (by decide)).append
      ((okF.mono (by decide) (by decide)).append ((okG.mono (by decide) (by decide)).append ((okH.mono (by decide) (by decide)).append
        ((okI.mono (by decide) (by decide)).append (okJ0.mono (by decide) (by decide))))))))).append
      (okJ1.mono (by decide) (by decide)))

/-! ## @main is that straight line -/

-- the binds of a window re-associated: the rewrite under the chain recurses once per statement
set_option maxRecDepth 8192 in
/-- The first window: the activation's three lines unfolded at the call. -/
theorem part0_eq (c : Dev nD) : main_part0 (F := F) c = seq ops0 := by
  simp only [main_part0, fn_relu.body, ops0, opsA, opsB, opsC0, List.cons_append, List.nil_append, seq, bind_assoc, pure_bind]
  rfl

set_option maxRecDepth 8192 in
/-- The second window: the variance's lines, and inside them the select's, unfolded at their calls. -/
theorem part1_eq (c : Dev nD) : main_part1 (F := F) c = seq ops1 := by
  simp only [main_part1, fn_var.body, fn_where.body, ops1, opsC1, opsD, opsE, opsF, opsG, opsH, opsI, opsJ0, List.cons_append,
    List.nil_append, seq, bind_assoc, pure_bind]
  rfl

set_option maxRecDepth 8192 in
/-- The third window: the last activation's three lines unfolded at the call. -/
theorem part2_eq (c : Dev nD) : main_part2 (F := F) c = seq ops2 := by
  simp only [main_part2, fn_relu_0.body, ops2, opsJ1, seq, bind_assoc, pure_bind]

/-- @main runs its three windows in order, and a concatenation runs as its parts in order. -/
theorem main_eq (c : Dev nD) : main (F := F) c = seq ops := by
  have h : main (F := F) c = (main_part0 c >>= fun _ => main_part1 c >>= fun _ => main_part2 c) := rfl
  rw [h, part0_eq, part1_eq, part2_eq]
  show _ = seq (ops0 ++ (ops1 ++ ops2))
  rw [seq_append ops0 (ops1 ++ ops2), seq_append ops1 ops2]

theorem scopedRefs_eq : (Finset.univ.filter fun b : Ref sig .tc => b.isScoped) = ∅ := by decide
theorem scopedSems_eq : (Finset.univ.filter fun sm : SemLoc sig => sm.isScoped .tc) = ∅ := by decide

/-- An argument's buffer after @main: what it held at launch. -/
theorem arg_eq (V : Valuation τ sig (Elt F)) (r : Ref sig .tc) (hr : r.idx.val < 16) :
    after ops V (Proc.devRef .tc r) = V (Proc.devRef .tc r) :=
  after_frame ok V _ (Or.inl hr)

/-- On the device, for any float values, from any memory with zero counters: every weakly fair execution of @main
    terminates with the result buffer at the operations' fold over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v111) = StableHlo.after ops (fun b => m (c, b)) (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨h c main_v111,
      (h c main_arg0).trans (arg_eq _ main_arg0 (by decide)), (h c main_arg1).trans (arg_eq _ main_arg1 (by decide)),
      (h c main_arg2).trans (arg_eq _ main_arg2 (by decide)), (h c main_arg3).trans (arg_eq _ main_arg3 (by decide)),
      (h c main_arg4).trans (arg_eq _ main_arg4 (by decide)), (h c main_arg5).trans (arg_eq _ main_arg5 (by decide)),
      (h c main_arg6).trans (arg_eq _ main_arg6 (by decide)), (h c main_arg7).trans (arg_eq _ main_arg7 (by decide)),
      (h c main_arg8).trans (arg_eq _ main_arg8 (by decide)), (h c main_arg9).trans (arg_eq _ main_arg9 (by decide)),
      (h c main_arg10).trans (arg_eq _ main_arg10 (by decide)), (h c main_arg11).trans (arg_eq _ main_arg11 (by decide)),
      (h c main_arg12).trans (arg_eq _ main_arg12 (by decide)), (h c main_arg13).trans (arg_eq _ main_arg13 (by decide)),
      (h c main_arg14).trans (arg_eq _ main_arg14 (by decide)), (h c main_arg15).trans (arg_eq _ main_arg15 (by decide))⟩)
    (run_seq scopedRefs_eq scopedSems_eq defs main (fun _ => ops) main_eq
      (fun _ => List.forall_iff_forall_mem.mpr fun op hop => (ok op hop).sub) m ρ
      (fun _ op hop => (ok op hop).fresh))

end Cert.ReferenceIdeal.RefRun

end
-- ==== Proof.RefStageDefs.lean ====
/- The reference's result as named stages: each definition is the host operations between two cuts composed, every operation
   with its printed dimension record, the cut values and the arguments as parameters. A table of definitions. -/
import proofs.«158941_j57870389346679_2_alg».proof.ReferenceIdeal
import proofs.«158941_j57870389346679_2_alg».proof.Proof.Gen.ReferenceIdeal
import Idealize.ShloMosaic.Lib.StableHlo.Run

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-- The neighbour mean of the 64-wide node features: the segment sum of the gathered rows over max(degree, 1) (%22). -/
def mean64 (x : (⟨S100000x64, .f32⟩ : BufTy).Contents (Elt F)) (ei : (⟨S2x1600000, .i32⟩ : BufTy).Contents (Elt F)) :
    (⟨S100000x64, .f32⟩ : BufTy).Contents (Elt F) :=
  ((Host.divf : (⟨S100000x64, .f32⟩ : BufTy).Contents (Elt F) → (⟨S100000x64, .f32⟩ : BufTy).Contents (Elt F) → (⟨S100000x64, .f32⟩ : BufTy).Contents (Elt F)) (Host.scatterAdd scatter_S100000x64_S1600000x1_S1600000x64_1_0_0_1 ((broadcastInDim S100000x64 ![] bcast_S_S100000x64 : (⟨S_, .f32⟩ : BufTy).Contents (Elt F) → (⟨S100000x64, .f32⟩ : BufTy).Contents (Elt F)) (constant S_ .f32 0x00000000#32 : (⟨S_, .f32⟩ : BufTy).Contents (Elt F)) : (⟨S100000x64, .f32⟩ : BufTy).Contents (Elt F)) ((broadcastInDim S1600000x1 ![0] bcast_S1600000_S1600000x1_0 : (⟨S1600000, .i32⟩ : BufTy).Contents (Elt F) → (⟨S1600000x1, .i32⟩ : BufTy).Contents (Elt F)) (shapeCast S1600000 (extractStridedSlice S1x1600000 ![1, 0] ei slices_S2x1600000_S1x1600000_1_0 : (⟨S1x1600000, .i32⟩ : BufTy).Contents (Elt F)) shapeCasts_S1x1600000_S1600000 : (⟨S1600000, .i32⟩ : BufTy).Contents (Elt F)) : (⟨S1600000x1, .i32⟩ : BufTy).Contents (Elt F)) (Host.gather gather_S100000x64_S1600000x1_S1600000x64_1_0_n_n_0_1_164 x ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (shapeCast S1600000 (extractStridedSlice S1x1600000 ![0, 0] ei slices_S2x1600000_S1x1600000_0_0 : (⟨S1x1600000, .i32⟩ : BufTy).Contents (Elt F)) shapeCasts_S1x1600000_S1600000 : (⟨S1600000, .i32⟩ : BufTy).Contents (Elt F)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)) : (⟨S1600000, .i32⟩ : BufTy).Contents (Elt F)) : (⟨S1600000, .i1⟩ : BufTy).Contents (Elt F)) ((addi : (⟨S1600000, .i32⟩ : BufTy).Contents (Elt F) → (⟨S1600000, .i32⟩ : BufTy).Contents (Elt F) → (⟨S1600000, .i32⟩ : BufTy).Contents (Elt F)) (shapeCast S1600000 (extractStridedSlice S1x1600000 ![0, 0] ei slices_S2x1600000_S1x1600000_0_0 : (⟨S1x1600000, .i32⟩ : BufTy).Contents (Elt F)) shapeCasts_S1x1600000_S1600000 : (⟨S1600000, .i32⟩ : BufTy).Contents (Elt F)) ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)) : (⟨S1600000, .i32⟩ : BufTy).Contents (Elt F)) : (⟨S1600000, .i32⟩ : BufTy).Contents (Elt F)) (shapeCast S1600000 (extractStridedSlice S1x1600000 ![0, 0] ei slices_S2x1600000_S1x1600000_0_0 : (⟨S1x1600000, .i32⟩ : BufTy).Contents (Elt F)) shapeCasts_S1x1600000_S1600000 : (⟨S1600000, .i32⟩ : BufTy).Contents (Elt F)) : (⟨S1600000, .i32⟩ : BufTy).Contents (Elt F)) : (⟨S1600000x1, .i32⟩ : BufTy).Contents (Elt F)) : (⟨S1600000x64, .f32⟩ : BufTy).Contents (Elt F)) : (⟨S100000x64, .f32⟩ : BufTy).Contents (Elt F)) ((broadcastInDim S100000x64 ![0, 1] bcast_S100000x1_S100000x64_0_1 : (⟨S100000x1, .f32⟩ : BufTy).Contents (Elt F) → (⟨S100000x64, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (Host.scatterAdd scatter_S100000_S1600000x1_S1600000_n_0_0_1 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)) : (⟨S100000, .f32⟩ : BufTy).Contents (Elt F)) ((broadcastInDim S1600000x1 ![0] bcast_S1600000_S1600000x1_0 : (⟨S1600000, .i32⟩ : BufTy).Contents (Elt F) → (⟨S1600000x1, .i32⟩ : BufTy).Contents (Elt F)) (shapeCast S1600000 (extractStridedSlice S1x1600000 ![1, 0] ei slices_S2x1600000_S1x1600000_1_0 : (⟨S1x1600000, .i32⟩ : BufTy).Contents (Elt F)) shapeCasts_S1x1600000_S1600000 : (⟨S1600000, .i32⟩ : BufTy).Contents (Elt F)) : (⟨S1600000x1, .i32⟩ : BufTy).Contents (Elt F)) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)) : (⟨S1600000, .f32⟩ : BufTy).Contents (Elt F)) : (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x64, .f32⟩ : BufTy).Contents (Elt F)) : (⟨S100000x64, .f32⟩ : BufTy).Contents (Elt F))

/-- The first layer after its activation (%31). -/
def hidden1 (mean : (⟨S100000x64, .f32⟩ : BufTy).Contents (Elt F)) (x : (⟨S100000x64, .f32⟩ : BufTy).Contents (Elt F)) (w1l : (⟨S128x64, .f32⟩ : BufTy).Contents (Elt F)) (b1l : (⟨S128, .f32⟩ : BufTy).Contents (Elt F)) (w1r : (⟨S128x64, .f32⟩ : BufTy).Contents (Elt F)) :
    (⟨S100000x128, .f32⟩ : BufTy).Contents (Elt F) :=
  (maximumf ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (Host.dotGeneral dot_S100000x64_S64x128_S100000x128_1_0_0_1_n_n none mean (transpose S64x128 [1, 0] w1l transposes_S128x64_S64x128_1_0 : (⟨S64x128, .f32⟩ : BufTy).Contents (Elt F)) : (⟨S100000x128, .f32⟩ : BufTy).Contents (Elt F)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b1l : (⟨S1x128, .f32⟩ : BufTy).Contents (Elt F)) : (⟨S100000x128, .f32⟩ : BufTy).Contents (Elt F)) : (⟨S100000x128, .f32⟩ : BufTy).Contents (Elt F)) (Host.dotGeneral dot_S100000x64_S64x128_S100000x128_1_0_0_1_n_n none x (transpose S64x128 [1, 0] w1r transposes_S128x64_S64x128_1_0 : (⟨S64x128, .f32⟩ : BufTy).Contents (Elt F)) : (⟨S100000x128, .f32⟩ : BufTy).Contents (Elt F)) : (⟨S100000x128, .f32⟩ : BufTy).Contents (Elt F)) ((broadcastInDim S100000x128 ![] bcast_S_S100000x128) (constant S_ .f32 0x00000000#32 : (⟨S_, .f32⟩ : BufTy).Contents (Elt F)) : (⟨S100000x128, .f32⟩ : BufTy).Contents (Elt F)) : (⟨S100000x128, .f32⟩ : BufTy).Contents (Elt F))

/-- The neighbour mean of the 128-wide hidden features (%54). -/
def mean128 (h : (⟨S100000x128, .f32⟩ : BufTy).Contents (Elt F)) (ei : (⟨S2x1600000, .i32⟩ : BufTy).Contents (Elt F)) :
    (⟨S100000x128, .f32⟩ : BufTy).Contents (Elt F) :=
  ((Host.divf : (⟨S100000x128, .f32⟩ : BufTy).Contents (Elt F) → (⟨S100000x128, .f32⟩ : BufTy).Contents (Elt F) → (⟨S100000x128, .f32⟩ : BufTy).Contents (Elt F)) (Host.scatterAdd scatter_S100000x128_S1600000x1_S1600000x128_1_0_0_1 ((broadcastInDim S100000x128 ![] bcast_S_S100000x128 : (⟨S_, .f32⟩ : BufTy).Contents (Elt F) → (⟨S100000x128, .f32⟩ : BufTy).Contents (Elt F)) (constant S_ .f32 0x00000000#32 : (⟨S_, .f32⟩ : BufTy).Contents (Elt F)) : (⟨S100000x128, .f32⟩ : BufTy).Contents (Elt F)) ((broadcastInDim S1600000x1 ![0] bcast_S1600000_S1600000x1_0 : (⟨S1600000, .i32⟩ : BufTy).Contents (Elt F) → (⟨S1600000x1, .i32⟩ : BufTy).Contents (Elt F)) (shapeCast S1600000 (extractStridedSlice S1x1600000 ![1, 0] ei slices_S2x1600000_S1x1600000_1_0 : (⟨S1x1600000, .i32⟩ : BufTy).Contents (Elt F)) shapeCasts_S1x1600000_S1600000 : (⟨S1600000, .i32⟩ : BufTy).Contents (Elt F)) : (⟨S1600000x1, .i32⟩ : BufTy).Contents (Elt F)) (Host.gather gather_S100000x128_S1600000x1_S1600000x128_1_0_n_n_0_1_1128 h ((broadcastInDim S1600000x1 ![0] bcast_S1600000_S1600000x1_0 : (⟨S1600000, .i32⟩ : BufTy).Contents (Elt F) → (⟨S1600000x1, .i32⟩ : BufTy).Contents (Elt F)) ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)) ((cmpi .slt : (⟨S1600000, .i32⟩ : BufTy).Contents (Elt F) → (⟨S1600000, .i32⟩ : BufTy).Contents (Elt F) → (⟨S1600000, .i1⟩ : BufTy).Contents (Elt F)) (shapeCast S1600000 (extractStridedSlice S1x1600000 ![0, 0] ei slices_S2x1600000_S1x1600000_0_0 : (⟨S1x1600000, .i32⟩ : BufTy).Contents (Elt F)) shapeCasts_S1x1600000_S1600000 : (⟨S1600000, .i32⟩ : BufTy).Contents (Elt F)) ((broadcastInDim S1600000 ![] bcast_S_S1600000 : (⟨S_, .i32⟩ : BufTy).Contents (Elt F) → (⟨S1600000, .i32⟩ : BufTy).Contents (Elt F)) (constantI S_ 32 0#32 : (⟨S_, .i32⟩ : BufTy).Contents (Elt F)) : (⟨S1600000, .i32⟩ : BufTy).Contents (Elt F)) : (⟨S1600000, .i1⟩ : BufTy).Contents (Elt F)) ((addi : (⟨S1600000, .i32⟩ : BufTy).Contents (Elt F) → (⟨S1600000, .i32⟩ : BufTy).Contents (Elt F) → (⟨S1600000, .i32⟩ : BufTy).Contents (Elt F)) (shapeCast S1600000 (extractStridedSlice S1x1600000 ![0, 0] ei slices_S2x1600000_S1x1600000_0_0 : (⟨S1x1600000, .i32⟩ : BufTy).Contents (Elt F)) shapeCasts_S1x1600000_S1600000 : (⟨S1600000, .i32⟩ : BufTy).Contents (Elt F)) ((broadcastInDim S1600000 ![] bcast_S_S1600000 : (⟨S_, .i32⟩ : BufTy).Contents (Elt F) → (⟨S1600000, .i32⟩ : BufTy).Contents (Elt F)) (constantI S_ 32 100000#32 : (⟨S_, .i32⟩ : BufTy).Contents (Elt F)) : (⟨S1600000, .i32⟩ : BufTy).Contents (Elt F)) : (⟨S1600000, .i32⟩ : BufTy).Contents (Elt F)) (shapeCast S1600000 (extractStridedSlice S1x1600000 ![0, 0] ei slices_S2x1600000_S1x1600000_0_0 : (⟨S1x1600000, .i32⟩ : BufTy).Contents (Elt F)) shapeCasts_S1x1600000_S1600000 : (⟨S1600000, .i32⟩ : BufTy).Contents (Elt F)) : (⟨S1600000, .i32⟩ : BufTy).Contents (Elt F)) : (⟨S1600000x1, .i32⟩ : BufTy).Contents (Elt F)) : (⟨S1600000x128, .f32⟩ : BufTy).Contents (Elt F)) : (⟨S100000x128, .f32⟩ : BufTy).Contents (Elt F)) ((broadcastInDim S100000x128 ![0, 1] bcast_S100000x1_S100000x128_0_1 : (⟨S100000x1, .f32⟩ : BufTy).Contents (Elt F) → (⟨S100000x128, .f32⟩ : BufTy).Contents (Elt F)) ((broadcastInDim S100000x1 ![0] bcast_S100000_S100000x1_0 : (⟨S100000, .f32⟩ : BufTy).Contents (Elt F) → (⟨S100000x1, .f32⟩ : BufTy).Contents (Elt F)) ((maximumf : (⟨S100000, .f32⟩ : BufTy).Contents (Elt F) → (⟨S100000, .f32⟩ : BufTy).Contents (Elt F) → (⟨S100000, .f32⟩ : BufTy).Contents (Elt F)) (Host.scatterAdd scatter_S100000_S1600000x1_S1600000_n_0_0_1 ((broadcastInDim S100000 ![] bcast_S_S100000 : (⟨S_, .f32⟩ : BufTy).Contents (Elt F) → (⟨S100000, .f32⟩ : BufTy).Contents (Elt F)) (constant S_ .f32 0x00000000#32 : (⟨S_, .f32⟩ : BufTy).Contents (Elt F)) : (⟨S100000, .f32⟩ : BufTy).Contents (Elt F)) ((broadcastInDim S1600000x1 ![0] bcast_S1600000_S1600000x1_0 : (⟨S1600000, .i32⟩ : BufTy).Contents (Elt F) → (⟨S1600000x1, .i32⟩ : BufTy).Contents (Elt F)) (shapeCast S1600000 (extractStridedSlice S1x1600000 ![1, 0] ei slices_S2x1600000_S1x1600000_1_0 : (⟨S1x1600000, .i32⟩ : BufTy).Contents (Elt F)) shapeCasts_S1x1600000_S1600000 : (⟨S1600000, .i32⟩ : BufTy).Contents (Elt F)) : (⟨S1600000x1, .i32⟩ : BufTy).Contents (Elt F)) ((broadcastInDim S1600000 ![] bcast_S_S1600000 : (⟨S_, .f32⟩ : BufTy).Contents (Elt F) → (⟨S1600000, .f32⟩ : BufTy).Contents (Elt F)) (constant S_ .f32 0x3F800000#32 : (⟨S_, .f32⟩ : BufTy).Contents (Elt F)) : (⟨S1600000, .f32⟩ : BufTy).Contents (Elt F)) : (⟨S100000, .f32⟩ : BufTy).Contents (Elt F)) ((broadcastInDim S100000 ![] bcast_S_S100000 : (⟨S_, .f32⟩ : BufTy).Contents (Elt F) → (⟨S100000, .f32⟩ : BufTy).Contents (Elt F)) (constant S_ .f32 0x3F800000#32 : (⟨S_, .f32⟩ : BufTy).Contents (Elt F)) : (⟨S100000, .f32⟩ : BufTy).Contents (Elt F)) : (⟨S100000, .f32⟩ : BufTy).Contents (Elt F)) : (⟨S100000x1, .f32⟩ : BufTy).Contents (Elt F)) : (⟨S100000x128, .f32⟩ : BufTy).Contents (Elt F)) : (⟨S100000x128, .f32⟩ : BufTy).Contents (Elt F))

/-- The second layer (%62). -/
def hidden2 (mean : (⟨S100000x128, .f32⟩ : BufTy).Contents (Elt F)) (h : (⟨S100000x128, .f32⟩ : BufTy).Contents (Elt F)) (w2l : (⟨S128x128, .f32⟩ : BufTy).Contents (Elt F)) (b2l : (⟨S128, .f32⟩ : BufTy).Contents (Elt F)) (w2r : (⟨S128x128, .f32⟩ : BufTy).Contents (Elt F)) :
    (⟨S100000x128, .f32⟩ : BufTy).Contents (Elt F) :=
  ((addf : (⟨S100000x128, .f32⟩ : BufTy).Contents (Elt F) → (⟨S100000x128, .f32⟩ : BufTy).Contents (Elt F) → (⟨S100000x128, .f32⟩ : BufTy).Contents (Elt F)) ((addf : (⟨S100000x128, .f32⟩ : BufTy).Contents (Elt F) → (⟨S100000x128, .f32⟩ : BufTy).Contents (Elt F) → (⟨S100000x128, .f32⟩ : BufTy).Contents (Elt F)) (Host.dotGeneral dot_S100000x128_S128x128_S100000x128_1_0_0_1_n_n none mean (transpose S128x128 [1, 0] w2l transposes_S128x128_S128x128_1_0 : (⟨S128x128, .f32⟩ : BufTy).Contents (Elt F)) : (⟨S100000x128, .f32⟩ : BufTy).Contents (Elt F)) ((broadcastInDim S100000x128 ![0, 1] bcast_S1x128_S100000x128_0_1 : (⟨S1x128, .f32⟩ : BufTy).Contents (Elt F) → (⟨S100000x128, .f32⟩ : BufTy).Contents (Elt F)) ((broadcastInDim S1x128 ![1] bcast_S128_S1x128_1 : (⟨S128, .f32⟩ : BufTy).Contents (Elt F) → (⟨S1x128, .f32⟩ : BufTy).Contents (Elt F)) b2l : (⟨S1x128, .f32⟩ : BufTy).Contents (Elt F)) : (⟨S100000x128, .f32⟩ : BufTy).Contents (Elt F)) : (⟨S100000x128, .f32⟩ : BufTy).Contents (Elt F)) (Host.dotGeneral dot_S100000x128_S128x128_S100000x128_1_0_0_1_n_n none h (transpose S128x128 [1, 0] w2r transposes_S128x128_S128x128_1_0 : (⟨S128x128, .f32⟩ : BufTy).Contents (Elt F)) : (⟨S100000x128, .f32⟩ : BufTy).Contents (Elt F)) : (⟨S100000x128, .f32⟩ : BufTy).Contents (Elt F))

/-- The embeddings' rows at the labelled edges' first end nodes (%71). -/
def rowsAt0 (h : (⟨S100000x128, .f32⟩ : BufTy).Contents (Elt F)) (eli : (⟨S2x500000, .i32⟩ : BufTy).Contents (Elt F)) :
    (⟨S500000x128, .f32⟩ : BufTy).Contents (Elt F) :=
  (Host.gather gather_S100000x128_S500000x1_S500000x128_1_0_n_n_0_1_1128 h ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (shapeCast S500000 (extractStridedSlice S1x500000 ![0, 0] eli slices_S2x500000_S1x500000_0_0 : (⟨S1x500000, .i32⟩ : BufTy).Contents (Elt F)) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)) : (⟨S500000, .i32⟩ : BufTy).Contents (Elt F)) : (⟨S500000, .i1⟩ : BufTy).Contents (Elt F)) ((addi : (⟨S500000, .i32⟩ : BufTy).Contents (Elt F) → (⟨S500000, .i32⟩ : BufTy).Contents (Elt F) → (⟨S500000, .i32⟩ : BufTy).Contents (Elt F)) (shapeCast S500000 (extractStridedSlice S1x500000 ![0, 0] eli slices_S2x500000_S1x500000_0_0 : (⟨S1x500000, .i32⟩ : BufTy).Contents (Elt F)) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 100000#32 : (⟨S_, .i32⟩ : BufTy).Contents (Elt F)) : (⟨S500000, .i32⟩ : BufTy).Contents (Elt F)) : (⟨S500000, .i32⟩ : BufTy).Contents (Elt F)) (shapeCast S500000 (extractStridedSlice S1x500000 ![0, 0] eli slices_S2x500000_S1x500000_0_0 : (⟨S1x500000, .i32⟩ : BufTy).Contents (Elt F)) shapeCasts_S1x500000_S500000 : (⟨S500000, .i32⟩ : BufTy).Contents (Elt F)) : (⟨S500000, .i32⟩ : BufTy).Contents (Elt F)) : (⟨S500000x1, .i32⟩ : BufTy).Contents (Elt F)) : (⟨S500000x128, .f32⟩ : BufTy).Contents (Elt F))

/-- The embeddings' rows at the labelled edges' second end nodes (%80). -/
def rowsAt1 (h : (⟨S100000x128, .f32⟩ : BufTy).Contents (Elt F)) (eli : (⟨S2x500000, .i32⟩ : BufTy).Contents (Elt F)) :
    (⟨S500000x128, .f32⟩ : BufTy).Contents (Elt F) :=
  (Host.gather gather_S100000x128_S500000x1_S500000x128_1_0_n_n_0_1_1128 h ((broadcastInDim S500000x1 ![0] bcast_S500000_S500000x1_0 : (⟨S500000, .i32⟩ : BufTy).Contents (Elt F) → (⟨S500000x1, .i32⟩ : BufTy).Contents (Elt F)) ((select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)) ((cmpi .slt : (⟨S500000, .i32⟩ : BufTy).Contents (Elt F) → (⟨S500000, .i32⟩ : BufTy).Contents (Elt F) → (⟨S500000, .i1⟩ : BufTy).Contents (Elt F)) (shapeCast S500000 (extractStridedSlice S1x500000 ![1, 0] eli slices_S2x500000_S1x500000_1_0 : (⟨S1x500000, .i32⟩ : BufTy).Contents (Elt F)) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 0#32 : (⟨S_, .i32⟩ : BufTy).Contents (Elt F)) : (⟨S500000, .i32⟩ : BufTy).Contents (Elt F)) : (⟨S500000, .i1⟩ : BufTy).Contents (Elt F)) ((addi : (⟨S500000, .i32⟩ : BufTy).Contents (Elt F) → (⟨S500000, .i32⟩ : BufTy).Contents (Elt F) → (⟨S500000, .i32⟩ : BufTy).Contents (Elt F)) (shapeCast S500000 (extractStridedSlice S1x500000 ![1, 0] eli slices_S2x500000_S1x500000_1_0 : (⟨S1x500000, .i32⟩ : BufTy).Contents (Elt F)) shapeCasts_S1x500000_S500000 : (⟨S500000, .i32⟩ : BufTy).Contents (Elt F)) ((broadcastInDim S500000 ![] bcast_S_S500000 : (⟨S_, .i32⟩ : BufTy).Contents (Elt F) → (⟨S500000, .i32⟩ : BufTy).Contents (Elt F)) (constantI S_ 32 100000#32 : (⟨S_, .i32⟩ : BufTy).Contents (Elt F)) : (⟨S500000, .i32⟩ : BufTy).Contents (Elt F)) : (⟨S500000, .i32⟩ : BufTy).Contents (Elt F)) (shapeCast S500000 (extractStridedSlice S1x500000 ![1, 0] eli slices_S2x500000_S1x500000_1_0 : (⟨S1x500000, .i32⟩ : BufTy).Contents (Elt F)) shapeCasts_S1x500000_S500000 : (⟨S500000, .i32⟩ : BufTy).Contents (Elt F)) : (⟨S500000, .i32⟩ : BufTy).Contents (Elt F)) : (⟨S500000x1, .i32⟩ : BufTy).Contents (Elt F)) : (⟨S500000x128, .f32⟩ : BufTy).Contents (Elt F))

/-- The decoder's linear map on the concatenated 272-wide rows (%86). -/
def pre (s : (⟨S500000x128, .f32⟩ : BufTy).Contents (Elt F)) (d : (⟨S500000x128, .f32⟩ : BufTy).Contents (Elt F)) (ea : (⟨S500000x16, .f32⟩ : BufTy).Contents (Elt F)) (wc1 : (⟨S128x272, .f32⟩ : BufTy).Contents (Elt F)) (bc1 : (⟨S128, .f32⟩ : BufTy).Contents (Elt F)) :
    (⟨S500000x128, .f32⟩ : BufTy).Contents (Elt F) :=
  ((addf : (⟨S500000x128, .f32⟩ : BufTy).Contents (Elt F) → (⟨S500000x128, .f32⟩ : BufTy).Contents (Elt F) → (⟨S500000x128, .f32⟩ : BufTy).Contents (Elt F)) (Host.dotGeneral dot_S500000x272_S272x128_S500000x128_1_0_0_1_n_n none (concatenate S500000x272 1 [⟨S500000x128, s⟩, ⟨S500000x128, d⟩, ⟨S500000x16, ea⟩] concatenates_S500000x128_S500000x128_S500000x16_S500000x272_d1 : (⟨S500000x272, .f32⟩ : BufTy).Contents (Elt F)) (transpose S272x128 [1, 0] wc1 transposes_S128x272_S272x128_1_0 : (⟨S272x128, .f32⟩ : BufTy).Contents (Elt F)) : (⟨S500000x128, .f32⟩ : BufTy).Contents (Elt F)) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) bc1 : (⟨S1x128, .f32⟩ : BufTy).Contents (Elt F)) : (⟨S500000x128, .f32⟩ : BufTy).Contents (Elt F)) : (⟨S500000x128, .f32⟩ : BufTy).Contents (Elt F))

/-- The per-feature mean over the labelled edges (%89). -/
def colMean (z : (⟨S500000x128, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (Host.reduceAdd z (constant S_ .f32 0x00000000#32 : (⟨S_, .f32⟩ : BufTy).Contents (Elt F)) reducesTo_S500000x128_S128_d0 h_S_ : (⟨S128, .f32⟩ : BufTy).Contents (Elt F)) ((broadcastInDim S128 ![] bcast_S_S128 : (⟨S_, .f32⟩ : BufTy).Contents (Elt F) → (⟨S128, .f32⟩ : BufTy).Contents (Elt F)) (constant S_ .f32 0x48F42400#32 : (⟨S_, .f32⟩ : BufTy).Contents (Elt F)) : (⟨S128, .f32⟩ : BufTy).Contents (Elt F)) : (⟨S128, .f32⟩ : BufTy).Contents (Elt F))

/-- The per-feature two-pass variance over the labelled edges (%90: the outlined variance with its select). -/
def colVar (z : (⟨S500000x128, .f32⟩ : BufTy).Contents (Elt F)) :
    (⟨S128, .f32⟩ : BufTy).Contents (Elt F) :=
  (select (broadcastInDim S128 ![] bcast_S_S128 ((cmpf .ogt) (subf (constant S_ .f32 0x48F42400#32 : (⟨S_, .f32⟩ : BufTy).Contents (Elt F)) ((sitofp .f32) (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf z ((broadcastInDim S500000x128 ![0, 1] bcast_S1x128_S500000x128_0_1) (Host.divf ((broadcastInDim S1x128 ![1] bcast_S128_S1x128_1) (Host.reduceAdd z (constant S_ .f32 0x00000000#32 : (⟨S_, .f32⟩ : BufTy).Contents (Elt F)) reducesTo_S500000x128_S128_d0 h_S_ : (⟨S128, .f32⟩ : BufTy).Contents (Elt F)) : (⟨S1x128, .f32⟩ : BufTy).Contents (Elt F)) ((broadcastInDim S1x128 ![] bcast_S_S1x128) (constant S_ .f32 0x48F42400#32 : (⟨S_, .f32⟩ : BufTy).Contents (Elt F)) : (⟨S1x128, .f32⟩ : BufTy).Contents (Elt F)) : (⟨S1x128, .f32⟩ : BufTy).Contents (Elt F)) : (⟨S500000x128, .f32⟩ : BufTy).Contents (Elt F)) : (⟨S500000x128, .f32⟩ : BufTy).Contents (Elt F)) (subf z ((broadcastInDim S500000x128 ![0, 1] bcast_S1x128_S500000x128_0_1) (Host.divf ((broadcastInDim S1x128 ![1] bcast_S128_S1x128_1) (Host.reduceAdd z (constant S_ .f32 0x00000000#32 : (⟨S_, .f32⟩ : BufTy).Contents (Elt F)) reducesTo_S500000x128_S128_d0 h_S_ : (⟨S128, .f32⟩ : BufTy).Contents (Elt F)) : (⟨S1x128, .f32⟩ : BufTy).Contents (Elt F)) ((broadcastInDim S1x128 ![] bcast_S_S1x128) (constant S_ .f32 0x48F42400#32 : (⟨S_, .f32⟩ : BufTy).Contents (Elt F)) : (⟨S1x128, .f32⟩ : BufTy).Contents (Elt F)) : (⟨S1x128, .f32⟩ : BufTy).Contents (Elt F)) : (⟨S500000x128, .f32⟩ : BufTy).Contents (Elt F)) : (⟨S500000x128, .f32⟩ : BufTy).Contents (Elt F)) : (⟨S500000x128, .f32⟩ : BufTy).Contents (Elt F)) (constant S_ .f32 0x00000000#32 : (⟨S_, .f32⟩ : BufTy).Contents (Elt F)) reducesTo_S500000x128_S128_d0 h_S_ : (⟨S128, .f32⟩ : BufTy).Contents (Elt F)) ((broadcastInDim S128 ![] bcast_S_S128) (subf (constant S_ .f32 0x48F42400#32 : (⟨S_, .f32⟩ : BufTy).Contents (Elt F)) ((sitofp .f32) (constantI S_ 32 0#32 : (⟨S_, .i32⟩ : BufTy).Contents (Elt F)) : (⟨S_, .f32⟩ : BufTy).Contents (Elt F)) : (⟨S_, .f32⟩ : BufTy).Contents (Elt F)) : (⟨S128, .f32⟩ : BufTy).Contents (Elt F)) : (⟨S128, .f32⟩ : BufTy).Contents (Elt F)) ((broadcastInDim S128 ![] bcast_S_S128) (constant S_ .f32 0x7FC00000#32 : (⟨S_, .f32⟩ : BufTy).Contents (Elt F)) : (⟨S128, .f32⟩ : BufTy).Contents (Elt F)) : (⟨S128, .f32⟩ : BufTy).Contents (Elt F))

/-- Normalisation, scale and shift, clipping at zero and the contraction with the last weight row (%111). -/
def result (z : (⟨S500000x128, .f32⟩ : BufTy).Contents (Elt F)) (mu : (⟨S128, .f32⟩ : BufTy).Contents (Elt F)) (var : (⟨S128, .f32⟩ : BufTy).Contents (Elt F)) (g : (⟨S128, .f32⟩ : BufTy).Contents (Elt F)) (beta : (⟨S128, .f32⟩ : BufTy).Contents (Elt F)) (wc2 : (⟨S1x128, .f32⟩ : BufTy).Contents (Elt F)) (bc2 : (⟨S1, .f32⟩ : BufTy).Contents (Elt F)) :
    (⟨S500000x1, .f32⟩ : BufTy).Contents (Elt F) :=
  ((addf : (⟨S500000x1, .f32⟩ : BufTy).Contents (Elt F) → (⟨S500000x1, .f32⟩ : BufTy).Contents (Elt F) → (⟨S500000x1, .f32⟩ : BufTy).Contents (Elt F)) (Host.dotGeneral dot_S500000x128_S128x1_S500000x1_1_0_0_1_n_n none (maximumf ((addf : (⟨S500000x128, .f32⟩ : BufTy).Contents (Elt F) → (⟨S500000x128, .f32⟩ : BufTy).Contents (Elt F) → (⟨S500000x128, .f32⟩ : BufTy).Contents (Elt F)) ((mulf : (⟨S500000x128, .f32⟩ : BufTy).Contents (Elt F) → (⟨S500000x128, .f32⟩ : BufTy).Contents (Elt F) → (⟨S500000x128, .f32⟩ : BufTy).Contents (Elt F)) ((mulf : (⟨S500000x128, .f32⟩ : BufTy).Contents (Elt F) → (⟨S500000x128, .f32⟩ : BufTy).Contents (Elt F) → (⟨S500000x128, .f32⟩ : BufTy).Contents (Elt F)) ((subf : (⟨S500000x128, .f32⟩ : BufTy).Contents (Elt F) → (⟨S500000x128, .f32⟩ : BufTy).Contents (Elt F) → (⟨S500000x128, .f32⟩ : BufTy).Contents (Elt F)) z ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) mu : (⟨S1x128, .f32⟩ : BufTy).Contents (Elt F)) : (⟨S500000x128, .f32⟩ : BufTy).Contents (Elt F)) : (⟨S500000x128, .f32⟩ : BufTy).Contents (Elt F)) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) var ((broadcastInDim S128 ![] bcast_S_S128 : (⟨S_, .f32⟩ : BufTy).Contents (Elt F) → (⟨S128, .f32⟩ : BufTy).Contents (Elt F)) (constant S_ .f32 0x3727C5AC#32 : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S500000x128, .f32⟩ : BufTy).Contents (Elt F)) : (⟨S500000x128, .f32⟩ : BufTy).Contents (Elt F)) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) g : (⟨S1x128, .f32⟩ : BufTy).Contents (Elt F)) : (⟨S500000x128, .f32⟩ : BufTy).Contents (Elt F)) : (⟨S500000x128, .f32⟩ : BufTy).Contents (Elt F)) ((broadcastInDim S500000x128 ![0, 1] bcast_S1x128_S500000x128_0_1 : (⟨S1x128, .f32⟩ : BufTy).Contents (Elt F) → (⟨S500000x128, .f32⟩ : BufTy).Contents (Elt F)) ((broadcastInDim S1x128 ![1] bcast_S128_S1x128_1 : (⟨S128, .f32⟩ : BufTy).Contents (Elt F) → (⟨S1x128, .f32⟩ : BufTy).Contents (Elt F)) beta : (⟨S1x128, .f32⟩ : BufTy).Contents (Elt F)) : (⟨S500000x128, .f32⟩ : BufTy).Contents (Elt F)) : (⟨S500000x128, .f32⟩ : BufTy).Contents (Elt F)) ((broadcastInDim S500000x128 ![] bcast_S_S500000x128) (constant S_ .f32 0x00000000#32 : (⟨S_, .f32⟩ : BufTy).Contents (Elt F)) : (⟨S500000x128, .f32⟩ : BufTy).Contents (Elt F)) : (⟨S500000x128, .f32⟩ : BufTy).Contents (Elt F)) (transpose S128x1 [1, 0] wc2 transposes_S1x128_S128x1_1_0 : (⟨S128x1, .f32⟩ : BufTy).Contents (Elt F)) : (⟨S500000x1, .f32⟩ : BufTy).Contents (Elt F)) ((broadcastInDim S500000x1 ![0, 1] bcast_S1x1_S500000x1_0_1 : (⟨S1x1, .f32⟩ : BufTy).Contents (Elt F) → (⟨S500000x1, .f32⟩ : BufTy).Contents (Elt F)) ((broadcastInDim S1x1 ![1] bcast_S1_S1x1_1 : (⟨S1, .f32⟩ : BufTy).Contents (Elt F) → (⟨S1x1, .f32⟩ : BufTy).Contents (Elt F)) bc2 : (⟨S1x1, .f32⟩ : BufTy).Contents (Elt F)) : (⟨S500000x1, .f32⟩ : BufTy).Contents (Elt F)) : (⟨S500000x1, .f32⟩ : BufTy).Contents (Elt F))

end Cert.ReferenceIdeal.RefStages

end
-- ==== Proof.Spec.lean ====
/-
  The functions both programs compute, written once over coordinates.

  A graph network on 100000 nodes: two neighbour-mean layers, then a decoder over 500000 labelled edges.
  One layer takes the neighbour means `mean` and the node features `x` (both n × d), two weight matrices
  `wl`, `wr` (128 × d, used transposed) and a bias row, and gives at node `p`, feature `q`
      ∑ₖ mean(p,k)·wl(q,k) + ∑ₖ x(p,k)·wr(q,k) + b(q).
  The decoder takes for each labelled edge the two end nodes' embeddings `s`, `d` (128 wide) and the edge's own
  16 attributes `a`, and forms  ∑ₖ s(p,k)·ws(q,k) + ∑ₖ d(p,k)·wd(q,k) + ∑ₖ a(p,k)·we(q,k) + b(q); it is then
  normalised per feature by the mean and variance over all 500000 edges, clipped below at zero and contracted
  with one weight row.  Everything is on the extended reals (`EReal`), where every float operation is exact.
-/
import Idealize.ShloMosaic.PureOps.Ideal
import Idealize.ShloMosaic.Lib.ValueIdx

noncomputable section

open scoped BigOperators

namespace Cert.Spec

open Idealize.ShloMosaic Idealize.ShloMosaic.ValueIdx

/-- A real-valued matrix of extents `a × b`, as the programs hold it: a function of a rank-2 index. -/
abbrev Arr2 (a b : Nat) : Type := (⟨2, ![a, b]⟩ : Shape).Idx → EReal

/-- One layer before its activation, at node `p` and output feature `q`. -/
def layer {n d : Nat} (mean x : Arr2 n d) (wl wr : Arr2 128 d) (b : Arr2 1 128) (p : Fin n) (q : Fin 128) : EReal :=
  (∑ k : Fin d, mean (ix2 p k) * wl (ix2 q k)) + (∑ k : Fin d, x (ix2 p k) * wr (ix2 q k)) + b (ix2 0 q)

/-- The decoder's linear map at labelled edge `p` and hidden feature `q`. -/
def decode {n : Nat} (s d : Arr2 n 128) (a : Arr2 n 16) (ws wd : Arr2 128 128) (we : Arr2 128 16) (b : Arr2 1 128)
    (p : Fin n) (q : Fin 128) : EReal :=
  (∑ k : Fin 128, s (ix2 p k) * ws (ix2 q k)) + (∑ k : Fin 128, d (ix2 p k) * wd (ix2 q k))
    + (∑ k : Fin 16, a (ix2 p k) * we (ix2 q k)) + b (ix2 0 q)

/-- The small positive constant added to the variance (the binary32 word nearest 1e-5). -/
def eps : EReal := Ideal.ofBits .f32 0x3727C5AC#32

/-- The normalised, clipped and contracted output at labelled edge `p`:
    ∑_q max((z(p,q) − μ(q))·rsqrt(σ²(q) + ε)·g(q) + β(q), 0)·w(q) + c. -/
def normOut {n : Nat} (z : Arr2 n 128) (mu var g beta w : Arr2 1 128) (c : Arr2 1 1) (p : Fin n) : EReal :=
  (∑ q : Fin 128, max ((z (ix2 p q) - mu (ix2 0 q)) * Ideal.rsqrt (var (ix2 0 q) + eps) * g (ix2 0 q) + beta (ix2 0 q)) 0
      * w (ix2 0 q)) + c (ix2 0 0)

end Cert.Spec

end
-- ==== Proof.LibBatchMoments.lean ====
/-
  Finite extended reals, and the law of the two variances.

  On the extended reals every arithmetic operation is total, but the ring laws hold only away from the
  infinities.  This file isolates the finite part: `IsReal x` says that `x` is the image of a real number, and
  the closure lemmas say that sums, differences, products, maxima, finite sums and quotients by a nonzero real
  stay finite, with the coercion from the reals commuting with each of them.

  The main statement is the classical identity of the two ways to compute a variance over a finite family
  `z : ι → EReal` of finite values with `N` the number of its members:
      (∑ zᵢ²)/N − ((∑ zᵢ)/N)²  =  (∑ (zᵢ − (∑ zᵢ)/N)²)/N,
  the mean of the squares minus the squared mean on the left, the mean of the squared deviations on the right.
  It is proved by choosing real witnesses, pushing the coercion outwards and finishing in the field of reals.

  Last, three binary32 words are evaluated exactly: the patterns of 500000, of 1 and of 0.
-/
import Mathlib.Tactic
import Idealize.ShloMosaic.PureOps.Ideal
import Idealize.ShloMosaic.PureOps.Ideal.Laws

noncomputable section

open scoped BigOperators

namespace Cert.LibBatchMoments

open Idealize.ShloMosaic

/-! ### Finite values -/

/-- An extended real is finite when it is the image of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩

theorem IsReal.min {x y : EReal} (hx : IsReal x) (hy : IsReal y) : IsReal (min x y) := by
  obtain ⟨a, rfl⟩ := hx; obtain ⟨b, rfl⟩ := hy; exact ⟨Min.min a b, (EReal.coe_strictMono.monotone.map_min).symm⟩

theorem IsReal.ne_top {x : EReal} (hx : IsReal x) : x ≠ ⊤ := by
  obtain ⟨a, rfl⟩ := hx; exact EReal.coe_ne_top a

theorem IsReal.ne_bot {x : EReal} (hx : IsReal x) : x ≠ ⊥ := by
  obtain ⟨a, rfl⟩ := hx; exact EReal.coe_ne_bot a

/-- A value that is neither infinity is finite. -/
theorem isReal_of_ne {x : EReal} (ht : x ≠ ⊤) (hb : x ≠ ⊥) : IsReal x :=
  ⟨x.toReal, (EReal.coe_toReal ht hb).symm⟩

/-- The coercion from the reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite values is finite. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum over a whole finite type of finite values is finite. -/
theorem isReal_sum_univ {ι : Type*} [Fintype ι] (f : ι → EReal) (h : ∀ i, IsReal (f i)) :
    IsReal (∑ i, f i) := isReal_sum _ f fun i _ => h i

/-- The quotient of two reals, the divisor not zero, is the real quotient. -/
theorem div_coe (a r : ℝ) (hr : r ≠ 0) : Ideal.div (a : EReal) (r : EReal) = ((a / r : ℝ) : EReal) := by
  have h0 : ¬ ((r : EReal) = 0) := by exact_mod_cast hr
  unfold Ideal.div
  rw [if_neg h0, ← EReal.coe_inv, ← EReal.coe_mul, div_eq_mul_inv]

/-- A finite value divided by a nonzero real is finite. -/
theorem IsReal.div {x y : EReal} (hx : IsReal x) {r : ℝ} (hy : y = (r : EReal)) (hr : r ≠ 0) :
    IsReal (Ideal.div x y) := by
  obtain ⟨a, rfl⟩ := hx; subst hy; exact ⟨a / r, div_coe a r hr⟩

/-- A finite value divided by a finite value that is not zero is finite. -/
theorem IsReal.div' {x y : EReal} (hx : IsReal x) (hy : IsReal y) (h0 : y ≠ 0) : IsReal (Ideal.div x y) := by
  obtain ⟨r, rfl⟩ := hy
  exact hx.div rfl (by intro h; exact h0 (by rw [h]; rfl))

/-! ### The larger of a value and one -/

theorem one_le_max_one (s : EReal) : 1 ≤ max s 1 := le_max_right s 1

theorem max_one_pos (s : EReal) : 0 < max s 1 := lt_of_lt_of_le zero_lt_one (one_le_max_one s)

theorem max_one_ne_zero (s : EReal) : max s 1 ≠ 0 := (max_one_pos s).ne'

theorem max_one_ne_bot (s : EReal) : max s 1 ≠ ⊥ := ne_bot_of_gt (max_one_pos s)

theorem IsReal.max_one {s : EReal} (hs : IsReal s) : IsReal (Max.max s 1) := hs.max isReal_one

/-- The larger of a finite value and one is a nonzero real. -/
theorem exists_max_one {s : EReal} (hs : IsReal s) : ∃ r : ℝ, r ≠ 0 ∧ max s 1 = (r : EReal) := by
  obtain ⟨r, hr⟩ := hs.max_one
  refine ⟨r, ?_, hr⟩
  intro h
  exact max_one_ne_zero s (by rw [hr, h]; rfl)

/-- A finite value divided by the larger of a finite value and one is finite. -/
theorem IsReal.div_max_one {x s : EReal} (hx : IsReal x) (hs : IsReal s) : IsReal (Ideal.div x (Max.max s 1)) :=
  hx.div' hs.max_one (max_one_ne_zero s)

/-! ### The law of the two variances -/

/-- In the reals: the mean of the squares minus the squared mean is the mean of the squared deviations. -/
theorem two_variances_real {ι : Type*} [Fintype ι] (r : ι → ℝ) (n : ℝ) (hn : n = (Fintype.card ι : ℝ)) (h0 : n ≠ 0) :
    (∑ i, r i * r i) / n - (∑ i, r i) / n * ((∑ i, r i) / n)
      = (∑ i, (r i - (∑ i, r i) / n) * (r i - (∑ i, r i) / n)) / n := by
  have key : ∀ m : ℝ, ∑ i, (r i - m) * (r i - m) = (∑ i, r i * r i) - 2 * m * (∑ i, r i) + n * (m * m) := by
    intro m
    have e : ∀ i, (r i - m) * (r i - m) = r i * r i - 2 * m * r i + m * m := fun i => by ring
    simp only [e, Finset.sum_add_distrib, Finset.sum_sub_distrib, ← Finset.mul_sum, Finset.sum_const,
      Finset.card_univ, nsmul_eq_mul, hn]
    ring
  rw [key]
  field_simp
  ring

/-- THE LAW OF THE TWO VARIANCES on the extended reals, for a finite family of finite values and `N` the
    number of its members: the mean of the squares minus the squared mean is the mean of the squared deviations
    from the mean. -/
theorem two_variances {ι : Type*} [Fintype ι] (z : ι → EReal) (hz : ∀ i, IsReal (z i)) (N : EReal)
    (hN : N = ((Fintype.card ι : ℝ) : EReal)) (hc : Fintype.card ι ≠ 0) :
    Ideal.div (∑ i, z i * z i) N - Ideal.div (∑ i, z i) N * Ideal.div (∑ i, z i) N
      = Ideal.div (∑ i, (z i - Ideal.div (∑ i, z i) N) * (z i - Ideal.div (∑ i, z i) N)) N := by
  choose r hr using hz
  have hn : (Fintype.card ι : ℝ) ≠ 0 := by exact_mod_cast hc
  simp only [hr, hN, ← EReal.coe_mul, ← coe_sum, div_coe _ _ hn, ← EReal.coe_sub]
  rw [two_variances_real r _ rfl hn]

/-- The same law when every sum carries the leading zero a reduction from zero leaves in front of it. -/
theorem two_variances_zero_add {ι : Type*} [Fintype ι] (z : ι → EReal) (hz : ∀ i, IsReal (z i)) (N : EReal)
    (hN : N = ((Fintype.card ι : ℝ) : EReal)) (hc : Fintype.card ι ≠ 0) :
    Ideal.div (0 + ∑ i, z i * z i) N - Ideal.div (0 + ∑ i, z i) N * Ideal.div (0 + ∑ i, z i) N
      = Ideal.div (0 + ∑ i, (z i - Ideal.div (0 + ∑ i, z i) N) * (z i - Ideal.div (0 + ∑ i, z i) N)) N := by
  simp only [zero_add]
  exact two_variances z hz N hN hc

/-- The mean of a finite family of finite values is finite. -/
theorem isReal_mean {ι : Type*} [Fintype ι] (z : ι → EReal) (hz : ∀ i, IsReal (z i)) (N : EReal)
    (hN : N = ((Fintype.card ι : ℝ) : EReal)) (hc : Fintype.card ι ≠ 0) : IsReal (Ideal.div (∑ i, z i) N) :=
  (isReal_sum_univ z hz).div hN (by exact_mod_cast hc)

/-! ### Three binary32 words as exact values -/

/-- The word `0x48F42400` denotes 500000: exponent field 145, so the scale is 2¹⁸⁻²³, and
    (2²³ + 7611392)/32 = 500000. -/
theorem ofBits_500000 : Ideal.ofBits .f32 0x48F42400#32 = ((500000 : ℝ) : EReal) := by
  simp [Ideal.ofBits, Ideal.ieee, -EReal.coe_mul]; norm_num

/-- The word `0x3F800000` denotes 1. -/
theorem ofBits_one : Ideal.ofBits .f32 0x3F800000#32 = ((1 : ℝ) : EReal) := by
  simp [Ideal.ofBits, Ideal.ieee, -EReal.coe_mul]; norm_num

theorem ofBits_one' : Ideal.ofBits .f32 0x3F800000#32 = 1 := by
  rw [ofBits_one]; rfl

/-- The word of all zeros denotes 0. -/
theorem ofBits_zero : Ideal.ofBits .f32 0x00000000#32 = 0 := Ideal.ofBits_zero_f32

theorem isReal_ofBits_500000 : IsReal (Ideal.ofBits .f32 0x48F42400#32) := ⟨500000, ofBits_500000⟩

theorem isReal_ofBits_one : IsReal (Ideal.ofBits .f32 0x3F800000#32) := ⟨1, ofBits_one⟩

theorem isReal_ofBits_zero : IsReal (Ideal.ofBits .f32 0x00000000#32) := ⟨0, by rw [ofBits_zero]; rfl⟩

/-- Subtracting zero from the count leaves the count. -/
theorem ofBits_500000_sub_zero : Ideal.ofBits .f32 0x48F42400#32 - 0 = Ideal.ofBits .f32 0x48F42400#32 := sub_zero _

/-- The count is positive. -/
theorem ofBits_500000_pos : 0 < Ideal.ofBits .f32 0x48F42400#32 := by
  rw [ofBits_500000]; exact EReal.coe_pos.mpr (by norm_num)

theorem ofBits_500000_ne_zero : Ideal.ofBits .f32 0x48F42400#32 ≠ 0 := ofBits_500000_pos.ne'

/-- The count as the number of members of a type of 500000 elements. -/
theorem ofBits_500000_eq_card : Ideal.ofBits .f32 0x48F42400#32 = ((Fintype.card (Fin 500000) : ℝ) : EReal) := by
  rw [ofBits_500000, Fintype.card_fin]; norm_num

end Cert.LibBatchMoments

end
-- ==== Proof.LibSumSplit.lean ====
/-
  Splitting a finite sum over an initial segment of the naturals into consecutive pieces.

  Two statements, in any commutative additive monoid.
  (a) A sum over `Fin (a + b + c)` is the sum over the first `a` indices, plus the sum over the next `b`, plus the
      sum over the last `c`: a contraction over a concatenated axis is the sum of the three pieces' contractions.
      Specialised to 272 = 128 + 128 + 16.
  (b) A sum over `Fin (n * m)` is the sum over `n` consecutive blocks of `m` indices of each block's partial sum:
      index `r` is written `m * t + s` with `t < n` the block and `s < m` the place in the block.
      Specialised to 500000 = 125 * 4000.
-/
import Mathlib.Tactic
import Mathlib.Algebra.BigOperators.Fin
import Mathlib.Logic.Equiv.Fin.Basic

open scoped BigOperators

namespace Cert.LibSumSplit

/-! ### Three consecutive pieces -/

theorem lt_first {a b c : ℕ} (k : Fin a) : (k : ℕ) < a + b + c := by have := k.isLt; omega

theorem lt_second {a b c : ℕ} (k : Fin b) : a + (k : ℕ) < a + b + c := by have := k.isLt; omega

theorem lt_third {a b c : ℕ} (k : Fin c) : a + b + (k : ℕ) < a + b + c := by have := k.isLt; omega

/-- A sum over `a + b + c` consecutive indices is the sum of the sums over its three consecutive pieces. -/
theorem sum_three {M : Type*} [AddCommMonoid M] (a b c : ℕ) (f : Fin (a + b + c) → M) :
    ∑ k, f k = (∑ k : Fin a, f ⟨k, lt_first k⟩) + (∑ k : Fin b, f ⟨a + k, lt_second k⟩)
      + (∑ k : Fin c, f ⟨a + b + k, lt_third k⟩) := by
  rw [Fin.sum_univ_add, Fin.sum_univ_add]
  rfl

/-- 272 = 128 + 128 + 16: the pieces start at 0, at 128 and at 256. -/
theorem sum_272 {M : Type*} [AddCommMonoid M] (f : Fin 272 → M) :
    ∑ k : Fin 272, f k = (∑ k : Fin 128, f ⟨k, by have := k.isLt; omega⟩)
      + (∑ k : Fin 128, f ⟨128 + k, by have := k.isLt; omega⟩)
      + (∑ k : Fin 16, f ⟨256 + k, by have := k.isLt; omega⟩) :=
  sum_three 128 128 16 f

/-! ### Consecutive blocks of equal length -/

/-- Place `s` of block `t` is an index below `n * m`. -/
theorem blk_lt {n m : ℕ} (t : Fin n) (s : Fin m) : m * (t : ℕ) + (s : ℕ) < n * m := by
  have ht := t.isLt
  have hs := s.isLt
  calc m * (t : ℕ) + (s : ℕ) < m * (t : ℕ) + m := by omega
    _ = m * ((t : ℕ) + 1) := by ring
    _ ≤ m * n := Nat.mul_le_mul_left m ht
    _ = n * m := Nat.mul_comm m n

/-- A sum over `n * m` consecutive indices is the sum over the `n` blocks of `m` of each block's sum. -/
theorem sum_blocks {M : Type*} [AddCommMonoid M] (n m : ℕ) (f : Fin (n * m) → M) :
    ∑ r, f r = ∑ t : Fin n, ∑ s : Fin m, f ⟨m * t + s, blk_lt t s⟩ := by
  rw [← Equiv.sum_comp finProdFinEquiv f, Fintype.sum_prod_type]
  refine Finset.sum_congr rfl fun t _ => Finset.sum_congr rfl fun s _ => ?_
  congr 1
  apply Fin.ext
  simp [finProdFinEquiv, add_comm]

/-- 500000 = 125 * 4000: a sum over all rows is the sum of the 125 blocks' partial sums. -/
theorem sum_500000 {M : Type*} [AddCommMonoid M] (f : Fin 500000 → M) :
    ∑ r : Fin 500000, f r
      = ∑ t : Fin 125, ∑ s : Fin 4000, f ⟨4000 * t + s, by have := t.isLt; have := s.isLt; omega⟩ :=
  sum_blocks 125 4000 f

end Cert.LibSumSplit
-- ==== Proof.Bridge.lean ====
/-
  The joins between the two programs' ways of writing the shared formulas.

  (1) Each specification function depends on its arrays only through the entries it reads.
  (2) A layer with its three summands in the order  neighbour term + bias + own term.
  (3) The decoder written as one contraction over the 272 concatenated coordinates (128 + 128 + 16) plus the bias.
  (4) A layer, its clipped value and the decoder are finite when the entries they read are.
  (5) The batch statistics over the 500000 rows taken as 125 blocks of 4000: the mean from the blocks' sums is the
      mean, and the mean of squares from the blocks' sums minus the squared mean is the mean of the squared
      deviations (the law of the two variances); and the count less zero is positive.
-/
import proofs.«158941_j57870389346679_2_alg».proof.Proof.Spec
import proofs.«158941_j57870389346679_2_alg».proof.Proof.LibBatchMoments
import proofs.«158941_j57870389346679_2_alg».proof.Proof.LibSumSplit

noncomputable section

open scoped BigOperators

namespace Cert.Bridge

open Cert.Spec Cert.LibBatchMoments Idealize.ShloMosaic Idealize.ShloMosaic.ValueIdx

/-! ### (1) Congruence at the entries read -/

theorem layer_congr {n d : Nat} {mean mean' x x' : Arr2 n d} {wl wl' wr wr' : Arr2 128 d} {b b' : Arr2 1 128}
    (p : Fin n) (q : Fin 128) (h1 : ∀ k, mean (ix2 p k) = mean' (ix2 p k)) (h2 : ∀ k, x (ix2 p k) = x' (ix2 p k))
    (h3 : ∀ k, wl (ix2 q k) = wl' (ix2 q k)) (h4 : ∀ k, wr (ix2 q k) = wr' (ix2 q k))
    (h5 : b (ix2 0 q) = b' (ix2 0 q)) :
    layer mean x wl wr b p q = layer mean' x' wl' wr' b' p q := by
  have e1 : (∑ k : Fin d, mean (ix2 p k) * wl (ix2 q k)) = ∑ k : Fin d, mean' (ix2 p k) * wl' (ix2 q k) :=
    Finset.sum_congr rfl fun k _ => by rw [h1 k, h3 k]
  have e2 : (∑ k : Fin d, x (ix2 p k) * wr (ix2 q k)) = ∑ k : Fin d, x' (ix2 p k) * wr' (ix2 q k) :=
    Finset.sum_congr rfl fun k _ => by rw [h2 k, h4 k]
  unfold layer
  rw [e1, e2, h5]

theorem decode_congr {n : Nat} {s s' d d' : Arr2 n 128} {a a' : Arr2 n 16} {ws ws' wd wd' : Arr2 128 128}
    {we we' : Arr2 128 16} {b b' : Arr2 1 128} (p : Fin n) (q : Fin 128)
    (h1 : ∀ k, s (ix2 p k) = s' (ix2 p k)) (h2 : ∀ k, d (ix2 p k) = d' (ix2 p k))
    (h3 : ∀ k, a (ix2 p k) = a' (ix2 p k)) (h4 : ∀ k, ws (ix2 q k) = ws' (ix2 q k))
    (h5 : ∀ k, wd (ix2 q k) = wd' (ix2 q k)) (h6 : ∀ k, we (ix2 q k) = we' (ix2 q k))
    (h7 : b (ix2 0 q) = b' (ix2 0 q)) :
    decode s d a ws wd we b p q = decode s' d' a' ws' wd' we' b' p q := by
  have e1 : (∑ k : Fin 128, s (ix2 p k) * ws (ix2 q k)) = ∑ k : Fin 128, s' (ix2 p k) * ws' (ix2 q k) :=
    Finset.sum_congr rfl fun k _ => by rw [h1 k, h4 k]
  have e2 : (∑ k : Fin 128, d (ix2 p k) * wd (ix2 q k)) = ∑ k : Fin 128, d' (ix2 p k) * wd' (ix2 q k) :=
    Finset.sum_congr rfl fun k _ => by rw [h2 k, h5 k]
  have e3 : (∑ k : Fin 16, a (ix2 p k) * we (ix2 q k)) = ∑ k : Fin 16, a' (ix2 p k) * we' (ix2 q k) :=
    Finset.sum_congr rfl fun k _ => by rw [h3 k, h6 k]
  unfold decode
  rw [e1, e2, e3, h7]

theorem normOut_congr {n : Nat} {z z' : Arr2 n 128} {mu mu' var var' g g' beta beta' w w' : Arr2 1 128}
    {c c' : Arr2 1 1} (p : Fin n)
    (hz : ∀ q, z (ix2 p q) = z' (ix2 p q)) (hmu : ∀ q, mu (ix2 0 q) = mu' (ix2 0 q))
    (hvar : ∀ q, var (ix2 0 q) = var' (ix2 0 q)) (hg : ∀ q, g (ix2 0 q) = g' (ix2 0 q))
    (hbeta : ∀ q, beta (ix2 0 q) = beta' (ix2 0 q)) (hw : ∀ q, w (ix2 0 q) = w' (ix2 0 q))
    (hc : c (ix2 0 0) = c' (ix2 0 0)) :
    normOut z mu var g beta w c p = normOut z' mu' var' g' beta' w' c' p := by
  have e : (∑ q : Fin 128, max ((z (ix2 p q) - mu (ix2 0 q)) * Ideal.rsqrt (var (ix2 0 q) + eps) * g (ix2 0 q)
        + beta (ix2 0 q)) 0 * w (ix2 0 q))
      = ∑ q : Fin 128, max ((z' (ix2 p q) - mu' (ix2 0 q)) * Ideal.rsqrt (var' (ix2 0 q) + eps) * g' (ix2 0 q)
        + beta' (ix2 0 q)) 0 * w' (ix2 0 q) :=
    Finset.sum_congr rfl fun q _ => by rw [hz q, hmu q, hvar q, hg q, hbeta q, hw q]
  unfold normOut
  rw [e, hc]

/-! ### (2) A layer with the bias in the middle -/

theorem layer_of_ref {n d : Nat} (mean x : Arr2 n d) (wl wr : Arr2 128 d) (b : Arr2 1 128) (p : Fin n) (q : Fin 128)
    (bq : EReal) (hb : b (ix2 0 q) = bq) :
    (∑ k : Fin d, mean (ix2 p k) * wl (ix2 q k)) + bq + (∑ k : Fin d, x (ix2 p k) * wr (ix2 q k))
      = layer mean x wl wr b p q := by
  unfold layer
  rw [hb]
  exact add_right_comm _ _ _

/-! ### (3) The decoder as one contraction over the concatenated coordinates -/

theorem decode_of_concat {n : Nat} (s d : Arr2 n 128) (a : Arr2 n 16) (ws wd : Arr2 128 128) (we : Arr2 128 16)
    (b : Arr2 1 128) (p : Fin n) (q : Fin 128) (e w : Fin 272 → EReal) (bq : EReal)
    (he1 : ∀ k : Fin 128, e ⟨k, by omega⟩ = s (ix2 p k)) (he2 : ∀ k : Fin 128, e ⟨128 + k, by omega⟩ = d (ix2 p k))
    (he3 : ∀ k : Fin 16, e ⟨256 + k, by omega⟩ = a (ix2 p k))
    (hw1 : ∀ k : Fin 128, w ⟨k, by omega⟩ = ws (ix2 q k)) (hw2 : ∀ k : Fin 128, w ⟨128 + k, by omega⟩ = wd (ix2 q k))
    (hw3 : ∀ k : Fin 16, w ⟨256 + k, by omega⟩ = we (ix2 q k)) (hb : b (ix2 0 q) = bq) :
    (∑ k : Fin 272, e k * w k) + bq = decode s d a ws wd we b p q := by
  have h := LibSumSplit.sum_272 (fun k => e k * w k)
  have e1 : (∑ k : Fin 128, e ⟨k, by omega⟩ * w ⟨k, by omega⟩) = ∑ k : Fin 128, s (ix2 p k) * ws (ix2 q k) :=
    Finset.sum_congr rfl fun k _ => by rw [he1 k, hw1 k]
  have e2 : (∑ k : Fin 128, e ⟨128 + k, by omega⟩ * w ⟨128 + k, by omega⟩)
      = ∑ k : Fin 128, d (ix2 p k) * wd (ix2 q k) :=
    Finset.sum_congr rfl fun k _ => by rw [he2 k, hw2 k]
  have e3 : (∑ k : Fin 16, e ⟨256 + k, by omega⟩ * w ⟨256 + k, by omega⟩)
      = ∑ k : Fin 16, a (ix2 p k) * we (ix2 q k) :=
    Finset.sum_congr rfl fun k _ => by rw [he3 k, hw3 k]
  unfold decode
  rw [h, hb]
  exact congrArg (· + bq) (by rw [← e1, ← e2, ← e3])

/-! ### (4) Finiteness -/

theorem layer_real {n d : Nat} (mean x : Arr2 n d) (wl wr : Arr2 128 d) (b : Arr2 1 128) (p : Fin n) (q : Fin 128)
    (hm : ∀ i, IsReal (mean i)) (hx : ∀ i, IsReal (x i)) (hwl : ∀ i, IsReal (wl i)) (hwr : ∀ i, IsReal (wr i))
    (hb : ∀ i, IsReal (b i)) : IsReal (layer mean x wl wr b p q) := by
  unfold layer
  exact ((isReal_sum_univ _ fun k => (hm _).mul (hwl _)).add
    (isReal_sum_univ _ fun k => (hx _).mul (hwr _))).add (hb _)

theorem layer_relu_real {n d : Nat} (mean x : Arr2 n d) (wl wr : Arr2 128 d) (b : Arr2 1 128) (p : Fin n)
    (q : Fin 128) (hm : ∀ i, IsReal (mean i)) (hx : ∀ i, IsReal (x i)) (hwl : ∀ i, IsReal (wl i))
    (hwr : ∀ i, IsReal (wr i)) (hb : ∀ i, IsReal (b i)) : IsReal (max (layer mean x wl wr b p q) 0) :=
  (layer_real mean x wl wr b p q hm hx hwl hwr hb).max isReal_zero

theorem decode_real {n : Nat} (s d : Arr2 n 128) (a : Arr2 n 16) (ws wd : Arr2 128 128) (we : Arr2 128 16)
    (b : Arr2 1 128) (p : Fin n) (q : Fin 128) (hs : ∀ i, IsReal (s i)) (hd : ∀ i, IsReal (d i))
    (ha : ∀ i, IsReal (a i)) (hws : ∀ i, IsReal (ws i)) (hwd : ∀ i, IsReal (wd i)) (hwe : ∀ i, IsReal (we i))
    (hb : ∀ i, IsReal (b i)) : IsReal (decode s d a ws wd we b p q) := by
  unfold decode
  exact (((isReal_sum_univ _ fun k => (hs _).mul (hws _)).add
    (isReal_sum_univ _ fun k => (hd _).mul (hwd _))).add
    (isReal_sum_univ _ fun k => (ha _).mul (hwe _))).add (hb _)

/-! ### (5) The batch statistics over 125 blocks of 4000 rows -/

/-- The number of rows, as the binary32 word the programs spell. -/
abbrev N : EReal := Ideal.ofBits .f32 0x48F42400#32

/-- The count less a real zero is the count. -/
theorem N_sub_zero : N - ((0 : ℝ) : EReal) = N := by
  rw [EReal.coe_zero, sub_zero]

/-- The sum of the blocks' sums is the sum over all rows. -/
theorem sum_blocks_eq (D : Fin 500000 → EReal) :
    (∑ t : Fin 125, ∑ r : Fin 4000, D ⟨4000 * t.val + r.val, by omega⟩) = ∑ p, D p :=
  (LibSumSplit.sum_500000 D).symm

/-- The mean from the blocks' sums is the mean. -/
theorem mean_blocks (D : Fin 500000 → EReal) :
    Ideal.div (0 + ∑ t : Fin 125, ∑ r : Fin 4000, D ⟨4000 * t.val + r.val, by omega⟩) N
      = Ideal.div (0 + ∑ p, D p) N := by
  rw [sum_blocks_eq D]

/-- The mean of squares from the blocks' sums, minus the squared mean from the blocks' sums, is the mean of the
    squared deviations from the mean. -/
theorem var_blocks (D : Fin 500000 → EReal) (hD : ∀ p, IsReal (D p)) :
    Ideal.div (0 + ∑ t : Fin 125, ∑ r : Fin 4000,
        D ⟨4000 * t.val + r.val, by omega⟩ * D ⟨4000 * t.val + r.val, by omega⟩) N
      - Ideal.div (0 + ∑ t : Fin 125, ∑ r : Fin 4000, D ⟨4000 * t.val + r.val, by omega⟩) N
        * Ideal.div (0 + ∑ t : Fin 125, ∑ r : Fin 4000, D ⟨4000 * t.val + r.val, by omega⟩) N
      = Ideal.div (0 + ∑ p, (D p - Ideal.div (0 + ∑ p, D p) N) * (D p - Ideal.div (0 + ∑ p, D p) N))
          (N - ((0 : ℝ) : EReal)) := by
  rw [sum_blocks_eq D, sum_blocks_eq (fun p => D p * D p), N_sub_zero]
  exact two_variances_zero_add D hD N ofBits_500000_eq_card (by rw [Fintype.card_fin]; norm_num)

/-- The same two statements with the blocks' entries named: `B t r` is row `4000 t + r`. -/
theorem mean_blocks' (D : Fin 500000 → EReal) (B : Fin 125 → Fin 4000 → EReal)
    (hB : ∀ t r, B t r = D ⟨4000 * t.val + r.val, by omega⟩) :
    Ideal.div (0 + ∑ t : Fin 125, ∑ r : Fin 4000, B t r) N = Ideal.div (0 + ∑ p, D p) N := by
  simp only [hB]
  exact mean_blocks D

theorem var_blocks' (D : Fin 500000 → EReal) (hD : ∀ p, IsReal (D p)) (B : Fin 125 → Fin 4000 → EReal)
    (hB : ∀ t r, B t r = D ⟨4000 * t.val + r.val, by omega⟩) :
    Ideal.div (0 + ∑ t : Fin 125, ∑ r : Fin 4000, B t r * B t r) N
      - Ideal.div (0 + ∑ t : Fin 125, ∑ r : Fin 4000, B t r) N * Ideal.div (0 + ∑ t : Fin 125, ∑ r : Fin 4000, B t r) N
      = Ideal.div (0 + ∑ p, (D p - Ideal.div (0 + ∑ p, D p) N) * (D p - Ideal.div (0 + ∑ p, D p) N))
          (N - ((0 : ℝ) : EReal)) := by
  simp only [hB]
  exact var_blocks D hD

/-- The count less zero exceeds zero: the guard of the variance's quotient holds. -/
theorem zero_lt_N_sub_zero : Ideal.ofBits .f32 0x00000000#32 < N - ((0 : ℝ) : EReal) := by
  rw [N_sub_zero, ofBits_zero]
  exact ofBits_500000_pos

theorem cmp_ogt_N : Ideal.cmp .ogt (N - ((0 : ℝ) : EReal)) (Ideal.ofBits .f32 0x00000000#32) = 1#1 := by
  show BitVec.ofBool (decide (Ideal.ofBits .f32 0x00000000#32 < N - ((0 : ℝ) : EReal))) = 1#1
  rw [decide_eq_true zero_lt_N_sub_zero]
  rfl

/-- The same guard as the vector and the scalar comparison spell it. -/
theorem cmpf_ogt_N :
    FloatOps.cmpf (F := Ideal) (φ := .f32) .ogt (N - ((0 : ℝ) : EReal)) (Ideal.ofBits .f32 0x00000000#32) = 1#1 :=
  cmp_ogt_N

theorem scalar_cmpf_ogt_N :
    Scalar.cmpf (F := Ideal) (φ := .f32) .ogt (N - ((0 : ℝ) : EReal)) (Ideal.ofBits .f32 0x00000000#32) = 1#1 :=
  cmp_ogt_N

end Cert.Bridge

end
-- ==== Proof.RefRead.lean ====
/-
  The reference program's named stages read at an index, on the extended reals.

  Each stage is a composition of the reference's host operations over its cut values. Read at one entry it is one of
  the shared formulas: a matrix product with one contracted axis is the sum over that axis of the products of the
  entries; a transposed matrix reads the entry with its coordinates exchanged; a bias vector laid out as a row and
  then repeated over all rows reads its entry at the column; a column sum over all rows from the initial value zero
  is zero plus the sum of the column's entries; a concatenation along the columns reads the piece that holds the column.
-/
import proofs.«158941_j57870389346679_2_alg».proof.ReferenceIdeal
import proofs.«158941_j57870389346679_2_alg».proof.Proof.RefStageDefs
import proofs.«158941_j57870389346679_2_alg».proof.Proof.Spec
import proofs.«158941_j57870389346679_2_alg».proof.Proof.Bridge
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefRead

open Idealize.ShloMosaic Idealize.ShloMosaic.ValueIdx Cert.ReferenceIdeal Cert.ReferenceIdeal.Gen Cert.Spec
  Cert.LibBatchMoments

/-! ### Matrix products with one contracted axis -/

theorem lhs0_64 (i : S100000x128.Idx) (c : dot_S100000x64_S64x128_S100000x128_1_0_0_1_n_n.contr.Idx) :
    (dot_S100000x64_S64x128_S100000x128_1_0_0_1_n_n.lhsIdx i c 0).val = (i 0).val := by
  unfold DotDims.lhsIdx
  rw [dif_neg (show ¬(0 : Fin S100000x64.rank) ∈ dot_S100000x64_S64x128_S100000x128_1_0_0_1_n_n.lhsBatch by decide),
    dif_pos (show (0 : Fin S100000x64.rank) ∈ dot_S100000x64_S64x128_S100000x128_1_0_0_1_n_n.lhsNonContracting by decide)]
  rfl

theorem rhs1_64 (i : S100000x128.Idx) (c : dot_S100000x64_S64x128_S100000x128_1_0_0_1_n_n.contr.Idx) :
    (dot_S100000x64_S64x128_S100000x128_1_0_0_1_n_n.rhsIdx i c 1).val = (i 1).val := by
  unfold DotDims.rhsIdx
  rw [dif_neg (show ¬(1 : Fin S64x128.rank) ∈ dot_S100000x64_S64x128_S100000x128_1_0_0_1_n_n.rhsBatch by decide),
    dif_pos (show (1 : Fin S64x128.rank) ∈ dot_S100000x64_S64x128_S100000x128_1_0_0_1_n_n.rhsNonContracting by decide)]
  rfl

/-- A [100000, 64] × [64, 128] product at (p, q): the sum over the 64 contracted coordinates. -/
theorem dot64_apply (l : FVec Ideal S100000x64 .f32) (r : FVec Ideal S64x128 .f32) (p : Fin 100000) (q : Fin 128) :
    Host.dotGeneral (F := Ideal) dot_S100000x64_S64x128_S100000x128_1_0_0_1_n_n none l r (ix2 p q)
      = ∑ k : Fin 64, l (ix2 p k) * r (ix2 k q) := by
  simp only [Host.dotGeneral]
  rw [Ideal.dotGeneral_apply, ← Equiv.sum_comp (contrEquiv1 dot_S100000x64_S64x128_S100000x128_1_0_0_1_n_n 64 rfl rfl).symm]
  refine Finset.sum_congr rfl fun k _ => ?_
  have hk := contrEquiv1_symm_val dot_S100000x64_S64x128_S100000x128_1_0_0_1_n_n 64 rfl rfl k
  have el : dot_S100000x64_S64x128_S100000x128_1_0_0_1_n_n.lhsIdx (ix2 p q) ((contrEquiv1 dot_S100000x64_S64x128_S100000x128_1_0_0_1_n_n 64 rfl rfl).symm k) = ix2 p k :=
    funext fun a => Fin.ext (by
      match a with
      | ⟨0, _⟩ => exact lhs0_64 _ _
      | ⟨1, _⟩ => exact (dot_S100000x64_S64x128_S100000x128_1_0_0_1_n_n.lhsIdx_val_of_single rfl _ _).trans hk)
  have er : dot_S100000x64_S64x128_S100000x128_1_0_0_1_n_n.rhsIdx (ix2 p q) ((contrEquiv1 dot_S100000x64_S64x128_S100000x128_1_0_0_1_n_n 64 rfl rfl).symm k) = ix2 k q :=
    funext fun a => Fin.ext (by
      match a with
      | ⟨0, _⟩ => exact (dot_S100000x64_S64x128_S100000x128_1_0_0_1_n_n.rhsIdx_val_of_single rfl _ _).trans hk
      | ⟨1, _⟩ => exact rhs1_64 _ _)
  rw [el, er]

theorem lhs0_128 (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

theorem rhs1_128 (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- A [100000, 128] × [128, 128] product at (p, q): the sum over the 128 contracted coordinates. -/
theorem dot128_apply (l : FVec Ideal S100000x128 .f32) (r : FVec Ideal S128x128 .f32) (p : Fin 100000) (q : Fin 128) :
    Host.dotGeneral (F := Ideal) dot_S100000x128_S128x128_S100000x128_1_0_0_1_n_n none l r (ix2 p q)
      = ∑ k : Fin 128, l (ix2 p k) * r (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k :=
    funext fun a => Fin.ext (by
      match a with
      | ⟨0, _⟩ => exact lhs0_128 _ _
      | ⟨1, _⟩ => exact (dot_S100000x128_S128x128_S100000x128_1_0_0_1_n_n.lhsIdx_val_of_single rfl _ _).trans hk)
  have er : dot_S100000x128_S128x128_S100000x128_1_0_0_1_n_n.rhsIdx (ix2 p q) ((contrEquiv1 dot_S100000x128_S128x128_S100000x128_1_0_0_1_n_n 128 rfl rfl).symm k) = ix2 k q :=
    funext fun a => Fin.ext (by
      match a with
      | ⟨0, _⟩ => exact (dot_S100000x128_S128x128_S100000x128_1_0_0_1_n_n.rhsIdx_val_of_single rfl _ _).trans hk
      | ⟨1, _⟩ => exact rhs1_128 _ _)
  rw [el, er]

theorem lhs0_272 (i : S500000x128.Idx) (c : dot_S500000x272_S272x128_S500000x128_1_0_0_1_n_n.contr.Idx) :
    (dot_S500000x272_S272x128_S500000x128_1_0_0_1_n_n.lhsIdx i c 0).val = (i 0).val := by
  unfold DotDims.lhsIdx
  rw [dif_neg (show ¬(0 : Fin S500000x272.rank) ∈ dot_S500000x272_S272x128_S500000x128_1_0_0_1_n_n.lhsBatch by decide),
    dif_pos (show (0 : Fin S500000x272.rank) ∈ dot_S500000x272_S272x128_S500000x128_1_0_0_1_n_n.lhsNonContracting by decide)]
  rfl

theorem rhs1_272 (i : S500000x128.Idx) (c : dot_S500000x272_S272x128_S500000x128_1_0_0_1_n_n.contr.Idx) :
    (dot_S500000x272_S272x128_S500000x128_1_0_0_1_n_n.rhsIdx i c 1).val = (i 1).val := by
  unfold DotDims.rhsIdx
  rw [dif_neg (show ¬(1 : Fin S272x128.rank) ∈ dot_S500000x272_S272x128_S500000x128_1_0_0_1_n_n.rhsBatch by decide),
    dif_pos (show (1 : Fin S272x128.rank) ∈ dot_S500000x272_S272x128_S500000x128_1_0_0_1_n_n.rhsNonContracting by decide)]
  rfl

/-- A [500000, 272] × [272, 128] product at (p, q): the sum over the 272 contracted coordinates. -/
theorem dot272_apply (l : FVec Ideal S500000x272 .f32) (r : FVec Ideal S272x128 .f32) (p : Fin 500000) (q : Fin 128) :
    Host.dotGeneral (F := Ideal) dot_S500000x272_S272x128_S500000x128_1_0_0_1_n_n none l r (ix2 p q)
      = ∑ k : Fin 272, l (ix2 p k) * r (ix2 k q) := by
  simp only [Host.dotGeneral]
  rw [Ideal.dotGeneral_apply, ← Equiv.sum_comp (contrEquiv1 dot_S500000x272_S272x128_S500000x128_1_0_0_1_n_n 272 rfl rfl).symm]
  refine Finset.sum_congr rfl fun k _ => ?_
  have hk := contrEquiv1_symm_val dot_S500000x272_S272x128_S500000x128_1_0_0_1_n_n 272 rfl rfl k
  have el : dot_S500000x272_S272x128_S500000x128_1_0_0_1_n_n.lhsIdx (ix2 p q) ((contrEquiv1 dot_S500000x272_S272x128_S500000x128_1_0_0_1_n_n 272 rfl rfl).symm k) = ix2 p k :=
    funext fun a => Fin.ext (by
      match a with
      | ⟨0, _⟩ => exact lhs0_272 _ _
      | ⟨1, _⟩ => exact (dot_S500000x272_S272x128_S500000x128_1_0_0_1_n_n.lhsIdx_val_of_single rfl _ _).trans hk)
  have er : dot_S500000x272_S272x128_S500000x128_1_0_0_1_n_n.rhsIdx (ix2 p q) ((contrEquiv1 dot_S500000x272_S272x128_S500000x128_1_0_0_1_n_n 272 rfl rfl).symm k) = ix2 k q :=
    funext fun a => Fin.ext (by
      match a with
      | ⟨0, _⟩ => exact (dot_S500000x272_S272x128_S500000x128_1_0_0_1_n_n.rhsIdx_val_of_single rfl _ _).trans hk
      | ⟨1, _⟩ => exact rhs1_272 _ _)
  rw [el, er]

theorem lhs0_Out (i : S500000x1.Idx) (c : dot_S500000x128_S128x1_S500000x1_1_0_0_1_n_n.contr.Idx) :
    (dot_S500000x128_S128x1_S500000x1_1_0_0_1_n_n.lhsIdx i c 0).val = (i 0).val := by
  unfold DotDims.lhsIdx
  rw [dif_neg (show ¬(0 : Fin S500000x128.rank) ∈ dot_S500000x128_S128x1_S500000x1_1_0_0_1_n_n.lhsBatch by decide),
    dif_pos (show (0 : Fin S500000x128.rank) ∈ dot_S500000x128_S128x1_S500000x1_1_0_0_1_n_n.lhsNonContracting by decide)]
  rfl

theorem rhs1_Out (i : S500000x1.Idx) (c : dot_S500000x128_S128x1_S500000x1_1_0_0_1_n_n.contr.Idx) :
    (dot_S500000x128_S128x1_S500000x1_1_0_0_1_n_n.rhsIdx i c 1).val = (i 1).val := by
  unfold DotDims.rhsIdx
  rw [dif_neg (show ¬(1 : Fin S128x1.rank) ∈ dot_S500000x128_S128x1_S500000x1_1_0_0_1_n_n.rhsBatch by decide),
    dif_pos (show (1 : Fin S128x1.rank) ∈ dot_S500000x128_S128x1_S500000x1_1_0_0_1_n_n.rhsNonContracting by decide)]
  rfl

/-- A [500000, 128] × [128, 1] product at (p, q): the sum over the 128 contracted coordinates. -/
theorem dotOut_apply (l : FVec Ideal S500000x128 .f32) (r : FVec Ideal S128x1 .f32) (p : Fin 500000) (q : Fin 1) :
    Host.dotGeneral (F := Ideal) dot_S500000x128_S128x1_S500000x1_1_0_0_1_n_n none l r (ix2 p q)
      = ∑ k : Fin 128, l (ix2 p k) * r (ix2 k q) := by
  simp only [Host.dotGeneral]
  rw [Ideal.dotGeneral_apply, ← Equiv.sum_comp (contrEquiv1 dot_S500000x128_S128x1_S500000x1_1_0_0_1_n_n 128 rfl rfl).symm]
  refine Finset.sum_congr rfl fun k _ => ?_
  have hk := contrEquiv1_symm_val dot_S500000x128_S128x1_S500000x1_1_0_0_1_n_n 128 rfl rfl k
  have el : dot_S500000x128_S128x1_S500000x1_1_0_0_1_n_n.lhsIdx (ix2 p q) ((contrEquiv1 dot_S500000x128_S128x1_S500000x1_1_0_0_1_n_n 128 rfl rfl).symm k) = ix2 p k :=
    funext fun a => Fin.ext (by
      match a with
      | ⟨0, _⟩ => exact lhs0_Out _ _
      | ⟨1, _⟩ => exact (dot_S500000x128_S128x1_S500000x1_1_0_0_1_n_n.lhsIdx_val_of_single rfl _ _).trans hk)
  have er : dot_S500000x128_S128x1_S500000x1_1_0_0_1_n_n.rhsIdx (ix2 p q) ((contrEquiv1 dot_S500000x128_S128x1_S500000x1_1_0_0_1_n_n 128 rfl rfl).symm k) = ix2 k q :=
    funext fun a => Fin.ext (by
      match a with
      | ⟨0, _⟩ => exact (dot_S500000x128_S128x1_S500000x1_1_0_0_1_n_n.rhsIdx_val_of_single rfl _ _).trans hk
      | ⟨1, _⟩ => exact rhs1_Out _ _)
  rw [el, er]

/-! ### The same products against a transposed weight matrix -/

/-- A [100000, 64] array against the transpose of a [128, 64] weight matrix, at (p, q): ∑ₖ l(p,k)·w(q,k). -/
theorem dotT64_apply (l : FVec Ideal S100000x64 .f32) (w : FVec Ideal S128x64 .f32) (p : Fin 100000) (q : Fin 128) :
    Host.dotGeneral (F := Ideal) dot_S100000x64_S64x128_S100000x128_1_0_0_1_n_n none l (transpose S64x128 [1, 0] w transposes_S128x64_S64x128_1_0) (ix2 p q)
      = ∑ k : Fin 64, l (ix2 p k) * w (ix2 q k) := by
  rw [dot64_apply]
  exact Finset.sum_congr rfl fun k _ => congrArg (l (ix2 p k) * ·) (transpose_ix2_apply w _ k q)

/-- A [100000, 128] array against the transpose of a [128, 128] weight matrix, at (p, q): ∑ₖ l(p,k)·w(q,k). -/
theorem dotT128_apply (l : FVec Ideal S100000x128 .f32) (w : FVec Ideal S128x128 .f32) (p : Fin 100000) (q : Fin 128) :
    Host.dotGeneral (F := Ideal) dot_S100000x128_S128x128_S100000x128_1_0_0_1_n_n none l (transpose S128x128 [1, 0] w transposes_S128x128_S128x128_1_0) (ix2 p q)
      = ∑ k : Fin 128, l (ix2 p k) * w (ix2 q k) := by
  rw [dot128_apply]
  exact Finset.sum_congr rfl fun k _ => congrArg (l (ix2 p k) * ·) (transpose_ix2_apply w _ k q)

/-- A [500000, 272] array against the transpose of a [128, 272] weight matrix, at (p, q): ∑ₖ l(p,k)·w(q,k). -/
theorem dotT272_apply (l : FVec Ideal S500000x272 .f32) (w : FVec Ideal S128x272 .f32) (p : Fin 500000) (q : Fin 128) :
    Host.dotGeneral (F := Ideal) dot_S500000x272_S272x128_S500000x128_1_0_0_1_n_n none l (transpose S272x128 [1, 0] w transposes_S128x272_S272x128_1_0) (ix2 p q)
      = ∑ k : Fin 272, l (ix2 p k) * w (ix2 q k) := by
  rw [dot272_apply]
  exact Finset.sum_congr rfl fun k _ => congrArg (l (ix2 p k) * ·) (transpose_ix2_apply w _ k q)

/-- A [500000, 128] array against the transpose of a [1, 128] weight matrix, at (p, q): ∑ₖ l(p,k)·w(q,k). -/
theorem dotTOut_apply (l : FVec Ideal S500000x128 .f32) (w : FVec Ideal S1x128 .f32) (p : Fin 500000) (q : Fin 1) :
    Host.dotGeneral (F := Ideal) dot_S500000x128_S128x1_S500000x1_1_0_0_1_n_n none l (transpose S128x1 [1, 0] w transposes_S1x128_S128x1_1_0) (ix2 p q)
      = ∑ k : Fin 128, l (ix2 p k) * w (ix2 q k) := by
  rw [dotOut_apply]
  exact Finset.sum_congr rfl fun k _ => congrArg (l (ix2 p k) * ·) (transpose_ix2_apply w _ k q)

/-! ### Layouts -/

/-- A scalar repeated over a whole array reads the scalar. -/
theorem scalar_apply {α : Type} {t : Shape} (h : S_.BroadcastsInDim t (![] : Fin 0 → Fin t.rank)) (v : S_.Idx → α)
    (j : t.Idx) : broadcastInDim t ![] h v j = v ix0 :=
  broadcastInDim_apply _ h v j ix0 (fun a => a.elim0)

/-- A vector of 128 entries laid out as a row and repeated over `n` rows reads its entry at the column. -/
theorem rows_apply {α : Type} {n : Nat} (h1 : S128.BroadcastsInDim S1x128 (![1] : Fin 1 → Fin S1x128.rank))
    (h2 : S1x128.BroadcastsInDim ⟨2, ![n, 128]⟩ (![0, 1] : Fin 2 → Fin (⟨2, ![n, 128]⟩ : Shape).rank))
    (b : S128.Idx → α) (p : Fin n) (q : Fin 128) :
    broadcastInDim ⟨2, ![n, 128]⟩ ![0, 1] h2 (broadcastInDim S1x128 ![1] h1 b) (ix2 p q) = b (ix1 q) := by
  rw [broadcastInDim_apply _ h2 _ _ (ix2 0 q) (fun a => by match a with | ⟨0, _⟩ => rfl | ⟨1, _⟩ => rfl),
    broadcastInDim_apply _ h1 _ _ (ix1 q) (fun a => by match a with | ⟨0, _⟩ => rfl)]

/-- One number laid out as a 1 × 1 array and repeated over `n` rows reads the number. -/
theorem rows1_apply {α : Type} {n : Nat} (h1 : S1.BroadcastsInDim S1x1 (![1] : Fin 1 → Fin S1x1.rank))
    (h2 : S1x1.BroadcastsInDim ⟨2, ![n, 1]⟩ (![0, 1] : Fin 2 → Fin (⟨2, ![n, 1]⟩ : Shape).rank))
    (b : S1.Idx → α) (p : Fin n) :
    broadcastInDim ⟨2, ![n, 1]⟩ ![0, 1] h2 (broadcastInDim S1x1 ![1] h1 b) (ix2 p 0) = b (ix1 0) := by
  rw [broadcastInDim_apply _ h2 _ _ (ix2 0 0) (fun a => by match a with | ⟨0, _⟩ => rfl | ⟨1, _⟩ => rfl),
    broadcastInDim_apply _ h1 _ _ (ix1 0) (fun a => by match a with | ⟨0, _⟩ => rfl)]

/-- The sum of one column over all 500000 rows, from the initial value zero. -/
theorem colSum_apply (z : FVec Ideal S500000x128 .f32) (q : Fin 128) :
    Host.reduceAdd (F := Ideal) z (constant S_ .f32 0x00000000#32) reducesTo_S500000x128_S128_d0 h_S_ (ix1 q)
      = 0 + ∑ p : Fin 500000, z (ix2 p q) := by
  have hR : Shape.Reduces S500000x128 [0] S128 := by decide
  show Ideal.hostReduceAdd reducesTo_S500000x128_S128_d0 z (Ideal.ofBits .f32 0x00000000#32) (ix1 q) = _
  rw [Ideal.hostReduceAdd_single reducesTo_S500000x128_S128_d0 hR, Ideal.ofBits_zero_f32]
  refine congrArg (0 + ·) (Finset.sum_congr rfl fun p _ => congrArg z ?_)
  funext d
  match d with
  | ⟨0, _⟩ => rfl
  | ⟨1, _⟩ => rfl

/-! ### (a) The two layers -/

/-- The first layer after its activation, at node `p` and feature `q`. -/
theorem hidden1_apply (mean x : FVec Ideal S100000x64 .f32) (w1l w1r : FVec Ideal S128x64 .f32)
    (b1l : FVec Ideal S128 .f32) (b : Arr2 1 128) (p : Fin 100000) (q : Fin 128) (hb : b (ix2 0 q) = b1l (ix1 q)) :
    RefStages.hidden1 (F := Ideal) mean x w1l b1l w1r (ix2 p q) = max (layer mean x w1l w1r b p q) 0 := by
  show max ((Host.dotGeneral (F := Ideal) dot_S100000x64_S64x128_S100000x128_1_0_0_1_n_n none mean
          (transpose S64x128 [1, 0] w1l transposes_S128x64_S64x128_1_0) (ix2 p q)
        + broadcastInDim S100000x128 ![0, 1] bcast_S1x128_S100000x128_0_1
          (broadcastInDim S1x128 ![1] bcast_S128_S1x128_1 b1l) (ix2 p q))
      + Host.dotGeneral (F := Ideal) dot_S100000x64_S64x128_S100000x128_1_0_0_1_n_n none x
          (transpose S64x128 [1, 0] w1r transposes_S128x64_S64x128_1_0) (ix2 p q))
      (Ideal.ofBits .f32 0x00000000#32) = _
  rw [dotT64_apply, dotT64_apply, rows_apply, Ideal.ofBits_zero_f32]
  rw [Bridge.layer_of_ref mean x w1l w1r b p q (b1l (ix1 q)) hb]

/-- The second layer, at node `p` and feature `q`. -/
theorem hidden2_apply (mean h : FVec Ideal S100000x128 .f32) (w2l w2r : FVec Ideal S128x128 .f32)
    (b2l : FVec Ideal S128 .f32) (b : Arr2 1 128) (p : Fin 100000) (q : Fin 128) (hb : b (ix2 0 q) = b2l (ix1 q)) :
    RefStages.hidden2 (F := Ideal) mean h w2l b2l w2r (ix2 p q) = layer mean h w2l w2r b p q := by
  show (Host.dotGeneral (F := Ideal) dot_S100000x128_S128x128_S100000x128_1_0_0_1_n_n none mean
          (transpose S128x128 [1, 0] w2l transposes_S128x128_S128x128_1_0) (ix2 p q)
        + broadcastInDim S100000x128 ![0, 1] bcast_S1x128_S100000x128_0_1
          (broadcastInDim S1x128 ![1] bcast_S128_S1x128_1 b2l) (ix2 p q))
      + Host.dotGeneral (F := Ideal) dot_S100000x128_S128x128_S100000x128_1_0_0_1_n_n none h
          (transpose S128x128 [1, 0] w2r transposes_S128x128_S128x128_1_0) (ix2 p q) = _
  rw [dotT128_apply, dotT128_apply, rows_apply]
  rw [Bridge.layer_of_ref mean h w2l w2r b p q (b2l (ix1 q)) hb]

/-! ### (b) The decoder's linear map on the concatenated rows -/

/-- The concatenated row reads the first end node's embedding on its first 128 columns … -/
theorem concat_first (s d : FVec Ideal S500000x128 .f32) (ea : FVec Ideal S500000x16 .f32) (p : Fin 500000)
    (k : Fin 128) :
    concatenate S500000x272 1 [⟨S500000x128, s⟩, ⟨S500000x128, d⟩, ⟨S500000x16, ea⟩]
        concatenates_S500000x128_S500000x128_S500000x16_S500000x272_d1 (ix2 p ⟨k, by omega⟩) = s (ix2 p k) :=
  concatenate_apply_piece (1 : Fin S500000x272.rank) _ _ _ 0 (by simp) S500000x128 s rfl rfl 0 rfl (ix2 p k)
    (fun b hb => by
      match b with
      | ⟨0, _⟩ => rfl
      | ⟨1, _⟩ => exact absurd rfl hb)
    (Nat.zero_add _)

/-- … the second end node's embedding on the next 128 … -/
theorem concat_second (s d : FVec Ideal S500000x128 .f32) (ea : FVec Ideal S500000x16 .f32) (p : Fin 500000)
    (k : Fin 128) :
    concatenate S500000x272 1 [⟨S500000x128, s⟩, ⟨S500000x128, d⟩, ⟨S500000x16, ea⟩]
        concatenates_S500000x128_S500000x128_S500000x16_S500000x272_d1 (ix2 p ⟨128 + k, by omega⟩) = d (ix2 p k) :=
  concatenate_apply_piece (1 : Fin S500000x272.rank) _ _ _ 1 (by simp) S500000x128 d rfl rfl 128 rfl (ix2 p k)
    (fun b hb => by
      match b with
      | ⟨0, _⟩ => rfl
      | ⟨1, _⟩ => exact absurd rfl hb)
    rfl

/-- … and the edge's own attributes on the last 16. -/
theorem concat_third (s d : FVec Ideal S500000x128 .f32) (ea : FVec Ideal S500000x16 .f32) (p : Fin 500000)
    (k : Fin 16) :
    concatenate S500000x272 1 [⟨S500000x128, s⟩, ⟨S500000x128, d⟩, ⟨S500000x16, ea⟩]
        concatenates_S500000x128_S500000x128_S500000x16_S500000x272_d1 (ix2 p ⟨256 + k, by omega⟩) = ea (ix2 p k) :=
  concatenate_apply_piece (1 : Fin S500000x272.rank) _ _ _ 2 (by simp) S500000x16 ea rfl rfl 256 rfl (ix2 p k)
    (fun b hb => by
      match b with
      | ⟨0, _⟩ => rfl
      | ⟨1, _⟩ => exact absurd rfl hb)
    rfl

/-- The decoder's pre-activation at labelled edge `p` and hidden feature `q`, for any weight pieces that are the
    column slices [0, 128), [128, 256), [256, 272) of the concatenated weight and any bias row that is the bias vector. -/
theorem pre_apply (s d : FVec Ideal S500000x128 .f32) (ea : FVec Ideal S500000x16 .f32) (wc1 : FVec Ideal S128x272 .f32)
    (bc1 : FVec Ideal S128 .f32) (ws wd : Arr2 128 128) (we : Arr2 128 16) (b : Arr2 1 128) (p : Fin 500000)
    (q : Fin 128) (hws : ∀ k : Fin 128, ws (ix2 q k) = wc1 (ix2 q ⟨k, by omega⟩))
    (hwd : ∀ k : Fin 128, wd (ix2 q k) = wc1 (ix2 q ⟨128 + k, by omega⟩))
    (hwe : ∀ k : Fin 16, we (ix2 q k) = wc1 (ix2 q ⟨256 + k, by omega⟩)) (hb : b (ix2 0 q) = bc1 (ix1 q)) :
    RefStages.pre (F := Ideal) s d ea wc1 bc1 (ix2 p q) = decode s d ea ws wd we b p q := by
  show Host.dotGeneral (F := Ideal) dot_S500000x272_S272x128_S500000x128_1_0_0_1_n_n none
        (concatenate S500000x272 1 [⟨S500000x128, s⟩, ⟨S500000x128, d⟩, ⟨S500000x16, ea⟩]
          concatenates_S500000x128_S500000x128_S500000x16_S500000x272_d1)
        (transpose S272x128 [1, 0] wc1 transposes_S128x272_S272x128_1_0) (ix2 p q)
      + broadcastInDim S500000x128 ![0, 1] bcast_S1x128_S500000x128_0_1
          (broadcastInDim S1x128 ![1] bcast_S128_S1x128_1 bc1) (ix2 p q) = _
  rw [dotT272_apply, rows_apply]
  exact Bridge.decode_of_concat s d ea ws wd we b p q
    (fun k => concatenate S500000x272 1 [⟨S500000x128, s⟩, ⟨S500000x128, d⟩, ⟨S500000x16, ea⟩]
      concatenates_S500000x128_S500000x128_S500000x16_S500000x272_d1 (ix2 p k))
    (fun k => wc1 (ix2 q k)) (bc1 (ix1 q))
    (fun k => concat_first s d ea p k) (fun k => concat_second s d ea p k) (fun k => concat_third s d ea p k)
    (fun k => (hws k).symm) (fun k => (hwd k).symm) (fun k => (hwe k).symm) hb

/-! ### (c) The column means -/

/-- The mean of column `q` over the 500000 labelled edges. -/
theorem colMean_apply (z : FVec Ideal S500000x128 .f32) (q : Fin 128) :
    RefStages.colMean (F := Ideal) z (ix1 q) = Ideal.div (0 + ∑ p : Fin 500000, z (ix2 p q)) Bridge.N := by
  show Ideal.div (Host.reduceAdd (F := Ideal) z (constant S_ .f32 0x00000000#32) reducesTo_S500000x128_S128_d0 h_S_
      (ix1 q)) (Ideal.ofBits .f32 0x48F42400#32) = _
  rw [colSum_apply]

/-! ### (d) The column variances, in two passes -/

/-- The mean row of the first pass, at column `q`. -/
theorem meanRow_apply (z : FVec Ideal S500000x128 .f32) (q : Fin 128) :
    (Host.divf (broadcastInDim S1x128 ![1] bcast_S128_S1x128_1
        (Host.reduceAdd (F := Ideal) z (constant S_ .f32 0x00000000#32) reducesTo_S500000x128_S128_d0 h_S_))
      (broadcastInDim S1x128 ![] bcast_S_S1x128 (constant (F := Ideal) S_ .f32 0x48F42400#32))) (ix2 0 q)
      = Ideal.div (0 + ∑ p : Fin 500000, z (ix2 p q)) Bridge.N := by
  show Ideal.div (broadcastInDim S1x128 ![1] bcast_S128_S1x128_1
      (Host.reduceAdd (F := Ideal) z (constant S_ .f32 0x00000000#32) reducesTo_S500000x128_S128_d0 h_S_) (ix2 0 q))
    (Ideal.ofBits .f32 0x48F42400#32) = _
  rw [broadcastInDim_apply _ bcast_S128_S1x128_1 _ _ (ix1 q) (fun a => by match a with | ⟨0, _⟩ => rfl), colSum_apply]

/-- The deviations from the column means, as the second pass forms them. -/
def dev (z : FVec Ideal S500000x128 .f32) : FVec Ideal S500000x128 .f32 :=
  subf z (broadcastInDim S500000x128 ![0, 1] bcast_S1x128_S500000x128_0_1
    (Host.divf (broadcastInDim S1x128 ![1] bcast_S128_S1x128_1
        (Host.reduceAdd (F := Ideal) z (constant S_ .f32 0x00000000#32) reducesTo_S500000x128_S128_d0 h_S_))
      (broadcastInDim S1x128 ![] bcast_S_S1x128 (constant (F := Ideal) S_ .f32 0x48F42400#32))))

theorem dev_apply (z : FVec Ideal S500000x128 .f32) (p : Fin 500000) (q : Fin 128) :
    dev z (ix2 p q) = z (ix2 p q) - Ideal.div (0 + ∑ p : Fin 500000, z (ix2 p q)) Bridge.N := by
  show z (ix2 p q) - broadcastInDim S500000x128 ![0, 1] bcast_S1x128_S500000x128_0_1
    (Host.divf (broadcastInDim S1x128 ![1] bcast_S128_S1x128_1
        (Host.reduceAdd (F := Ideal) z (constant S_ .f32 0x00000000#32) reducesTo_S500000x128_S128_d0 h_S_))
      (broadcastInDim S1x128 ![] bcast_S_S1x128 (constant (F := Ideal) S_ .f32 0x48F42400#32))) (ix2 p q) = _
  rw [broadcastInDim_apply _ bcast_S1x128_S500000x128_0_1 _ _ (ix2 0 q)
      (fun a => by match a with | ⟨0, _⟩ => rfl | ⟨1, _⟩ => rfl), meanRow_apply]

/-- The variance of column `q` over the 500000 labelled edges: the mean of the squared deviations from the column's
    mean, the divisor the count less zero; the guard of the quotient holds, so the select takes it. -/
theorem colVar_apply (z : FVec Ideal S500000x128 .f32) (q : Fin 128) :
    RefStages.colVar (F := Ideal) z (ix1 q)
      = Ideal.div (0 + ∑ p : Fin 500000, (z (ix2 p q) - Ideal.div (0 + ∑ p : Fin 500000, z (ix2 p q)) Bridge.N)
            * (z (ix2 p q) - Ideal.div (0 + ∑ p : Fin 500000, z (ix2 p q)) Bridge.N))
          (Bridge.N - ((0 : ℝ) : EReal)) := by
  have h0 : (((0#32 : BitVec 32).toInt : ℝ) : EReal) = ((0 : ℝ) : EReal) := by simp
  show Scalar.select (FloatOps.cmpf (F := Ideal) (φ := .f32) .ogt
        (Bridge.N - (((0#32 : BitVec 32).toInt : ℝ) : EReal)) (Ideal.ofBits .f32 0x00000000#32))
      (Ideal.div (Host.reduceAdd (F := Ideal) (mulf (dev z) (dev z)) (constant S_ .f32 0x00000000#32)
          reducesTo_S500000x128_S128_d0 h_S_ (ix1 q)) (Bridge.N - (((0#32 : BitVec 32).toInt : ℝ) : EReal)))
      (Ideal.ofBits .f32 0x7FC00000#32) = _
  rw [h0, Bridge.cmpf_ogt_N, select_one, colSum_apply]
  refine congrArg (fun t => Ideal.div (0 + t) (Bridge.N - ((0 : ℝ) : EReal))) (Finset.sum_congr rfl fun p _ => ?_)
  show dev z (ix2 p q) * dev z (ix2 p q) = _
  rw [dev_apply]

/-! ### (e) The result -/

/-- The normalised, scaled, shifted and clipped array, as the reference forms it. -/
def act (z : FVec Ideal S500000x128 .f32) (mu var g beta : FVec Ideal S128 .f32) : FVec Ideal S500000x128 .f32 :=
  maximumf (addf (mulf (mulf (subf z (broadcastInDim S500000x128 ![0, 1] bcast_S1x128_S500000x128_0_1 (broadcastInDim S1x128 ![1] bcast_S128_S1x128_1 mu)))
        (broadcastInDim S500000x128 ![0, 1] bcast_S1x128_S500000x128_0_1 (broadcastInDim S1x128 ![1] bcast_S128_S1x128_1 (Host.rsqrt (addf var (broadcastInDim S128 ![] bcast_S_S128 (constant (F := Ideal) S_ .f32 0x3727C5AC#32)))))))
      (broadcastInDim S500000x128 ![0, 1] bcast_S1x128_S500000x128_0_1 (broadcastInDim S1x128 ![1] bcast_S128_S1x128_1 g)))
    (broadcastInDim S500000x128 ![0, 1] bcast_S1x128_S500000x128_0_1 (broadcastInDim S1x128 ![1] bcast_S128_S1x128_1 beta)))
    (broadcastInDim S500000x128 ![] bcast_S_S500000x128 (constant (F := Ideal) S_ .f32 0x00000000#32))

theorem act_apply (z : FVec Ideal S500000x128 .f32) (mu var g beta : FVec Ideal S128 .f32) (p : Fin 500000)
    (k : Fin 128) :
    act z mu var g beta (ix2 p k)
      = max ((z (ix2 p k) - mu (ix1 k)) * Ideal.rsqrt (var (ix1 k) + eps) * g (ix1 k) + beta (ix1 k)) 0 := by
  show max ((z (ix2 p k) - (broadcastInDim S500000x128 ![0, 1] bcast_S1x128_S500000x128_0_1 (broadcastInDim S1x128 ![1] bcast_S128_S1x128_1 mu)) (ix2 p k))
        * (broadcastInDim S500000x128 ![0, 1] bcast_S1x128_S500000x128_0_1 (broadcastInDim S1x128 ![1] bcast_S128_S1x128_1 (Host.rsqrt (addf var (broadcastInDim S128 ![] bcast_S_S128 (constant (F := Ideal) S_ .f32 0x3727C5AC#32)))))) (ix2 p k)
        * (broadcastInDim S500000x128 ![0, 1] bcast_S1x128_S500000x128_0_1 (broadcastInDim S1x128 ![1] bcast_S128_S1x128_1 g)) (ix2 p k)
      + (broadcastInDim S500000x128 ![0, 1] bcast_S1x128_S500000x128_0_1 (broadcastInDim S1x128 ![1] bcast_S128_S1x128_1 beta)) (ix2 p k)) (Ideal.ofBits .f32 0x00000000#32) = _
  rw [rows_apply, rows_apply, rows_apply, rows_apply, Ideal.ofBits_zero_f32]
  rfl

/-- The output at labelled edge `p`, for any row arrays that are the five vectors and any 1 × 1 array that is the
    last bias. -/
theorem result_apply (z : FVec Ideal S500000x128 .f32) (mu var g beta : FVec Ideal S128 .f32)
    (wc2 : FVec Ideal S1x128 .f32) (bc2 : FVec Ideal S1 .f32) (mu' var' g' beta' : Arr2 1 128) (c : Arr2 1 1)
    (p : Fin 500000) (hmu : ∀ q, mu' (ix2 0 q) = mu (ix1 q)) (hvar : ∀ q, var' (ix2 0 q) = var (ix1 q))
    (hg : ∀ q, g' (ix2 0 q) = g (ix1 q)) (hbeta : ∀ q, beta' (ix2 0 q) = beta (ix1 q))
    (hc : c (ix2 0 0) = bc2 (ix1 0)) :
    RefStages.result (F := Ideal) z mu var g beta wc2 bc2 (ix2 p 0) = normOut z mu' var' g' beta' wc2 c p := by
  show Host.dotGeneral (F := Ideal) dot_S500000x128_S128x1_S500000x1_1_0_0_1_n_n none (act z mu var g beta)
        (transpose S128x1 [1, 0] wc2 transposes_S1x128_S128x1_1_0) (ix2 p 0)
      + broadcastInDim S500000x1 ![0, 1] bcast_S1x1_S500000x1_0_1 (broadcastInDim S1x1 ![1] bcast_S1_S1x1_1 bc2)
          (ix2 p 0) = _
  rw [dotTOut_apply, rows1_apply]
  unfold normOut
  rw [hc]
  refine congrArg (· + bc2 (ix1 0)) (Finset.sum_congr rfl fun k _ => ?_)
  rw [act_apply, hmu, hvar, hg, hbeta]

/-- The same with the row arrays spelled from the vectors. -/
theorem result_apply' (z : FVec Ideal S500000x128 .f32) (mu var g beta : FVec Ideal S128 .f32)
    (wc2 : FVec Ideal S1x128 .f32) (bc2 : FVec Ideal S1 .f32) (p : Fin 500000) :
    RefStages.result (F := Ideal) z mu var g beta wc2 bc2 (ix2 p 0)
      = normOut z (fun j => mu (ix1 (j 1))) (fun j => var (ix1 (j 1))) (fun j => g (ix1 (j 1)))
          (fun j => beta (ix1 (j 1))) wc2 (fun _ => bc2 (ix1 0)) p :=
  result_apply z mu var g beta wc2 bc2 _ _ _ _ _ p (fun _ => rfl) (fun _ => rfl) (fun _ => rfl) (fun _ => rfl) rfl

end Cert.ReferenceIdeal.RefRead

end
-- ==== Proof.RefStages.lean ====
/-
  The reference's result as a composition of named stages. @main's operations are cut at ten values: the two neighbour
  means, the two hidden layers, the two gathered row tables, the decoder's linear map, its per-feature mean and
  variance, and the result. Between two cuts the operations' fold at the later cut is the stage applied to the earlier
  cuts' values and the arguments; a cut's value and the arguments pass unchanged through every later list, whose
  operations write buffers of larger index only.
-/
import proofs.«158941_j57870389346679_2_alg».proof.Proof.RefRun
import proofs.«158941_j57870389346679_2_alg».proof.Proof.RefStageDefs

noncomputable section

namespace Cert.ReferenceIdeal.RefStages

open Cert.ReferenceIdeal Cert.ReferenceIdeal.Gen Cert.ReferenceIdeal.RefRun Idealize.ShloMosaic Idealize.ShloMosaic.TcCoe Idealize.SL.Sem
  Idealize.ShloMosaic.StableHlo

variable {F : FTy → Type} [FloatOps F]

/-- A TensorCore reference as the device's buffer. -/
local notation "↟" r => (Proc.devRef (Proc.tc : Proc τ) r : DevRef τ sig)

/-! ## One lemma per cut: the fold of the operations between two cuts, read at the later cut -/

theorem cutA (W : Valuation τ sig (Elt F)) :
    after opsA W (↟main_v22)
      = mean64 (W (↟main_arg0)) (W (↟main_arg14)) := by
  after_results_simp <;> rfl

theorem cutB (W : Valuation τ sig (Elt F)) :
    after opsB W (↟main_v31)
      = hidden1 (W (↟main_v22)) (W (↟main_arg0)) (W (↟main_arg1)) (W (↟main_arg2)) (W (↟main_arg3)) := by
  after_results_simp <;> rfl

theorem cutC (W : Valuation τ sig (Elt F)) :
    after opsC1 (after opsC0 W) (↟main_v54)
      = mean128 (W (↟main_v31)) (W (↟main_arg14)) := by
  rw [← after_append]
  simp only [opsC0, opsC1, List.cons_append, List.nil_append]
  after_results_simp <;> rfl

theorem cutD (W : Valuation τ sig (Elt F)) :
    after opsD W (↟main_v62)
      = hidden2 (W (↟main_v54)) (W (↟main_v31)) (W (↟main_arg4)) (W (↟main_arg5)) (W (↟main_arg6)) := by
  after_results_simp <;> rfl

theorem cutE (W : Valuation τ sig (Elt F)) :
    after opsE W (↟main_v71)
      = rowsAt0 (W (↟main_v62)) (W (↟main_arg15)) := by
  after_results_simp <;> rfl

theorem cutF (W : Valuation τ sig (Elt F)) :
    after opsF W (↟main_v80)
      = rowsAt1 (W (↟main_v62)) (W (↟main_arg15)) := by
  after_results_simp <;> rfl

theorem cutG (W : Valuation τ sig (Elt F)) :
    after opsG W (↟main_v86)
      = pre (W (↟main_v71)) (W (↟main_v80)) (W (↟main_arg13)) (W (↟main_arg7)) (W (↟main_arg8)) := by
  after_results_simp <;> rfl

theorem cutH (W : Valuation τ sig (Elt F)) :
    after opsH W (↟main_v89)
      = colMean (W (↟main_v86)) := by
  after_results_simp <;> rfl

theorem cutI (W : Valuation τ sig (Elt F)) :
    after opsI W (↟main_v90)
      = colVar (W (↟main_v86)) := by
  after_results_simp <;> rfl

theorem cutJ (W : Valuation τ sig (Elt F)) :
    after opsJ1 (after opsJ0 W) (↟main_v111)
      = result (W (↟main_v86)) (W (↟main_v89)) (W (↟main_v90)) (W (↟main_arg9)) (W (↟main_arg10)) (W (↟main_arg11)) (W (↟main_arg12)) := by
  rw [← after_append]
  simp only [opsJ0, opsJ1, List.cons_append, List.nil_append]
  after_results_simp <;> rfl

/-! ## The values at the cuts, from the arguments -/

/-- The first hidden layer. -/
def h1Of (V : Valuation τ sig (Elt F)) : (⟨S100000x128, .f32⟩ : BufTy).Contents (Elt F) :=
  hidden1 (mean64 (V (↟main_arg0)) (V (↟main_arg14))) (V (↟main_arg0)) (V (↟main_arg1)) (V (↟main_arg2)) (V (↟main_arg3))

/-- The second hidden layer: the node embeddings. -/
def h2Of (V : Valuation τ sig (Elt F)) : (⟨S100000x128, .f32⟩ : BufTy).Contents (Elt F) :=
  hidden2 (mean128 (h1Of V) (V (↟main_arg14))) (h1Of V) (V (↟main_arg4)) (V (↟main_arg5)) (V (↟main_arg6))

/-- The decoder's linear map on the labelled edges. -/
def zOf (V : Valuation τ sig (Elt F)) : (⟨S500000x128, .f32⟩ : BufTy).Contents (Elt F) :=
  pre (rowsAt0 (h2Of V) (V (↟main_arg15))) (rowsAt1 (h2Of V) (V (↟main_arg15))) (V (↟main_arg13)) (V (↟main_arg7)) (V (↟main_arg8))

/-! ## The valuations after each list, and what they hold -/

/-- A list writing indices from lo ≥ 16 on leaves an argument's buffer as it was. -/
theorem arg_kept {lo hi : Nat} {l : List (HloOp τ sig (Elt F))} (h : AllOk lo hi l) (hlo : 16 ≤ lo) (W : Valuation τ sig (Elt F))
    (r : Ref sig .tc) (hr : r.idx.val < 16) : after l W (↟r) = W (↟r) :=
  after_frame h W _ (Or.inl (Nat.lt_of_lt_of_le hr hlo))

/-- The buffers after the first list, the first two, … the first nine (the last two lists give the result). -/
def WA (V : Valuation τ sig (Elt F)) : Valuation τ sig (Elt F) := after opsA V
def WB (V : Valuation τ sig (Elt F)) : Valuation τ sig (Elt F) := after opsB (WA V)
def WC (V : Valuation τ sig (Elt F)) : Valuation τ sig (Elt F) := after opsC1 (after opsC0 (WB V))
def WD (V : Valuation τ sig (Elt F)) : Valuation τ sig (Elt F) := after opsD (WC V)
def WE (V : Valuation τ sig (Elt F)) : Valuation τ sig (Elt F) := after opsE (WD V)
def WF (V : Valuation τ sig (Elt F)) : Valuation τ sig (Elt F) := after opsF (WE V)
def WG (V : Valuation τ sig (Elt F)) : Valuation τ sig (Elt F) := after opsG (WF V)
def WH (V : Valuation τ sig (Elt F)) : Valuation τ sig (Elt F) := after opsH (WG V)
def WI (V : Valuation τ sig (Elt F)) : Valuation τ sig (Elt F) := after opsI (WH V)

theorem argA (V : Valuation τ sig (Elt F)) (r : Ref sig .tc) (hr : r.idx.val < 16) : WA V (↟r) = V (↟r) :=
  arg_kept okA (by decide) V r hr
theorem argB (V : Valuation τ sig (Elt F)) (r : Ref sig .tc) (hr : r.idx.val < 16) : WB V (↟r) = V (↟r) :=
  (arg_kept okB (by decide) _ r hr).trans (argA V r hr)
theorem argC (V : Valuation τ sig (Elt F)) (r : Ref sig .tc) (hr : r.idx.val < 16) : WC V (↟r) = V (↟r) :=
  (arg_kept okC1 (by decide) _ r hr).trans ((arg_kept okC0 (by decide) _ r hr).trans (argB V r hr))
theorem argD (V : Valuation τ sig (Elt F)) (r : Ref sig .tc) (hr : r.idx.val < 16) : WD V (↟r) = V (↟r) :=
  (arg_kept okD (by decide) _ r hr).trans (argC V r hr)
theorem argE (V : Valuation τ sig (Elt F)) (r : Ref sig .tc) (hr : r.idx.val < 16) : WE V (↟r) = V (↟r) :=
  (arg_kept okE (by decide) _ r hr).trans (argD V r hr)
theorem argF (V : Valuation τ sig (Elt F)) (r : Ref sig .tc) (hr : r.idx.val < 16) : WF V (↟r) = V (↟r) :=
  (arg_kept okF (by decide) _ r hr).trans (argE V r hr)
theorem argG (V : Valuation τ sig (Elt F)) (r : Ref sig .tc) (hr : r.idx.val < 16) : WG V (↟r) = V (↟r) :=
  (arg_kept okG (by decide) _ r hr).trans (argF V r hr)
theorem argH (V : Valuation τ sig (Elt F)) (r : Ref sig .tc) (hr : r.idx.val < 16) : WH V (↟r) = V (↟r) :=
  (arg_kept okH (by decide) _ r hr).trans (argG V r hr)
theorem argI (V : Valuation τ sig (Elt F)) (r : Ref sig .tc) (hr : r.idx.val < 16) : WI V (↟r) = V (↟r) :=
  (arg_kept okI (by decide) _ r hr).trans (argH V r hr)

/-- After the first list: the 64-wide neighbour mean. -/
theorem A22 (V : Valuation τ sig (Elt F)) : WA V (↟main_v22) = mean64 (V (↟main_arg0)) (V (↟main_arg14)) := cutA V

/-- After the second: the first hidden layer. -/
theorem B31 (V : Valuation τ sig (Elt F)) : WB V (↟main_v31) = h1Of V := by
  rw [WB, cutB, A22, argA V main_arg0 (by decide), argA V main_arg1 (by decide), argA V main_arg2 (by decide), argA V main_arg3 (by decide)]
  rfl

theorem C31 (V : Valuation τ sig (Elt F)) : WC V (↟main_v31) = h1Of V := by
  rw [WC, after_frame okC1 _ _ (Or.inl (by decide)), after_frame okC0 _ _ (Or.inl (by decide)), B31]

/-- After the third and fourth: the 128-wide neighbour mean. -/
theorem C54 (V : Valuation τ sig (Elt F)) : WC V (↟main_v54) = mean128 (h1Of V) (V (↟main_arg14)) := by
  rw [WC, cutC, B31, argB V main_arg14 (by decide)]

/-- After the fifth: the second hidden layer. -/
theorem D62 (V : Valuation τ sig (Elt F)) : WD V (↟main_v62) = h2Of V := by
  rw [WD, cutD, C54, C31, argC V main_arg4 (by decide), argC V main_arg5 (by decide), argC V main_arg6 (by decide)]
  rfl

theorem E62 (V : Valuation τ sig (Elt F)) : WE V (↟main_v62) = h2Of V := by
  rw [WE, after_frame okE _ _ (Or.inl (by decide)), D62]

theorem E71 (V : Valuation τ sig (Elt F)) : WE V (↟main_v71) = rowsAt0 (h2Of V) (V (↟main_arg15)) := by
  rw [WE, cutE, D62, argD V main_arg15 (by decide)]

theorem F71 (V : Valuation τ sig (Elt F)) : WF V (↟main_v71) = rowsAt0 (h2Of V) (V (↟main_arg15)) := by
  rw [WF, after_frame okF _ _ (Or.inl (by decide)), E71]

theorem F80 (V : Valuation τ sig (Elt F)) : WF V (↟main_v80) = rowsAt1 (h2Of V) (V (↟main_arg15)) := by
  rw [WF, cutF, E62, argE V main_arg15 (by decide)]

/-- After the eighth: the decoder's linear map. -/
theorem G86 (V : Valuation τ sig (Elt F)) : WG V (↟main_v86) = zOf V := by
  rw [WG, cutG, F71, F80, argF V main_arg13 (by decide), argF V main_arg7 (by decide), argF V main_arg8 (by decide)]
  rfl

theorem H86 (V : Valuation τ sig (Elt F)) : WH V (↟main_v86) = zOf V := by
  rw [WH, after_frame okH _ _ (Or.inl (by decide)), G86]

theorem H89 (V : Valuation τ sig (Elt F)) : WH V (↟main_v89) = colMean (zOf V) := by
  rw [WH, cutH, G86]

theorem I86 (V : Valuation τ sig (Elt F)) : WI V (↟main_v86) = zOf V := by
  rw [WI, after_frame okI _ _ (Or.inl (by decide)), H86]

theorem I89 (V : Valuation τ sig (Elt F)) : WI V (↟main_v89) = colMean (zOf V) := by
  rw [WI, after_frame okI _ _ (Or.inl (by decide)), H89]

theorem I90 (V : Valuation τ sig (Elt F)) : WI V (↟main_v90) = colVar (zOf V) := by
  rw [WI, cutI, H86]

/-- The whole fold is the last two lists' over the ninth valuation. -/
theorem after_ops (V : Valuation τ sig (Elt F)) : after ops V = after opsJ1 (after opsJ0 (WI V)) := by
  simp only [ops, ops0, ops1, ops2, after_append]
  rfl

/-- The result buffer after @main: the decoder's linear map zOf V normalised by its own per-feature mean and variance,
    scaled, shifted, clipped at zero and contracted, every stage over the arguments' launch contents. -/
theorem out_eq (V : Valuation τ sig (Elt F)) :
    after ops V (↟main_v111)
      = result (zOf V) (colMean (zOf V)) (colVar (zOf V)) (V (↟main_arg9)) (V (↟main_arg10)) (V (↟main_arg11)) (V (↟main_arg12)) := by
  rw [after_ops, cutJ, I86, I89, I90, argI V main_arg9 (by decide), argI V main_arg10 (by decide), argI V main_arg11 (by decide), argI V main_arg12 (by decide)]

end Cert.ReferenceIdeal.RefStages

end
-- ==== Proof.KernelStats.lean ====
/-
  What the kernel's program computes on the host between its third and fourth regions: from the 125 blocks' partial
  column sums `P` and partial column sums of squares `Q` (arrays [125, 1, 128]) the mean row
      μ(q) = (0 + ∑ₜ P(t,0,q)) / 500000
  and the variance row  σ²(q) = (0 + ∑ₜ Q(t,0,q)) / 500000 − μ(q)·μ(q),  and the three vectors γ, β, c laid out as rows.
-/
import proofs.«158941_j57870389346679_2_alg».proof.Proof.Gen.KernelIdeal.Launch
import Idealize.ShloMosaic.Lib.StableHlo.Run
import Idealize.ShloMosaic.Lib.ValueLayout
import Idealize.ShloMosaic.PureOps.Ideal.Laws

noncomputable section

open scoped BigOperators

namespace Cert.KernelIdeal.KernelStats

open Idealize.ShloMosaic Idealize.ShloMosaic.ValueIdx Idealize.SL.Sem Cert.KernelIdeal Cert.KernelIdeal.Gen

variable (W : Valuation τ sig (Elt Ideal))

/-- The number of labelled edges as the programs write it: the binary32 word of 500000. -/
abbrev count : EReal := Ideal.ofBits .f32 0x48F42400#32

/-- The sum over the 125 blocks of one column of a [125, 1, 128] array of partial sums, from the initial value 0. -/
theorem blockSum_apply (P : FVec Ideal S125x1x128 .f32) (q : Fin 128) :
    Host.reduceAdd (F := Ideal) P (constant S_ .f32 0x00000000#32) reducesTo_S125x1x128_S1x128_d0 h_S_ (ix2 0 q)
      = 0 + ∑ t : Fin 125, P (ix3 t 0 q) := by
  have hR : Shape.Reduces S125x1x128 [0] S1x128 := by decide
  show Ideal.hostReduceAdd reducesTo_S125x1x128_S1x128_d0 P (Ideal.ofBits .f32 0x00000000#32) (ix2 0 q) = _
  rw [Ideal.hostReduceAdd_single reducesTo_S125x1x128_S1x128_d0 hR, Ideal.ofBits_zero_f32]
  refine congrArg (0 + ·) (Finset.sum_congr rfl fun t _ => congrArg P ?_)
  funext d
  match d with
  | ⟨0, _⟩ => rfl
  | ⟨1, _⟩ => rfl
  | ⟨2, _⟩ => rfl

/-- The mean row at column `q`, from the partial sums `P`. -/
theorem mean_apply (P : FVec Ideal S125x1x128 .f32) (hP : W (Proc.devRef .tc main_v61_1) = P) (q : Fin 128) :
    StableHlo.after (hostOps3 (F := Ideal)) W (Proc.devRef .tc main_v65) (ix2 0 q)
      = Ideal.div (0 + ∑ t : Fin 125, P (ix3 t 0 q)) count := by
  have e : StableHlo.after (hostOps3 (F := Ideal)) W (Proc.devRef .tc main_v65)
      = Host.divf (Host.reduceAdd (F := Ideal) (W (Proc.devRef .tc main_v61_1)) (constant S_ .f32 0x00000000#32) reducesTo_S125x1x128_S1x128_d0 h_S_)
          (broadcastInDim S1x128 ![] bcast_S_S1x128 (constant (F := Ideal) S_ .f32 0x48F42400#32)) := by
    after_results
  rw [e, hP]
  show Ideal.div (Host.reduceAdd (F := Ideal) P (constant S_ .f32 0x00000000#32) reducesTo_S125x1x128_S1x128_d0 h_S_ (ix2 0 q)) count = _
  rw [blockSum_apply]

/-- The variance row at column `q`, from the partial sums `P` and partial sums of squares `Q`: the mean of the
    squares less the square of the mean. -/
theorem var_apply (P Q : FVec Ideal S125x1x128 .f32) (hP : W (Proc.devRef .tc main_v61_1) = P)
    (hQ : W (Proc.devRef .tc main_v61_2) = Q) (q : Fin 128) :
    StableHlo.after (hostOps3 (F := Ideal)) W (Proc.devRef .tc main_v69) (ix2 0 q)
      = Ideal.div (0 + ∑ t : Fin 125, Q (ix3 t 0 q)) count
        - Ideal.div (0 + ∑ t : Fin 125, P (ix3 t 0 q)) count * Ideal.div (0 + ∑ t : Fin 125, P (ix3 t 0 q)) count := by
  have e : StableHlo.after (hostOps3 (F := Ideal)) W (Proc.devRef .tc main_v69)
      = subf (Host.divf (Host.reduceAdd (F := Ideal) (W (Proc.devRef .tc main_v61_2)) (constant S_ .f32 0x00000000#32) reducesTo_S125x1x128_S1x128_d0 h_S_)
          (broadcastInDim S1x128 ![] bcast_S_S1x128 (constant (F := Ideal) S_ .f32 0x48F42400#32)))
        (mulf (Host.divf (Host.reduceAdd (F := Ideal) (W (Proc.devRef .tc main_v61_1)) (constant S_ .f32 0x00000000#32) reducesTo_S125x1x128_S1x128_d0 h_S_)
            (broadcastInDim S1x128 ![] bcast_S_S1x128 (constant (F := Ideal) S_ .f32 0x48F42400#32)))
          (Host.divf (Host.reduceAdd (F := Ideal) (W (Proc.devRef .tc main_v61_1)) (constant S_ .f32 0x00000000#32) reducesTo_S125x1x128_S1x128_d0 h_S_)
            (broadcastInDim S1x128 ![] bcast_S_S1x128 (constant (F := Ideal) S_ .f32 0x48F42400#32)))) := by
    after_results
  rw [e, hP, hQ]
  show Ideal.div (Host.reduceAdd (F := Ideal) Q (constant S_ .f32 0x00000000#32) reducesTo_S125x1x128_S1x128_d0 h_S_ (ix2 0 q)) count
      - Ideal.div (Host.reduceAdd (F := Ideal) P (constant S_ .f32 0x00000000#32) reducesTo_S125x1x128_S1x128_d0 h_S_ (ix2 0 q)) count
        * Ideal.div (Host.reduceAdd (F := Ideal) P (constant S_ .f32 0x00000000#32) reducesTo_S125x1x128_S1x128_d0 h_S_ (ix2 0 q)) count = _
  rw [blockSum_apply, blockSum_apply]

/-- The scale vector `g` laid out as a row. -/
theorem gamma_apply (g : FVec Ideal S128 .f32) (hg : W (Proc.devRef .tc main_arg9) = g) (q : Fin 128) :
    StableHlo.after (hostOps3 (F := Ideal)) W (Proc.devRef .tc main_v70) (ix2 0 q) = g (ix1 q) := by
  have e : StableHlo.after (hostOps3 (F := Ideal)) W (Proc.devRef .tc main_v70)
      = shapeCast S1x128 (W (Proc.devRef .tc main_arg9) : FVec Ideal S128 .f32) shapeCasts_S128_S1x128 := by
    after_results; rfl
  rw [e, hg]; exact shapeCast_a_1a_apply _ _ 0 q

/-- The shift vector `b` laid out as a row. -/
theorem beta_apply (b : FVec Ideal S128 .f32) (hb : W (Proc.devRef .tc main_arg10) = b) (q : Fin 128) :
    StableHlo.after (hostOps3 (F := Ideal)) W (Proc.devRef .tc main_v71) (ix2 0 q) = b (ix1 q) := by
  have e : StableHlo.after (hostOps3 (F := Ideal)) W (Proc.devRef .tc main_v71)
      = shapeCast S1x128 (W (Proc.devRef .tc main_arg10) : FVec Ideal S128 .f32) shapeCasts_S128_S1x128 := by
    after_results; rfl
  rw [e, hb]; exact shapeCast_a_1a_apply _ _ 0 q

/-- The last bias, one number `c`, laid out as a 1 × 1 array. -/
theorem bias_apply (c : FVec Ideal S1 .f32) (hc : W (Proc.devRef .tc main_arg12) = c) :
    StableHlo.after (hostOps3 (F := Ideal)) W (Proc.devRef .tc main_v72) (ix2 0 0) = c (ix1 0) := by
  have e : StableHlo.after (hostOps3 (F := Ideal)) W (Proc.devRef .tc main_v72)
      = shapeCast S1x1 (W (Proc.devRef .tc main_arg12) : FVec Ideal S1 .f32) shapeCasts_S1_S1x1 := by
    after_results; rfl
  rw [e, hc]; exact shapeCast_a_1a_apply _ _ 0 0

/-- The fourth host stretch leaves the decoder's pre-activation array and the last weight row as they were. -/
theorem z_kept : StableHlo.after (hostOps3 (F := Ideal)) W (Proc.devRef .tc main_v61_0) = W (Proc.devRef .tc main_v61_0) := by
  after_results
theorem w_kept : StableHlo.after (hostOps3 (F := Ideal)) W (Proc.devRef .tc main_arg11) = W (Proc.devRef .tc main_arg11) := by
  after_results

theorem kept3_arg9 : StableHlo.after (hostOps3 (F := Ideal)) W (Proc.devRef .tc main_arg9) = W (Proc.devRef .tc main_arg9) := by after_results
theorem kept3_arg10 : StableHlo.after (hostOps3 (F := Ideal)) W (Proc.devRef .tc main_arg10) = W (Proc.devRef .tc main_arg10) := by after_results
theorem kept3_arg12 : StableHlo.after (hostOps3 (F := Ideal)) W (Proc.devRef .tc main_arg12) = W (Proc.devRef .tc main_arg12) := by after_results

end Cert.KernelIdeal.KernelStats

end
-- ==== Proof.KernelGlue.lean ====
/-
  The small host steps of the kernel's program around its regions: the decoder's weight matrix [128, 272] cut into its
  column pieces [0,128), [128,256), [256,272) (the weights of the source node's embedding, of the target node's and
  of the edge's own attributes), each bias vector laid out as a row, and the buffers each stretch of host operations
  leaves as it found them.
-/
import proofs.«158941_j57870389346679_2_alg».proof.Proof.Gen.KernelIdeal.Launch
import Idealize.ShloMosaic.Lib.StableHlo.Run
import Idealize.ShloMosaic.Lib.ValueLayout

noncomputable section

namespace Cert.KernelIdeal.KernelGlue

open Idealize.ShloMosaic Idealize.ShloMosaic.ValueIdx Idealize.SL.Sem Cert.KernelIdeal Cert.KernelIdeal.Gen

variable (W : Valuation τ sig (Elt Ideal))

/-! ## Before the first region -/

theorem bias1_apply (b : FVec Ideal S128 .f32) (hb : W (Proc.devRef .tc main_arg2) = b) (q : Fin 128) :
    StableHlo.after (hostOps0 (F := Ideal)) W (Proc.devRef .tc main_v23) (ix2 0 q) = b (ix1 q) := by
  have e : StableHlo.after (hostOps0 (F := Ideal)) W (Proc.devRef .tc main_v23)
      = shapeCast S1x128 (W (Proc.devRef .tc main_arg2) : FVec Ideal S128 .f32) shapeCasts_S128_S1x128 := by
    after_results; rfl
  rw [e, hb]; exact shapeCast_a_1a_apply _ _ 0 q

theorem kept0_arg0 : StableHlo.after (hostOps0 (F := Ideal)) W (Proc.devRef .tc main_arg0) = W (Proc.devRef .tc main_arg0) := by after_results
theorem kept0_arg1 : StableHlo.after (hostOps0 (F := Ideal)) W (Proc.devRef .tc main_arg1) = W (Proc.devRef .tc main_arg1) := by after_results
theorem kept0_arg3 : StableHlo.after (hostOps0 (F := Ideal)) W (Proc.devRef .tc main_arg3) = W (Proc.devRef .tc main_arg3) := by after_results
theorem kept0_arg4 : StableHlo.after (hostOps0 (F := Ideal)) W (Proc.devRef .tc main_arg4) = W (Proc.devRef .tc main_arg4) := by after_results
theorem kept0_arg5 : StableHlo.after (hostOps0 (F := Ideal)) W (Proc.devRef .tc main_arg5) = W (Proc.devRef .tc main_arg5) := by after_results
theorem kept0_arg6 : StableHlo.after (hostOps0 (F := Ideal)) W (Proc.devRef .tc main_arg6) = W (Proc.devRef .tc main_arg6) := by after_results

theorem kept0_arg7 : StableHlo.after (hostOps0 (F := Ideal)) W (Proc.devRef .tc main_arg7) = W (Proc.devRef .tc main_arg7) := by after_results
theorem kept0_arg8 : StableHlo.after (hostOps0 (F := Ideal)) W (Proc.devRef .tc main_arg8) = W (Proc.devRef .tc main_arg8) := by after_results
theorem kept0_arg13 : StableHlo.after (hostOps0 (F := Ideal)) W (Proc.devRef .tc main_arg13) = W (Proc.devRef .tc main_arg13) := by after_results
theorem kept0_arg15 : StableHlo.after (hostOps0 (F := Ideal)) W (Proc.devRef .tc main_arg15) = W (Proc.devRef .tc main_arg15) := by after_results

/-! ## Between the first and the second region -/

theorem bias2_apply (b : FVec Ideal S128 .f32) (hb : W (Proc.devRef .tc main_arg5) = b) (q : Fin 128) :
    StableHlo.after (hostOps1 (F := Ideal)) W (Proc.devRef .tc main_v37) (ix2 0 q) = b (ix1 q) := by
  have e : StableHlo.after (hostOps1 (F := Ideal)) W (Proc.devRef .tc main_v37)
      = shapeCast S1x128 (W (Proc.devRef .tc main_arg5) : FVec Ideal S128 .f32) shapeCasts_S128_S1x128 := by
    after_results; rfl
  rw [e, hb]; exact shapeCast_a_1a_apply _ _ 0 q

theorem kept1_v24 : StableHlo.after (hostOps1 (F := Ideal)) W (Proc.devRef .tc main_v24) = W (Proc.devRef .tc main_v24) := by after_results
theorem kept1_arg4 : StableHlo.after (hostOps1 (F := Ideal)) W (Proc.devRef .tc main_arg4) = W (Proc.devRef .tc main_arg4) := by after_results
theorem kept1_arg5 : StableHlo.after (hostOps1 (F := Ideal)) W (Proc.devRef .tc main_arg5) = W (Proc.devRef .tc main_arg5) := by after_results
theorem kept1_arg6 : StableHlo.after (hostOps1 (F := Ideal)) W (Proc.devRef .tc main_arg6) = W (Proc.devRef .tc main_arg6) := by after_results

theorem kept1_arg7 : StableHlo.after (hostOps1 (F := Ideal)) W (Proc.devRef .tc main_arg7) = W (Proc.devRef .tc main_arg7) := by after_results
theorem kept1_arg8 : StableHlo.after (hostOps1 (F := Ideal)) W (Proc.devRef .tc main_arg8) = W (Proc.devRef .tc main_arg8) := by after_results
theorem kept1_arg13 : StableHlo.after (hostOps1 (F := Ideal)) W (Proc.devRef .tc main_arg13) = W (Proc.devRef .tc main_arg13) := by after_results
theorem kept1_arg15 : StableHlo.after (hostOps1 (F := Ideal)) W (Proc.devRef .tc main_arg15) = W (Proc.devRef .tc main_arg15) := by after_results

/-! ## Between the second and the third region -/

/-- The source-embedding weights: columns 0 … 127 of the decoder's weight matrix. -/
theorem ws_apply (w : FVec Ideal S128x272 .f32) (hw : W (Proc.devRef .tc main_arg7) = w) (q k : Fin 128) :
    StableHlo.after (hostOps2 (F := Ideal)) W (Proc.devRef .tc main_v57) (ix2 q k) = w (ix2 q ⟨k.val, by omega⟩) := by
  have e : StableHlo.after (hostOps2 (F := Ideal)) W (Proc.devRef .tc main_v57)
      = extractStridedSlice S128x128 ![0, 0] (W (Proc.devRef .tc main_arg7) : FVec Ideal S128x272 .f32) slices_S128x272_S128x128_0_0 := by
    after_results
  rw [e, hw]; exact slice2_axis1_apply 0 w _ q k ⟨k.val, by omega⟩ (by simp)

/-- The target-embedding weights: columns 128 … 255. -/
theorem wd_apply (w : FVec Ideal S128x272 .f32) (hw : W (Proc.devRef .tc main_arg7) = w) (q k : Fin 128) :
    StableHlo.after (hostOps2 (F := Ideal)) W (Proc.devRef .tc main_v58) (ix2 q k) = w (ix2 q ⟨128 + k.val, by omega⟩) := by
  have e : StableHlo.after (hostOps2 (F := Ideal)) W (Proc.devRef .tc main_v58)
      = extractStridedSlice S128x128 ![0, 128] (W (Proc.devRef .tc main_arg7) : FVec Ideal S128x272 .f32) slices_S128x272_S128x128_0_128 := by
    after_results
  rw [e, hw]; exact slice2_axis1_apply 128 w _ q k ⟨128 + k.val, by omega⟩ rfl

/-- The edge-attribute weights: columns 256 … 271. -/
theorem we_apply (w : FVec Ideal S128x272 .f32) (hw : W (Proc.devRef .tc main_arg7) = w) (q : Fin 128) (k : Fin 16) :
    StableHlo.after (hostOps2 (F := Ideal)) W (Proc.devRef .tc main_v59) (ix2 q k) = w (ix2 q ⟨256 + k.val, by omega⟩) := by
  have e : StableHlo.after (hostOps2 (F := Ideal)) W (Proc.devRef .tc main_v59)
      = extractStridedSlice S128x16 ![0, 256] (W (Proc.devRef .tc main_arg7) : FVec Ideal S128x272 .f32) slices_S128x272_S128x16_0_256 := by
    after_results
  rw [e, hw]; exact slice2_axis1_apply 256 w _ q k ⟨256 + k.val, by omega⟩ rfl

theorem bias3_apply (b : FVec Ideal S128 .f32) (hb : W (Proc.devRef .tc main_arg8) = b) (q : Fin 128) :
    StableHlo.after (hostOps2 (F := Ideal)) W (Proc.devRef .tc main_v60) (ix2 0 q) = b (ix1 q) := by
  have e : StableHlo.after (hostOps2 (F := Ideal)) W (Proc.devRef .tc main_v60)
      = shapeCast S1x128 (W (Proc.devRef .tc main_arg8) : FVec Ideal S128 .f32) shapeCasts_S128_S1x128 := by
    after_results; rfl
  rw [e, hb]; exact shapeCast_a_1a_apply _ _ 0 q

theorem kept2_arg13 : StableHlo.after (hostOps2 (F := Ideal)) W (Proc.devRef .tc main_arg13) = W (Proc.devRef .tc main_arg13) := by after_results

end Cert.KernelIdeal.KernelGlue

end
-- ==== Proof.KernelChain.lean ====
/-
  The kernel's program between its regions: what each of the four pipelined regions finds in its input arrays, in
  terms of the launch memory and of the earlier regions' outputs.  Every statement is about one core `c`.
  The neighbour means (a gather, a segment sum and a division by the clipped degree) and the gathered rows of the
  decoder are left for the comparison with the reference, which applies the same host operations.
-/
import proofs.«158941_j57870389346679_2_alg».proof.Proof.Gen.KernelIdeal.Frame
import proofs.«158941_j57870389346679_2_alg».proof.Proof.KernelStats
import proofs.«158941_j57870389346679_2_alg».proof.Proof.KernelGlue

noncomputable section

open scoped BigOperators

namespace Cert.KernelIdeal.KernelChain

open Idealize.ShloMosaic Idealize.ShloMosaic.TcCoe Idealize.ShloMosaic.ValueIdx Idealize.SL.Sem Cert.KernelIdeal Cert.KernelIdeal.Gen
open Cert.KernelIdeal.KernelStats Cert.KernelIdeal.KernelGlue

variable (m : (ℓ : Loc nD τ sig) → Buf (Elt Ideal) ℓ) (ρ : Dev nD → PrngReg) (c : Dev nD)

/-! ## The launch arrays and the third region's outputs, with their types -/

abbrev bias1 : FVec Ideal S128 .f32 := m ((c : Thread nD τ).loc main_arg2)
abbrev bias2 : FVec Ideal S128 .f32 := m ((c : Thread nD τ).loc main_arg5)
abbrev wDec : FVec Ideal S128x272 .f32 := m ((c : Thread nD τ).loc main_arg7)
abbrev bias3 : FVec Ideal S128 .f32 := m ((c : Thread nD τ).loc main_arg8)
abbrev gammaV : FVec Ideal S128 .f32 := m ((c : Thread nD τ).loc main_arg9)
abbrev betaV : FVec Ideal S128 .f32 := m ((c : Thread nD τ).loc main_arg10)
abbrev bias4 : FVec Ideal S1 .f32 := m ((c : Thread nD τ).loc main_arg12)
/-- The decoder's pre-activation array, the partial column sums and the partial column sums of squares, as the third
    region leaves them. -/
abbrev preArr : FVec Ideal S500000x128 .bf16 := (dat2 (V5 m ρ) c).arrAt 7 cfg2.N
abbrev partSum : FVec Ideal S125x1x128 .f32 := (dat2 (V5 m ρ) c).arrAt 8 cfg2.N
abbrev partSq : FVec Ideal S125x1x128 .f32 := (dat2 (V5 m ρ) c).arrAt 9 cfg2.N

/-! ## The first region's inputs -/

theorem V1_arg0 : V1 m ρ c main_arg0 = m ((c : Thread nD τ).loc main_arg0) := (kept0_arg0 (W0 m ρ c)).trans rfl
theorem V1_arg1 : V1 m ρ c main_arg1 = m ((c : Thread nD τ).loc main_arg1) := (kept0_arg1 (W0 m ρ c)).trans rfl
theorem V1_arg3 : V1 m ρ c main_arg3 = m ((c : Thread nD τ).loc main_arg3) := (kept0_arg3 (W0 m ρ c)).trans rfl
theorem V1_bias (q : Fin 128) : V1 m ρ c main_v23 (ix2 0 q) = bias1 m c (ix1 q) :=
  bias1_apply (W0 m ρ c) (bias1 m c) rfl q

/-! ## The second region's inputs -/

theorem W2_arg4 : W2 m ρ c (Proc.devRef .tc main_arg4) = m ((c : Thread nD τ).loc main_arg4) :=
  (W2_of_ne m ρ c main_arg4 (by decide)).trans ((kept0_arg4 (W0 m ρ c)).trans rfl)
theorem W2_arg5 : W2 m ρ c (Proc.devRef .tc main_arg5) = m ((c : Thread nD τ).loc main_arg5) :=
  (W2_of_ne m ρ c main_arg5 (by decide)).trans ((kept0_arg5 (W0 m ρ c)).trans rfl)
theorem W2_arg6 : W2 m ρ c (Proc.devRef .tc main_arg6) = m ((c : Thread nD τ).loc main_arg6) :=
  (W2_of_ne m ρ c main_arg6 (by decide)).trans ((kept0_arg6 (W0 m ρ c)).trans rfl)

/-- The hidden features the first region wrote are what the second region reads. -/
theorem V3_hidden : V3 m ρ c main_v24 = (dat0 (V1 m ρ) c).arrAt 5 cfg0.N := (kept1_v24 (W2 m ρ c)).trans (W2_arr m ρ c 5)
theorem V3_arg4 : V3 m ρ c main_arg4 = m ((c : Thread nD τ).loc main_arg4) := (kept1_arg4 (W2 m ρ c)).trans (W2_arg4 m ρ c)
theorem V3_arg6 : V3 m ρ c main_arg6 = m ((c : Thread nD τ).loc main_arg6) := (kept1_arg6 (W2 m ρ c)).trans (W2_arg6 m ρ c)
theorem V3_bias (q : Fin 128) : V3 m ρ c main_v37 (ix2 0 q) = bias2 m c (ix1 q) :=
  bias2_apply (W2 m ρ c) (bias2 m c) (W2_arg5 m ρ c) q

/-! ## The third region's inputs -/

theorem W4_arg7 : W4 m ρ c (Proc.devRef .tc main_arg7) = m ((c : Thread nD τ).loc main_arg7) :=
  (W4_of_ne m ρ c main_arg7 (by decide)).trans ((kept1_arg7 (W2 m ρ c)).trans ((W2_of_ne m ρ c main_arg7 (by decide)).trans ((kept0_arg7 (W0 m ρ c)).trans rfl)))
theorem W4_arg8 : W4 m ρ c (Proc.devRef .tc main_arg8) = m ((c : Thread nD τ).loc main_arg8) :=
  (W4_of_ne m ρ c main_arg8 (by decide)).trans ((kept1_arg8 (W2 m ρ c)).trans ((W2_of_ne m ρ c main_arg8 (by decide)).trans ((kept0_arg8 (W0 m ρ c)).trans rfl)))
theorem W4_arg13 : W4 m ρ c (Proc.devRef .tc main_arg13) = m ((c : Thread nD τ).loc main_arg13) :=
  (W4_of_ne m ρ c main_arg13 (by decide)).trans ((kept1_arg13 (W2 m ρ c)).trans ((W2_of_ne m ρ c main_arg13 (by decide)).trans ((kept0_arg13 (W0 m ρ c)).trans rfl)))
theorem W4_arg15 : W4 m ρ c (Proc.devRef .tc main_arg15) = m ((c : Thread nD τ).loc main_arg15) :=
  (W4_of_ne m ρ c main_arg15 (by decide)).trans ((kept1_arg15 (W2 m ρ c)).trans ((W2_of_ne m ρ c main_arg15 (by decide)).trans ((kept0_arg15 (W0 m ρ c)).trans rfl)))

theorem V5_attr : V5 m ρ c main_arg13 = m ((c : Thread nD τ).loc main_arg13) := (kept2_arg13 (W4 m ρ c)).trans (W4_arg13 m ρ c)
theorem V5_ws (q k : Fin 128) : V5 m ρ c main_v57 (ix2 q k) = wDec m c (ix2 q ⟨k.val, by omega⟩) :=
  ws_apply (W4 m ρ c) (wDec m c) (W4_arg7 m ρ c) q k
theorem V5_wd (q k : Fin 128) : V5 m ρ c main_v58 (ix2 q k) = wDec m c (ix2 q ⟨128 + k.val, by omega⟩) :=
  wd_apply (W4 m ρ c) (wDec m c) (W4_arg7 m ρ c) q k
theorem V5_we (q : Fin 128) (k : Fin 16) : V5 m ρ c main_v59 (ix2 q k) = wDec m c (ix2 q ⟨256 + k.val, by omega⟩) :=
  we_apply (W4 m ρ c) (wDec m c) (W4_arg7 m ρ c) q k
theorem V5_bias (q : Fin 128) : V5 m ρ c main_v60 (ix2 0 q) = bias3 m c (ix1 q) :=
  bias3_apply (W4 m ρ c) (bias3 m c) (W4_arg8 m ρ c) q

/-! ## The fourth region's inputs -/

theorem W6_arg9 : W6 m ρ c (Proc.devRef .tc main_arg9) = m ((c : Thread nD τ).loc main_arg9) :=
  ((kept3_arg9 (W6 m ρ c)).symm.trans (W8_of_ne m ρ c main_arg9 (by decide)).symm).trans (W8_main_arg9 m ρ c)
theorem W6_arg10 : W6 m ρ c (Proc.devRef .tc main_arg10) = m ((c : Thread nD τ).loc main_arg10) :=
  ((kept3_arg10 (W6 m ρ c)).symm.trans (W8_of_ne m ρ c main_arg10 (by decide)).symm).trans (W8_main_arg10 m ρ c)
theorem W6_arg12 : W6 m ρ c (Proc.devRef .tc main_arg12) = m ((c : Thread nD τ).loc main_arg12) :=
  ((kept3_arg12 (W6 m ρ c)).symm.trans (W8_of_ne m ρ c main_arg12 (by decide)).symm).trans (W8_main_arg12 m ρ c)
theorem W6_arg11 : W6 m ρ c (Proc.devRef .tc main_arg11) = m ((c : Thread nD τ).loc main_arg11) :=
  ((w_kept (W6 m ρ c)).symm.trans
    ((W8_arr m ρ c 5).trans (((dat3 (V7 m ρ) c).arrAt_in 5 rfl _).trans (A_eq3 (V7 m ρ) c 5))).symm).trans (W8_main_arg11 m ρ c)

/-- The decoder's pre-activation array the third region wrote is what the fourth region reads. -/
theorem V7_pre : V7 m ρ c main_v61_0 = preArr m ρ c := (z_kept (W6 m ρ c)).trans (W6_arr m ρ c 7)
theorem V7_mean (q : Fin 128) : V7 m ρ c main_v65 (ix2 0 q)
    = Ideal.div (0 + ∑ t : Fin 125, partSum m ρ c (ix3 t 0 q)) count :=
  mean_apply (W6 m ρ c) (partSum m ρ c) (W6_arr m ρ c 8) q
theorem V7_var (q : Fin 128) : V7 m ρ c main_v69 (ix2 0 q)
    = Ideal.div (0 + ∑ t : Fin 125, partSq m ρ c (ix3 t 0 q)) count
      - Ideal.div (0 + ∑ t : Fin 125, partSum m ρ c (ix3 t 0 q)) count
        * Ideal.div (0 + ∑ t : Fin 125, partSum m ρ c (ix3 t 0 q)) count :=
  var_apply (W6 m ρ c) (partSum m ρ c) (partSq m ρ c) (W6_arr m ρ c 8) (W6_arr m ρ c 9) q
theorem V7_gamma (q : Fin 128) : V7 m ρ c main_v70 (ix2 0 q) = gammaV m c (ix1 q) :=
  gamma_apply (W6 m ρ c) (gammaV m c) (W6_arg9 m ρ c) q
theorem V7_beta (q : Fin 128) : V7 m ρ c main_v71 (ix2 0 q) = betaV m c (ix1 q) :=
  beta_apply (W6 m ρ c) (betaV m c) (W6_arg10 m ρ c) q
theorem V7_weight : V7 m ρ c main_arg11 = m ((c : Thread nD τ).loc main_arg11) := (w_kept (W6 m ρ c)).trans (W6_arg11 m ρ c)
theorem V7_bias : V7 m ρ c main_v72 (ix2 0 0) = bias4 m c (ix1 0) :=
  bias_apply (W6 m ρ c) (bias4 m c) (W6_arg12 m ρ c)

end Cert.KernelIdeal.KernelChain

end
-- ==== Proof.LayerValue0.lean ====
/-
  The value of the first layer's region.

  The region reads five arrays as it finds them: the neighbour means and the node features (100000 × 64 each), two
  weight matrices (128 × 64 each, used transposed) and a bias row (1 × 128). It works through the 100000 nodes in 20
  blocks of 5000 rows: at block `t` it holds rows 5000 t … 5000 t + 4999 of the two node arrays and the whole of the
  weights and the bias, and writes back rows 5000 t … 5000 t + 4999 of the 100000 × 128 output.

  On the extended reals a change of float format is the identity and a matrix product into a zero accumulator is the
  plain sum of products, so entry (r, q) of what a block writes is
      max (∑ₖ mean(r,k)·wl(q,k) + ∑ₖ x(r,k)·wr(q,k) + b(q), 0)
  over the block's own rows. Row `r` of block `t` is row 5000 t + r of the arrays, and row `p` of the output is written
  by block `p / 5000` and by no other, so after the region the output holds, at every node `p` and feature `q`, the
  layer of the five arrays at (p, q) clipped below at zero.
-/
import proofs.«158941_j57870389346679_2_alg».proof.Proof.Gen.KernelIdeal.Frame
import proofs.«158941_j57870389346679_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx Idealize.ShloMosaic.TcCoe Idealize.SL.Sem
open Idealize.ShloMosaic.Pipeline (Dat)

namespace Cert.KernelIdeal.LayerValue0

open Cert.KernelIdeal Cert.KernelIdeal.Gen

/-- A matrix product into the zero accumulator, rows of the left factor against columns of the right one, read at
    entry (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's arithmetic at row `r`, feature `q` of a block: the two row-by-row products against the transposed
    weight matrices, the bias row, clipped below at zero. Changes of float format are the identity on the extended
    reals, and the products accumulate into zero. -/
theorem pay_apply (x0 x1 : Vec Ideal S5000x64 .f32) (x2 x3 : Vec Ideal S128x64 .f32) (x4 : Vec Ideal S1x128 .f32)
    (r : Fin 5000) (q : Fin 128) :
    Gen.k0_pay1 x0 x1 x2 x3 x4 (ix2 r q)
      = max ((∑ k : Fin 64, x0 (ix2 r k) * x2 (ix2 q k)) + (∑ k : Fin 64, x1 (ix2 r k) * x3 (ix2 q k)) + x4 (ix2 0 q)) 0 := by
  unfold Gen.k0_pay1
  simp only [maximumf_apply, addf_apply, broadcast_apply]
  have hm : ∀ (A : FVec Ideal S5000x64 .bf16) (B : FVec Ideal S64x128 .bf16),
      matmul dot_S5000x64_S64x128_S5000x128_1_0_0_1_n_n none A B (constant S5000x128 .f32 0x00000000#32) (ix2 r q)
        = ∑ c : Fin 64, A (ix2 r c) * B (ix2 c q) :=
    fun A B => matmul_zero_apply dot_S5000x64_S64x128_S5000x128_1_0_0_1_n_n_wf A B r q
  rw [hm, hm]
  simp only [shapeCast_self, truncf_apply, transpose_ix2_apply, broadcastTo_1b_ab_apply]
  have ht : ∀ (B : FVec Ideal S128x64 .bf16) (c : Fin 64),
      transpose S64x128 [1, 0] B transposes_S128x64_p1_0_S64x128 (ix2 c q) = B (ix2 q c) :=
    fun B c => transpose_ix2_apply B transposes_S128x64_p1_0_S64x128 c q
  simp only [ht, truncf_apply]
  show max _ (Ideal.ofBits .f32 0x00000000#32) = _
  rw [Ideal.ofBits_zero_f32]

theorem hz : (![0, 0] : Fin 2 → Nat) = fun _ => 0 := funext fun a => by fin_cases a <;> rfl

/-- The one whole-block store leaves the payload of the whole input blocks. -/
theorem out_apply (x0 x1 : Vec Ideal S5000x64 .f32) (x2 x3 : Vec Ideal S128x64 .f32) (x4 : Vec Ideal S1x128 .f32)
    (r : Fin 5000) (q : Fin 128) :
    Gen.out0_5 x0 x1 x2 x3 x4 (ix2 r q)
      = max ((∑ k : Fin 64, x0 (ix2 r k) * x2 (ix2 q k)) + (∑ k : Fin 64, x1 (ix2 r k) * x3 (ix2 q k)) + x4 (ix2 0 q)) 0 := by
  unfold Gen.out0_5
  rw [View.canon_unit_zero hz]
  simp only [View.ld_unit_zero (S := S5000x64) hz, View.ld_unit_zero (S := S128x64) hz, View.ld_unit_zero (S := S1x128) hz]
  exact pay_apply x0 x1 x2 x3 x4 r q

variable (V : (c : Dev nD) → (b : Ref sig .tc) → Buf (Elt Ideal) ((c : Thread nD τ).loc b))

/-- The block index maps over the grid: the two row-blocked inputs and the output are at block row `t`, column block 0;
    the weights and the bias are whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `y 0` of the neighbour-mean block at point `t` is row `5000 t + y 0` of the array. -/
theorem blk0_apply (c : Dev nD) (t : Fin cfg0.N) (y : S5000x64.Idx) (k : S100000x64.Idx)
    (hk0 : (k 0).val = 5000 * t.val + (y 0).val) (hk1 : (k 1).val = (y 1).val) :
    (Gen.iblk0 V c 0 t : Vec Ideal S5000x64 .f32) y = (V c (Pipeline.arrRef spec0 0) : S100000x64.Idx → EReal) k := by
  obtain ⟨e0, e1, -⟩ := idx_facts t
  unfold Gen.iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 64 + 1 * (y 1).val = (k 1).val; rw [e1, hk1]; omega

/-- Row `y 0` of the node-feature block at point `t` is row `5000 t + y 0` of the array. -/
theorem blk1_apply (c : Dev nD) (t : Fin cfg0.N) (y : S5000x64.Idx) (k : S100000x64.Idx)
    (hk0 : (k 0).val = 5000 * t.val + (y 0).val) (hk1 : (k 1).val = (y 1).val) :
    (Gen.iblk0 V c 1 t : Vec Ideal S5000x64 .f32) y = (V c (Pipeline.arrRef spec0 1) : S100000x64.Idx → EReal) k := by
  obtain ⟨-, -, e0, e1, -⟩ := idx_facts t
  unfold Gen.iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 64 + 1 * (y 1).val = (k 1).val; rw [e1, hk1]; omega

/-- The first weight matrix's block is the whole matrix at every point. -/
theorem blk2_apply (c : Dev nD) (t : Fin cfg0.N) (y : S128x64.Idx) :
    (Gen.iblk0 V c 2 t : Vec Ideal S128x64 .f32) y = (V c (Pipeline.arrRef spec0 2) : S128x64.Idx → EReal) y := by
  obtain ⟨-, -, -, -, e0, e1, -⟩ := idx_facts t
  unfold Gen.iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 64 + 1 * (y 1).val = (y 1).val; rw [e1]; omega

/-- The second weight matrix's block is the whole matrix at every point. -/
theorem blk3_apply (c : Dev nD) (t : Fin cfg0.N) (y : S128x64.Idx) :
    (Gen.iblk0 V c 3 t : Vec Ideal S128x64 .f32) y = (V c (Pipeline.arrRef spec0 3) : S128x64.Idx → EReal) y := by
  obtain ⟨-, -, -, -, -, -, e0, e1, -⟩ := idx_facts t
  unfold Gen.iblk0
  rw [View.read_apply]
  show V c (Pipeline.arrRef spec0 3) _ = V c (Pipeline.arrRef spec0 3) _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

/-- The bias row's block is the whole row at every point. -/
theorem blk4_apply (c : Dev nD) (t : Fin cfg0.N) (y : S1x128.Idx) :
    (Gen.iblk0 V c 4 t : Vec Ideal S1x128 .f32) y = (V c (Pipeline.arrRef spec0 4) : S1x128.Idx → EReal) y := by
  obtain ⟨-, -, -, -, -, -, -, -, e0, e1, -⟩ := idx_facts t
  unfold Gen.iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- What the output array holds after the region, as one function of the arrays the region finds: the layer at
    node `i 0`, feature `i 1`, clipped below at zero. -/
def result (c : Dev nD) : S100000x128.Idx → EReal := fun i =>
  max (Cert.Spec.layer (V c (Pipeline.arrRef spec0 0)) (V c (Pipeline.arrRef spec0 1)) (V c (Pipeline.arrRef spec0 2))
    (V c (Pipeline.arrRef spec0 3)) (V c (Pipeline.arrRef spec0 4)) (i 0) (i 1)) 0

/-- The body's result at row `r` of the block at point `t` is the clipped layer at node `5000 t + r`. -/
theorem out_at (c : Dev nD) (t : Fin cfg0.N) (r : Fin 5000) (q : Fin 128) (p : Fin 100000) (hp : p.val = 5000 * t.val + r.val) :
    Gen.out0_5 (Gen.iblk0 V c 0 t) (Gen.iblk0 V c 1 t) (Gen.iblk0 V c 2 t) (Gen.iblk0 V c 3 t) (Gen.iblk0 V c 4 t) (ix2 r q)
      = max (Cert.Spec.layer (V c (Pipeline.arrRef spec0 0)) (V c (Pipeline.arrRef spec0 1)) (V c (Pipeline.arrRef spec0 2))
          (V c (Pipeline.arrRef spec0 3)) (V c (Pipeline.arrRef spec0 4)) p q) 0 := by
  refine (out_apply (Gen.iblk0 V c 0 t) (Gen.iblk0 V c 1 t) (Gen.iblk0 V c 2 t) (Gen.iblk0 V c 3 t) (Gen.iblk0 V c 4 t) r q).trans ?_
  unfold Cert.Spec.layer
  have e0 : ∀ k : Fin 64, (Gen.iblk0 V c 0 t : Vec Ideal S5000x64 .f32) (ix2 r k)
      = (V c (Pipeline.arrRef spec0 0) : S100000x64.Idx → EReal) (ix2 p k) := fun k => blk0_apply V c t (ix2 r k) (ix2 p k) hp rfl
  have e1 : ∀ k : Fin 64, (Gen.iblk0 V c 1 t : Vec Ideal S5000x64 .f32) (ix2 r k)
      = (V c (Pipeline.arrRef spec0 1) : S100000x64.Idx → EReal) (ix2 p k) := fun k => blk1_apply V c t (ix2 r k) (ix2 p k) hp rfl
  have e2 : ∀ k : Fin 64, (Gen.iblk0 V c 2 t : Vec Ideal S128x64 .f32) (ix2 q k)
      = (V c (Pipeline.arrRef spec0 2) : S128x64.Idx → EReal) (ix2 q k) := fun k => blk2_apply V c t (ix2 q k)
  have e3 : ∀ k : Fin 64, (Gen.iblk0 V c 3 t : Vec Ideal S128x64 .f32) (ix2 q k)
      = (V c (Pipeline.arrRef spec0 3) : S128x64.Idx → EReal) (ix2 q k) := fun k => blk3_apply V c t (ix2 q k)
  have e4 : (Gen.iblk0 V c 4 t : Vec Ideal S1x128 .f32) (ix2 0 q)
      = (V c (Pipeline.arrRef spec0 4) : S1x128.Idx → EReal) (ix2 0 q) := blk4_apply V c t (ix2 0 q)
  simp only [e0, e1, e2, e3, e4]

/-- What point `t` writes back is block `t` of `result`: the block's element (r, q) sits at array entry
    (5000 t + r, q). -/
theorem out_read (c : Dev nD) (t : Fin cfg0.N) (y : S5000x128.Idx) :
    Gen.out0_5 (Gen.iblk0 V c 0 t) (Gen.iblk0 V c 1 t) (Gen.iblk0 V c 2 t) (Gen.iblk0 V c 3 t) (Gen.iblk0 V c 4 t) y
      = result V c (((cfg0.win 5).blk t).view.emb y) := by
  obtain ⟨r, q, rfl⟩ : ∃ (r : Fin 5000) (q : Fin 128), y = ix2 r q := ⟨y 0, y 1, eq_ix2 y⟩
  obtain ⟨-, -, -, -, -, -, -, -, -, -, e0, e1⟩ := idx_facts t
  have hp : ((((cfg0.win 5).blk t).view.emb (ix2 r q)) 0).val = 5000 * t.val + r.val := by
    show win0_5.index t (0 : Fin 2) * 5000 + 1 * r.val = _; rw [e0]; omega
  have hq : (((cfg0.win 5).blk t).view.emb (ix2 r q)) 1 = q := Fin.ext (by
    show win0_5.index t (1 : Fin 2) * 128 + 1 * q.val = q.val; rw [e1]; omega)
  unfold result
  rw [hq]
  exact out_at V c t r q _ hp

theorem flushed_eq (c : Dev nD) (t : Fin cfg0.N) :
    (Gen.dat0 (F := Ideal) V c).flushed 5 t = ((cfg0.win 5).blk t).view.read (Elt Ideal) (result V c) := by
  show (cfg0.win 5).cut (grid0.coords t) ((Gen.dat0 V c).after 5 t) = _
  rw [Gen.after0_5]
  funext j
  exact out_read V c t j

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row `p` of the array is written back by point `p / 5000`. -/
theorem cover (i : S100000x128.Idx) :
    ∃ t : Fin cfg0.N, (cfg0.win 5).flush t = true ∧ i ∈ ((cfg0.win 5).blk t).view.set := by
  have h0 : (i 0).val < 100000 := idx2_lt0 i
  have h1 : (i 1).val < 128 := idx2_lt1 i
  have hN : cfg0.N = 20 := Gen.N_0
  refine ⟨⟨(i 0).val / 5000, by rw [hN]; omega⟩, Gen.flush0_5 _, ?_⟩
  obtain ⟨-, -, -, -, -, -, -, -, -, -, e0, e1⟩ := idx_facts ⟨(i 0).val / 5000, by rw [hN]; omega⟩
  rw [mem_blk]
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- The output array after all write-backs is `result`. -/
theorem final_arr (c : Dev nD) : (Gen.dat0 (F := Ideal) V c).arrAt 5 cfg0.N = result V c :=
  (Gen.dat0 V c).arrAt_eq_of_cover 5 (result V c) (fun t _ => flushed_eq V c t) cover

/-- REGION 0's VALUE: after the region the output array holds, at node `p` and feature `q`, the layer of the five
    arrays the region found, clipped below at zero. -/
theorem final (c : Dev nD) (p : Fin 100000) (q : Fin 128) :
    (Gen.dat0 (F := Ideal) V c).arrAt 5 cfg0.N (ix2 p q)
      = max (Cert.Spec.layer (V c (Pipeline.arrRef spec0 0)) (V c (Pipeline.arrRef spec0 1)) (V c (Pipeline.arrRef spec0 2))
          (V c (Pipeline.arrRef spec0 3)) (V c (Pipeline.arrRef spec0 4)) p q) 0 := by
  rw [final_arr]
  rfl

end Cert.KernelIdeal.LayerValue0

end
-- ==== Proof.LayerValue1.lean ====
/-
  The value of the second layer's region.

  The region reads five arrays as it finds them: the neighbour means of the first layer's output and that output itself
  (100000 × 128 each), two weight matrices (128 × 128 each, used transposed) and a bias row (1 × 128). It works through
  the 100000 nodes in 25 blocks of 4000 rows: at block `t` it holds rows 4000 t … 4000 t + 3999 of the two node arrays
  and the whole of the weights and the bias, and writes back rows 4000 t … 4000 t + 3999 of the 100000 × 128 output.

  On the extended reals a change of float format is the identity (the output's narrower format included) and a matrix
  product into a zero accumulator is the plain sum of products, so entry (r, q) of what a block writes is
      ∑ₖ mean(r,k)·wl(q,k) + ∑ₖ h(r,k)·wr(q,k) + b(q)
  over the block's own rows. Row `r` of block `t` is row 4000 t + r of the arrays, and row `p` of the output is written
  by block `p / 4000` and by no other, so after the region the output holds, at every node `p` and feature `q`, the
  layer of the five arrays at (p, q).
-/
import proofs.«158941_j57870389346679_2_alg».proof.Proof.Gen.KernelIdeal.Frame
import proofs.«158941_j57870389346679_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx Idealize.ShloMosaic.TcCoe Idealize.SL.Sem
open Idealize.ShloMosaic.Pipeline (Dat)

namespace Cert.KernelIdeal.LayerValue1

open Cert.KernelIdeal Cert.KernelIdeal.Gen

/-- A matrix product into the zero accumulator, rows of the left factor against columns of the right one, read at
    entry (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The body's arithmetic at row `r`, feature `q` of a block: the two row-by-row products against the transposed
    weight matrices and the bias row. Changes of float format are the identity on the extended reals, and the products
    accumulate into zero. -/
theorem pay_apply (x0 x1 : Vec Ideal S4000x128 .f32) (x2 x3 : Vec Ideal S128x128 .f32) (x4 : Vec Ideal S1x128 .f32)
    (r : Fin 4000) (q : Fin 128) :
    Gen.k1_pay1 x0 x1 x2 x3 x4 (ix2 r q)
      = (∑ k : Fin 128, x0 (ix2 r k) * x2 (ix2 q k)) + (∑ k : Fin 128, x1 (ix2 r k) * x3 (ix2 q k)) + x4 (ix2 0 q) := by
  unfold Gen.k1_pay1
  simp only [truncf_apply, addf_apply]
  have hm : ∀ (A : FVec Ideal S4000x128 .bf16) (B : FVec Ideal S128x128 .bf16),
      matmul dot_S4000x128_S128x128_S4000x128_1_0_0_1_n_n none A B (constant S4000x128 .f32 0x00000000#32) (ix2 r q)
        = ∑ c : Fin 128, A (ix2 r c) * B (ix2 c q) :=
    fun A B => matmul_zero_apply dot_S4000x128_S128x128_S4000x128_1_0_0_1_n_n_wf A B r q
  rw [hm, hm]
  simp only [shapeCast_self, truncf_apply, transpose_ix2_apply, broadcastTo_1b_ab_apply]
  have ht : ∀ (B : FVec Ideal S128x128 .bf16) (c : Fin 128),
      transpose S128x128 [1, 0] B transposes_S128x128_p1_0_S128x128 (ix2 c q) = B (ix2 q c) :=
    fun B c => transpose_ix2_apply B transposes_S128x128_p1_0_S128x128 c q
  simp only [ht, truncf_apply]

theorem hz : (![0, 0] : Fin 2 → Nat) = fun _ => 0 := funext fun a => by fin_cases a <;> rfl

/-- The one whole-block store leaves the payload of the whole input blocks. -/
theorem out_apply (x0 x1 : Vec Ideal S4000x128 .f32) (x2 x3 : Vec Ideal S128x128 .f32) (x4 : Vec Ideal S1x128 .f32)
    (r : Fin 4000) (q : Fin 128) :
    Gen.out1_5 x0 x1 x2 x3 x4 (ix2 r q)
      = (∑ k : Fin 128, x0 (ix2 r k) * x2 (ix2 q k)) + (∑ k : Fin 128, x1 (ix2 r k) * x3 (ix2 q k)) + x4 (ix2 0 q) := by
  unfold Gen.out1_5
  rw [View.canon_unit_zero hz]
  simp only [View.ld_unit_zero (S := S4000x128) hz, View.ld_unit_zero (S := S128x128) hz, View.ld_unit_zero (S := S1x128) hz]
  exact pay_apply x0 x1 x2 x3 x4 r q

variable (V : (c : Dev nD) → (b : Ref sig .tc) → Buf (Elt Ideal) ((c : Thread nD τ).loc b))

/-- The block index maps over the grid: the two row-blocked inputs and the output are at block row `t`, column block 0;
    the weights and the bias are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `y 0` of the neighbour-mean block at point `t` is row `4000 t + y 0` of the array. -/
theorem blk0_apply (c : Dev nD) (t : Fin cfg1.N) (y : S4000x128.Idx) (k : S100000x128.Idx)
    (hk0 : (k 0).val = 4000 * t.val + (y 0).val) (hk1 : (k 1).val = (y 1).val) :
    (Gen.iblk1 V c 0 t : Vec Ideal S4000x128 .f32) y = (V c (Pipeline.arrRef spec1 0) : S100000x128.Idx → EReal) k := by
  obtain ⟨e0, e1, -⟩ := idx_facts t
  unfold Gen.iblk1
  rw [View.read_apply]
  show V c (Pipeline.arrRef spec1 0) _ = V c (Pipeline.arrRef spec1 0) _
  congr 1
  funext a
  apply Fin.ext
  match a with
  | ⟨0, _⟩ => show win1_0.index t (0 : Fin 2) * 4000 + 1 * (y 0).val = (k 0).val; rw [e0, hk0]; omega
  | ⟨1, _⟩ => show win1_0.index t (1 : Fin 2) * 128 + 1 * (y 1).val = (k 1).val; rw [e1, hk1]; omega

/-- Row `y 0` of the node-feature block at point `t` is row `4000 t + y 0` of the array. -/
theorem blk1_apply (c : Dev nD) (t : Fin cfg1.N) (y : S4000x128.Idx) (k : S100000x128.Idx)
    (hk0 : (k 0).val = 4000 * t.val + (y 0).val) (hk1 : (k 1).val = (y 1).val) :
    (Gen.iblk1 V c 1 t : Vec Ideal S4000x128 .f32) y = (V c (Pipeline.arrRef spec1 1) : S100000x128.Idx → EReal) k := by
  obtain ⟨-, -, e0, e1, -⟩ := idx_facts t
  unfold Gen.iblk1
  rw [View.read_apply]
  show V c (Pipeline.arrRef spec1 1) _ = V c (Pipeline.arrRef spec1 1) _
  congr 1
  funext a
  apply Fin.ext
  match a with
  | ⟨0, _⟩ => show win1_1.index t (0 : Fin 2) * 4000 + 1 * (y 0).val = (k 0).val; rw [e0, hk0]; omega
  | ⟨1, _⟩ => show win1_1.index t (1 : Fin 2) * 128 + 1 * (y 1).val = (k 1).val; rw [e1, hk1]; omega

/-- The first weight matrix's block is the whole matrix at every point. -/
theorem blk2_apply (c : Dev nD) (t : Fin cfg1.N) (y : S128x128.Idx) :
    (Gen.iblk1 V c 2 t : Vec Ideal S128x128 .f32) y = (V c (Pipeline.arrRef spec1 2) : S128x128.Idx → EReal) y := by
  obtain ⟨-, -, -, -, e0, e1, -⟩ := idx_facts t
  unfold Gen.iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The second weight matrix's block is the whole matrix at every point. -/
theorem blk3_apply (c : Dev nD) (t : Fin cfg1.N) (y : S128x128.Idx) :
    (Gen.iblk1 V c 3 t : Vec Ideal S128x128 .f32) y = (V c (Pipeline.arrRef spec1 3) : S128x128.Idx → EReal) y := by
  obtain ⟨-, -, -, -, -, -, e0, e1, -⟩ := idx_facts t
  unfold Gen.iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row's block is the whole row at every point. -/
theorem blk4_apply (c : Dev nD) (t : Fin cfg1.N) (y : S1x128.Idx) :
    (Gen.iblk1 V c 4 t : Vec Ideal S1x128 .f32) y = (V c (Pipeline.arrRef spec1 4) : S1x128.Idx → EReal) y := by
  obtain ⟨-, -, -, -, -, -, -, -, e0, e1, -⟩ := idx_facts t
  unfold Gen.iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What the output array holds after the region, as one function of the arrays the region finds: the layer at
    node `i 0`, feature `i 1`. -/
def result (c : Dev nD) : S100000x128.Idx → EReal := fun i =>
  Cert.Spec.layer (V c (Pipeline.arrRef spec1 0)) (V c (Pipeline.arrRef spec1 1)) (V c (Pipeline.arrRef spec1 2))
    (V c (Pipeline.arrRef spec1 3)) (V c (Pipeline.arrRef spec1 4)) (i 0) (i 1)

/-- The body's result at row `r` of the block at point `t` is the layer at node `4000 t + r`. -/
theorem out_at (c : Dev nD) (t : Fin cfg1.N) (r : Fin 4000) (q : Fin 128) (p : Fin 100000) (hp : p.val = 4000 * t.val + r.val) :
    Gen.out1_5 (Gen.iblk1 V c 0 t) (Gen.iblk1 V c 1 t) (Gen.iblk1 V c 2 t) (Gen.iblk1 V c 3 t) (Gen.iblk1 V c 4 t) (ix2 r q)
      = Cert.Spec.layer (V c (Pipeline.arrRef spec1 0)) (V c (Pipeline.arrRef spec1 1)) (V c (Pipeline.arrRef spec1 2))
          (V c (Pipeline.arrRef spec1 3)) (V c (Pipeline.arrRef spec1 4)) p q := by
  refine (out_apply (Gen.iblk1 V c 0 t) (Gen.iblk1 V c 1 t) (Gen.iblk1 V c 2 t) (Gen.iblk1 V c 3 t) (Gen.iblk1 V c 4 t) r q).trans ?_
  unfold Cert.Spec.layer
  have e0 : ∀ k : Fin 128, (Gen.iblk1 V c 0 t : Vec Ideal S4000x128 .f32) (ix2 r k)
      = (V c (Pipeline.arrRef spec1 0) : S100000x128.Idx → EReal) (ix2 p k) := fun k => blk0_apply V c t (ix2 r k) (ix2 p k) hp rfl
  have e1 : ∀ k : Fin 128, (Gen.iblk1 V c 1 t : Vec Ideal S4000x128 .f32) (ix2 r k)
      = (V c (Pipeline.arrRef spec1 1) : S100000x128.Idx → EReal) (ix2 p k) := fun k => blk1_apply V c t (ix2 r k) (ix2 p k) hp rfl
  have e2 : ∀ k : Fin 128, (Gen.iblk1 V c 2 t : Vec Ideal S128x128 .f32) (ix2 q k)
      = (V c (Pipeline.arrRef spec1 2) : S128x128.Idx → EReal) (ix2 q k) := fun k => blk2_apply V c t (ix2 q k)
  have e3 : ∀ k : Fin 128, (Gen.iblk1 V c 3 t : Vec Ideal S128x128 .f32) (ix2 q k)
      = (V c (Pipeline.arrRef spec1 3) : S128x128.Idx → EReal) (ix2 q k) := fun k => blk3_apply V c t (ix2 q k)
  have e4 : (Gen.iblk1 V c 4 t : Vec Ideal S1x128 .f32) (ix2 0 q)
      = (V c (Pipeline.arrRef spec1 4) : S1x128.Idx → EReal) (ix2 0 q) := blk4_apply V c t (ix2 0 q)
  simp only [e0, e1, e2, e3, e4]

/-- What point `t` writes back is block `t` of `result`: the block's element (r, q) sits at array entry
    (4000 t + r, q). -/
theorem out_read (c : Dev nD) (t : Fin cfg1.N) (y : S4000x128.Idx) :
    Gen.out1_5 (Gen.iblk1 V c 0 t) (Gen.iblk1 V c 1 t) (Gen.iblk1 V c 2 t) (Gen.iblk1 V c 3 t) (Gen.iblk1 V c 4 t) y
      = result V c (((cfg1.win 5).blk t).view.emb y) := by
  obtain ⟨r, q, rfl⟩ : ∃ (r : Fin 4000) (q : Fin 128), y = ix2 r q := ⟨y 0, y 1, eq_ix2 y⟩
  obtain ⟨-, -, -, -, -, -, -, -, -, -, e0, e1⟩ := idx_facts t
  have hp : ((((cfg1.win 5).blk t).view.emb (ix2 r q)) 0).val = 4000 * t.val + r.val := by
    show win1_5.index t (0 : Fin 2) * 4000 + 1 * r.val = _; rw [e0]; omega
  have hq : (((cfg1.win 5).blk t).view.emb (ix2 r q)) 1 = q := Fin.ext (by
    show win1_5.index t (1 : Fin 2) * 128 + 1 * q.val = q.val; rw [e1]; omega)
  unfold result
  rw [hq]
  exact out_at V c t r q _ hp

theorem flushed_eq (c : Dev nD) (t : Fin cfg1.N) :
    (Gen.dat1 (F := Ideal) V c).flushed 5 t = ((cfg1.win 5).blk t).view.read (Elt Ideal) (result V c) := by
  show (cfg1.win 5).cut (grid1.coords t) ((Gen.dat1 V c).after 5 t) = _
  rw [Gen.after1_5]
  funext j
  exact out_read V c t j

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v38).slice (win1_5.rect t)).set ↔ _
  rw [View.set_slice_whole, Rect.mem_set_unit]
  exact Iff.rfl

/-- Row `p` of the array is written back by point `p / 4000`. -/
theorem cover (i : S100000x128.Idx) :
    ∃ t : Fin cfg1.N, (cfg1.win 5).flush t = true ∧ i ∈ ((cfg1.win 5).blk t).view.set := by
  have h0 : (i 0).val < 100000 := idx2_lt0 i
  have h1 : (i 1).val < 128 := idx2_lt1 i
  have hN : cfg1.N = 25 := Gen.N_1
  refine ⟨⟨(i 0).val / 4000, by rw [hN]; omega⟩, Gen.flush1_5 _, ?_⟩
  obtain ⟨-, -, -, -, -, -, -, -, -, -, e0, e1⟩ := idx_facts ⟨(i 0).val / 4000, by rw [hN]; omega⟩
  rw [mem_blk]
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e1]; omega

/-- The output array after all write-backs is `result`. -/
theorem final_arr (c : Dev nD) : (Gen.dat1 (F := Ideal) V c).arrAt 5 cfg1.N = result V c :=
  (Gen.dat1 V c).arrAt_eq_of_cover 5 (result V c) (fun t _ => flushed_eq V c t) cover

/-- REGION 1's VALUE: after the region the output array holds, at node `p` and feature `q`, the layer of the five
    arrays the region found. -/
theorem final (c : Dev nD) (p : Fin 100000) (q : Fin 128) :
    (Gen.dat1 (F := Ideal) V c).arrAt 5 cfg1.N (ix2 p q)
      = Cert.Spec.layer (V c (Pipeline.arrRef spec1 0)) (V c (Pipeline.arrRef spec1 1)) (V c (Pipeline.arrRef spec1 2))
          (V c (Pipeline.arrRef spec1 3)) (V c (Pipeline.arrRef spec1 4)) p q := by
  rw [final_arr]
  rfl

end Cert.KernelIdeal.LayerValue1

end
-- ==== Proof.DecodeValue.lean ====
/-
  The decoder's matmul-with-statistics region at the extended reals, where every float operation is exact and the format
  changes are the identity: what the region's three output arrays hold once every block has been written back, as functions
  of the arrays the region starts from — the linear map z(p,q) = ∑ₖ s(p,k)·ws(q,k) + ∑ₖ d(p,k)·wd(q,k) + ∑ₖ a(p,k)·we(q,k) + b(q),
  and for each block t of 4000 rows the column sums ∑ᵣ z(4000t + r, q) and ∑ᵣ z(4000t + r, q)².
  First the two matrix products and the body's values at one index of a block, then each input block as rows of its array,
  then the blocks' cover of the arrays (row p of z lies in block p / 4000; entry (t, 0, q) of the sums in block t).
-/
import proofs.«158941_j57870389346679_2_alg».proof.Proof.Gen.KernelIdeal.Frame
import proofs.«158941_j57870389346679_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.DecodeValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The two matrix products at an index -/

/-- The left operand's row coordinate is the output's row. -/
theorem lhs128_0 (i : S4000x128.Idx) (k : dot_S4000x128_S128x128_S4000x128_1_0_0_1_n_n.contr.Idx) : (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- The left operand's column coordinate is the contracted one. -/
theorem lhs128_1 (i : S4000x128.Idx) (k : dot_S4000x128_S128x128_S4000x128_1_0_0_1_n_n.contr.Idx) : (dot_S4000x128_S128x128_S4000x128_1_0_0_1_n_n.lhsIdx i k 1).val = (k ⟨0, by decide⟩).val :=
  dot_S4000x128_S128x128_S4000x128_1_0_0_1_n_n.lhsIdx_val_of_single rfl i k
/-- The right operand's row coordinate is the contracted one. -/
theorem rhs128_0 (i : S4000x128.Idx) (k : dot_S4000x128_S128x128_S4000x128_1_0_0_1_n_n.contr.Idx) : (dot_S4000x128_S128x128_S4000x128_1_0_0_1_n_n.rhsIdx i k 0).val = (k ⟨0, by decide⟩).val :=
  dot_S4000x128_S128x128_S4000x128_1_0_0_1_n_n.rhsIdx_val_of_single rfl i k
/-- The right operand's column coordinate is the output's column. -/
theorem rhs128_1 (i : S4000x128.Idx) (k : dot_S4000x128_S128x128_S4000x128_1_0_0_1_n_n.contr.Idx) : (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block times a transposed weight matrix, into the zero splat, at (r, q): the sum over the 128 contracted
    coordinates of the block's row r against the weight's row q. -/
theorem matmul128_apply (x : FVec Ideal S4000x128 .bf16) (w : FVec Ideal S128x128 .bf16) (r : Fin 4000) (q : Fin 128) :
    matmul (F := Ideal) dot_S4000x128_S128x128_S4000x128_1_0_0_1_n_n none x (transpose S128x128 [1, 0] w transposes_S128x128_p1_0_S128x128) (constant (F := Ideal) S4000x128 .f32 0x00000000#32) (ix2 r q)
      = ∑ k : Fin 128, x (ix2 r k) * w (ix2 q k) := by
  show FloatOps.matmul dot_S4000x128_S128x128_S4000x128_1_0_0_1_n_n none x _ (constant (F := Ideal) S4000x128 .f32 0x00000000#32) (ix2 r q) = _
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r q) ((contrEquiv1 dot_S4000x128_S128x128_S4000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S4000x128_S128x128_S4000x128_1_0_0_1_n_n.rhsIdx (ix2 r q) ((contrEquiv1 dot_S4000x128_S128x128_S4000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er, transpose_ix2_apply]

/-- The left operand's row coordinate is the output's row. -/
theorem lhs16_0 (i : S4000x128.Idx) (k : dot_S4000x16_S16x128_S4000x128_1_0_0_1_n_n.contr.Idx) : (dot_S4000x16_S16x128_S4000x128_1_0_0_1_n_n.lhsIdx i k 0).val = (i 0).val := by
  unfold DotDims.lhsIdx
  rw [dif_neg (show ¬(0 : Fin S4000x16.rank) ∈ dot_S4000x16_S16x128_S4000x128_1_0_0_1_n_n.lhsBatch by decide), dif_pos (show (0 : Fin S4000x16.rank) ∈ dot_S4000x16_S16x128_S4000x128_1_0_0_1_n_n.lhsNonContracting by decide)]
  rfl
/-- The left operand's column coordinate is the contracted one. -/
theorem lhs16_1 (i : S4000x128.Idx) (k : dot_S4000x16_S16x128_S4000x128_1_0_0_1_n_n.contr.Idx) : (dot_S4000x16_S16x128_S4000x128_1_0_0_1_n_n.lhsIdx i k 1).val = (k ⟨0, by decide⟩).val :=
  dot_S4000x16_S16x128_S4000x128_1_0_0_1_n_n.lhsIdx_val_of_single rfl i k
/-- The right operand's row coordinate is the contracted one. -/
theorem rhs16_0 (i : S4000x128.Idx) (k : dot_S4000x16_S16x128_S4000x128_1_0_0_1_n_n.contr.Idx) : (dot_S4000x16_S16x128_S4000x128_1_0_0_1_n_n.rhsIdx i k 0).val = (k ⟨0, by decide⟩).val :=
  dot_S4000x16_S16x128_S4000x128_1_0_0_1_n_n.rhsIdx_val_of_single rfl i k
/-- The right operand's column coordinate is the output's column. -/
theorem rhs16_1 (i : S4000x128.Idx) (k : dot_S4000x16_S16x128_S4000x128_1_0_0_1_n_n.contr.Idx) : (dot_S4000x16_S16x128_S4000x128_1_0_0_1_n_n.rhsIdx i k 1).val = (i 1).val := by
  unfold DotDims.rhsIdx
  rw [dif_neg (show ¬(1 : Fin S16x128.rank) ∈ dot_S4000x16_S16x128_S4000x128_1_0_0_1_n_n.rhsBatch by decide), dif_pos (show (1 : Fin S16x128.rank) ∈ dot_S4000x16_S16x128_S4000x128_1_0_0_1_n_n.rhsNonContracting by decide)]
  rfl

/-- A block times a transposed weight matrix, into the zero splat, at (r, q): the sum over the 16 contracted
    coordinates of the block's row r against the weight's row q. -/
theorem matmul16_apply (x : FVec Ideal S4000x16 .bf16) (w : FVec Ideal S128x16 .bf16) (r : Fin 4000) (q : Fin 128) :
    matmul (F := Ideal) dot_S4000x16_S16x128_S4000x128_1_0_0_1_n_n none x (transpose S16x128 [1, 0] w transposes_S128x16_p1_0_S16x128) (constant (F := Ideal) S4000x128 .f32 0x00000000#32) (ix2 r q)
      = ∑ k : Fin 16, x (ix2 r k) * w (ix2 q k) := by
  show FloatOps.matmul dot_S4000x16_S16x128_S4000x128_1_0_0_1_n_n none x _ (constant (F := Ideal) S4000x128 .f32 0x00000000#32) (ix2 r q) = _
  rw [Ideal.matmul_constant_zero_apply, ← Equiv.sum_comp (contrEquiv1 dot_S4000x16_S16x128_S4000x128_1_0_0_1_n_n 16 rfl rfl).symm]
  refine Finset.sum_congr rfl fun k _ => ?_
  have hk := contrEquiv1_symm_val dot_S4000x16_S16x128_S4000x128_1_0_0_1_n_n 16 rfl rfl k
  have el : dot_S4000x16_S16x128_S4000x128_1_0_0_1_n_n.lhsIdx (ix2 r q) ((contrEquiv1 dot_S4000x16_S16x128_S4000x128_1_0_0_1_n_n 16 rfl rfl).symm k) = ix2 r k := funext fun a => Fin.ext (by
    match a with
    | ⟨0, _⟩ => exact lhs16_0 _ _
    | ⟨1, _⟩ => exact (lhs16_1 _ _).trans hk)
  have er : dot_S4000x16_S16x128_S4000x128_1_0_0_1_n_n.rhsIdx (ix2 r q) ((contrEquiv1 dot_S4000x16_S16x128_S4000x128_1_0_0_1_n_n 16 rfl rfl).symm k) = ix2 k q := funext fun a => Fin.ext (by
    match a with
    | ⟨0, _⟩ => exact (rhs16_0 _ _).trans hk
    | ⟨1, _⟩ => exact rhs16_1 _ _)
  rw [el, er, transpose_ix2_apply]

/-! ## The body's values at an index -/

/-- The decoder's linear map on one block, at row r and feature q. -/
theorem pay2_apply (v0 v2 : Vec Ideal S4000x128 .bf16) (v4 : Vec Ideal S4000x16 .f32) (v6 v9 : Vec Ideal S128x128 .f32)
    (v12 : Vec Ideal S128x16 .f32) (v23 : Vec Ideal S1x128 .f32) (r : Fin 4000) (q : Fin 128) :
    k2_pay2 (F := Ideal) v0 v2 v4 v6 v9 v12 v23 (ix2 r q) = Cert.Spec.decode v0 v2 v4 v6 v9 v12 v23 r q := by
  unfold k2_pay2 Cert.Spec.decode
  dsimp only
  simp only [shapeCast_self]
  rw [addf_apply, addf_apply, addf_apply]
  refine congrArg₂ (· + ·) (congrArg₂ (· + ·) (congrArg₂ (· + ·) ?_ ?_) ?_) ?_
  · exact matmul128_apply v0 (truncf .bf16 v6 bitsLt_bf16_f32) r q
  · exact matmul128_apply v2 (truncf .bf16 v9 bitsLt_bf16_f32) r q
  · exact matmul16_apply (truncf .bf16 v4 bitsLt_bf16_f32) (truncf .bf16 v12 bitsLt_bf16_f32) r q
  · exact broadcastTo_1b_ab_apply _ _ r q

/-- The stored block is the linear map's block: the format change is the identity. -/
theorem pay3_apply (v0 v2 : Vec Ideal S4000x128 .bf16) (v4 : Vec Ideal S4000x16 .f32) (v6 v9 : Vec Ideal S128x128 .f32)
    (v12 : Vec Ideal S128x16 .f32) (v23 : Vec Ideal S1x128 .f32) (r : Fin 4000) (q : Fin 128) :
    k2_pay3 (F := Ideal) v0 v2 v4 v6 v9 v12 v23 (ix2 r q) = Cert.Spec.decode v0 v2 v4 v6 v9 v12 v23 r q := by
  unfold k2_pay3
  exact pay2_apply v0 v2 v4 v6 v9 v12 v23 r q

/-- The sum down the 4000 rows of a [4000, 128] block, at column q. -/
theorem col_sum (src : FVec Ideal S4000x128 .f32) (h : S4000x128.Reduces [0] S128) (hφ : FKind.Formats .f32)
    (hacc : (0x00000000#32 : BitVec 32) = 0x00000000#32) (q : Fin 128) :
    multiReduction (F := Ideal) .add [0] S128 src 0x00000000#32 h hφ hacc (ix1 q) = ∑ r : Fin 4000, src (ix2 r q) := by
  refine (Ideal.multiReduction_add_single src 0x00000000#32 h hφ hacc (ix1 q)).trans ?_
  refine Finset.sum_congr rfl fun r _ => congrArg src ?_
  funext a; apply Fin.ext
  match a with
  | ⟨0, _⟩ => rfl
  | ⟨1, _⟩ => rfl

/-- The block's column sums of the linear map, stored as a [1, 1, 128] block. -/
theorem pay4_apply (v0 v2 : Vec Ideal S4000x128 .bf16) (v4 : Vec Ideal S4000x16 .f32) (v6 v9 : Vec Ideal S128x128 .f32)
    (v12 : Vec Ideal S128x16 .f32) (v23 : Vec Ideal S1x128 .f32) (u0 u1 : Fin 1) (q : Fin 128) :
    k2_pay4 (F := Ideal) v0 v2 v4 v6 v9 v12 v23 (ix3 u0 u1 q) = ∑ r : Fin 4000, Cert.Spec.decode v0 v2 v4 v6 v9 v12 v23 r q := by
  unfold k2_pay4
  dsimp only
  refine (shapeCast_ab_1ab_apply _ _ u0 u1 q).trans ?_
  refine (shapeCast_a_1a_apply _ _ u1 q).trans ?_
  refine (col_sum _ _ _ _ q).trans ?_
  exact Finset.sum_congr rfl fun r _ => pay2_apply v0 v2 v4 v6 v9 v12 v23 r q

/-- The block's column sums of the squared linear map, stored as a [1, 1, 128] block. -/
theorem pay15_apply (v0 v2 : Vec Ideal S4000x128 .bf16) (v4 : Vec Ideal S4000x16 .f32) (v6 v9 : Vec Ideal S128x128 .f32)
    (v12 : Vec Ideal S128x16 .f32) (v23 : Vec Ideal S1x128 .f32) (u0 u1 : Fin 1) (q : Fin 128) :
    k2_pay1 (F := Ideal) (k2_pay5 v0 v2 v4 v6 v9 v12 v23) (ix3 u0 u1 q)
      = ∑ r : Fin 4000, Cert.Spec.decode v0 v2 v4 v6 v9 v12 v23 r q * Cert.Spec.decode v0 v2 v4 v6 v9 v12 v23 r q := by
  unfold k2_pay1
  dsimp only
  refine (shapeCast_ab_1ab_apply _ _ u0 u1 q).trans ?_
  refine (shapeCast_a_1a_apply _ _ u1 q).trans ?_
  refine (col_sum _ _ _ _ q).trans ?_
  refine Finset.sum_congr rfl fun r _ => ?_
  unfold k2_pay5
  rw [mulf_apply, pay2_apply]

/-! ## What the body leaves in each output block, over the input blocks -/

/-- The z block at (r, q). -/
theorem out7_apply (x0 x1 : Vec Ideal S4000x128 .bf16) (x2 : Vec Ideal S4000x16 .f32) (x3 x4 : Vec Ideal S128x128 .f32)
    (x5 : Vec Ideal S128x16 .f32) (x6 : Vec Ideal S1x128 .f32) (y : S4000x128.Idx) (r : Fin 4000) (q : Fin 128)
    (hr : (y 0).val = r.val) (hq : (y 1).val = q.val) :
    out2_7 (F := Ideal) x0 x1 x2 x3 x4 x5 x6 y = Cert.Spec.decode x0 x1 x2 x3 x4 x5 x6 r q := by
  have hy : y = ix2 r q := by
    funext a; apply Fin.ext
    match a with
    | ⟨0, _⟩ => exact hr
    | ⟨1, _⟩ => exact hq
  subst hy
  unfold out2_7
  rw [View.canon_unit_zero hz2]
  simp only [View.ld_unit_zero (S := S4000x128) hz2, View.ld_unit_zero (S := S4000x16) hz2, View.ld_unit_zero (S := S128x128) hz2,
    View.ld_unit_zero (S := S128x16) hz2, View.ld_unit_zero (S := S1x128) hz2]
  exact pay3_apply x0 x1 x2 x3 x4 x5 x6 r q

/-- The column-sum block at feature q. -/
theorem out8_apply (x0 x1 : Vec Ideal S4000x128 .bf16) (x2 : Vec Ideal S4000x16 .f32) (x3 x4 : Vec Ideal S128x128 .f32)
    (x5 : Vec Ideal S128x16 .f32) (x6 : Vec Ideal S1x128 .f32) (y : S1x1x128.Idx) (q : Fin 128) (hq : (y 2).val = q.val) :
    out2_8 (F := Ideal) x0 x1 x2 x3 x4 x5 x6 y = ∑ r : Fin 4000, Cert.Spec.decode x0 x1 x2 x3 x4 x5 x6 r q := by
  have hy : y = ix3 (0 : Fin 1) (0 : Fin 1) q := by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => exact hq
  subst hy
  unfold out2_8
  rw [View.canon_unit_zero hz3]
  simp only [View.ld_unit_zero (S := S4000x128) hz2, View.ld_unit_zero (S := S4000x16) hz2, View.ld_unit_zero (S := S128x128) hz2,
    View.ld_unit_zero (S := S128x16) hz2, View.ld_unit_zero (S := S1x128) hz2]
  exact pay4_apply x0 x1 x2 x3 x4 x5 x6 0 0 q

/-- The column-sum-of-squares block at feature q. -/
theorem out9_apply (x0 x1 : Vec Ideal S4000x128 .bf16) (x2 : Vec Ideal S4000x16 .f32) (x3 x4 : Vec Ideal S128x128 .f32)
    (x5 : Vec Ideal S128x16 .f32) (x6 : Vec Ideal S1x128 .f32) (y : S1x1x128.Idx) (q : Fin 128) (hq : (y 2).val = q.val) :
    out2_9 (F := Ideal) x0 x1 x2 x3 x4 x5 x6 y
      = ∑ r : Fin 4000, Cert.Spec.decode x0 x1 x2 x3 x4 x5 x6 r q * Cert.Spec.decode x0 x1 x2 x3 x4 x5 x6 r q := by
  have hy : y = ix3 (0 : Fin 1) (0 : Fin 1) q := by
    funext a; apply Fin.ext
    match a with
    | ⟨0, _⟩ => show (y 0).val = 0; have : (y 0).val < 1 := (y 0).isLt; omega
    | ⟨1, _⟩ => show (y 1).val = 0; have : (y 1).val < 1 := (y 1).isLt; omega
    | ⟨2, _⟩ => exact hq
  subst hy
  unfold out2_9
  rw [View.canon_unit_zero hz3]
  simp only [View.ld_unit_zero (S := S4000x128) hz2, View.ld_unit_zero (S := S4000x16) hz2, View.ld_unit_zero (S := S128x128) hz2,
    View.ld_unit_zero (S := S128x16) hz2, View.ld_unit_zero (S := S1x128) hz2]
  exact pay15_apply x0 x1 x2 x3 x4 x5 x6 0 0 q

section Blocks

variable (V : (c : Dev nD) → (b : Ref sig .tc) → Buf (Elt Ideal) ((c : Thread nD τ).loc b))

/-! ## The blocks' index maps over the grid -/

/-- The three row-blocked inputs sit at block t. -/
theorem idx_in : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The weights and the bias row sit at block 0. -/
theorem idx_whole : ∀ t : Fin cfg2.N,
    win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The three outputs sit at block t on their first axis, 0 on the others. -/
theorem idx_out : ∀ t : Fin cfg2.N,
    win2_7.index t (0 : Fin 2) = t.val ∧ win2_7.index t (1 : Fin 2) = 0
    ∧ win2_8.index t (0 : Fin 3) = t.val ∧ win2_8.index t (1 : Fin 3) = 0 ∧ win2_8.index t (2 : Fin 3) = 0
    ∧ win2_9.index t (0 : Fin 3) = t.val ∧ win2_9.index t (1 : Fin 3) = 0 ∧ win2_9.index t (2 : Fin 3) = 0 :=
  (by decide +kernel : ∀ t : Fin grid2.N, _)

/-! ## The input blocks at a point -/

/-- The block of s at point t holds rows 4000 t … 4000 t + 3999 of the array. -/
theorem s_block (c : Dev nD) (t : Fin cfg2.N) (r : Fin 4000) (k : Fin 128) (p : Fin 500000) (hp : p.val = 4000 * t.val + r.val) :
    iblk2 V c 0 t (ix2 r k) = (V c (Pipeline.arrRef spec2 0) : Cert.Spec.Arr2 500000 128) (ix2 p k) := by
  have hi : win2_0.index t (0 : Fin 2) = t.val ∧ win2_0.index t (1 : Fin 2) = 0 := by
    have h := idx_in t; simp only [h, and_self]
  unfold iblk2
  rw [View.read_apply]
  refine congrArg (V c (Pipeline.arrRef spec2 0)) (funext fun a => Fin.ext ?_)
  match a with
  | ⟨0, _⟩ => show win2_0.index t (0 : Fin 2) * 4000 + 1 * r.val = p.val; rw [hi.1, hp]; omega
  | ⟨1, _⟩ => show win2_0.index t (1 : Fin 2) * 128 + 1 * k.val = k.val; rw [hi.2]; omega

/-- The block of d at point t holds rows 4000 t … 4000 t + 3999 of the array. -/
theorem d_block (c : Dev nD) (t : Fin cfg2.N) (r : Fin 4000) (k : Fin 128) (p : Fin 500000) (hp : p.val = 4000 * t.val + r.val) :
    iblk2 V c 1 t (ix2 r k) = (V c (Pipeline.arrRef spec2 1) : Cert.Spec.Arr2 500000 128) (ix2 p k) := by
  have hi : win2_1.index t (0 : Fin 2) = t.val ∧ win2_1.index t (1 : Fin 2) = 0 := by
    have h := idx_in t; simp only [h, and_self]
  unfold iblk2
  rw [View.read_apply]
  refine congrArg (V c (Pipeline.arrRef spec2 1)) (funext fun a => Fin.ext ?_)
  match a with
  | ⟨0, _⟩ => show win2_1.index t (0 : Fin 2) * 4000 + 1 * r.val = p.val; rw [hi.1, hp]; omega
  | ⟨1, _⟩ => show win2_1.index t (1 : Fin 2) * 128 + 1 * k.val = k.val; rw [hi.2]; omega

/-- The block of a at point t holds rows 4000 t … 4000 t + 3999 of the array. -/
theorem a_block (c : Dev nD) (t : Fin cfg2.N) (r : Fin 4000) (k : Fin 16) (p : Fin 500000) (hp : p.val = 4000 * t.val + r.val) :
    iblk2 V c 2 t (ix2 r k) = (V c (Pipeline.arrRef spec2 2) : Cert.Spec.Arr2 500000 16) (ix2 p k) := by
  have hi : win2_2.index t (0 : Fin 2) = t.val ∧ win2_2.index t (1 : Fin 2) = 0 := by
    have h := idx_in t; simp only [h, and_self]
  unfold iblk2
  rw [View.read_apply]
  refine congrArg (V c (Pipeline.arrRef spec2 2)) (funext fun a => Fin.ext ?_)
  match a with
  | ⟨0, _⟩ => show win2_2.index t (0 : Fin 2) * 4000 + 1 * r.val = p.val; rw [hi.1, hp]; omega
  | ⟨1, _⟩ => show win2_2.index t (1 : Fin 2) * 16 + 1 * k.val = k.val; rw [hi.2]; omega

/-- Window 3's block is its whole array, at every point. -/
theorem whole_3 (c : Dev nD) (t : Fin cfg2.N) : (iblk2 V c 3 t : Vec Ideal S128x128 .f32) = V c (Pipeline.arrRef spec2 3) := by
  have hi : win2_3.index t (0 : Fin 2) = 0 ∧ win2_3.index t (1 : Fin 2) = 0 := by
    have h := idx_whole t; simp only [h, and_self]
  funext j
  unfold iblk2
  rw [View.read_apply]
  refine congrArg (V c (Pipeline.arrRef spec2 3)) (funext fun a => Fin.ext ?_)
  match a with
  | ⟨0, _⟩ => show win2_3.index t (0 : Fin 2) * 128 + 1 * (j 0).val = (j 0).val; rw [hi.1]; omega
  | ⟨1, _⟩ => show win2_3.index t (1 : Fin 2) * 128 + 1 * (j 1).val = (j 1).val; rw [hi.2]; omega

/-- Window 4's block is its whole array, at every point. -/
theorem whole_4 (c : Dev nD) (t : Fin cfg2.N) : (iblk2 V c 4 t : Vec Ideal S128x128 .f32) = V c (Pipeline.arrRef spec2 4) := by
  have hi : win2_4.index t (0 : Fin 2) = 0 ∧ win2_4.index t (1 : Fin 2) = 0 := by
    have h := idx_whole t; simp only [h, and_self]
  funext j
  unfold iblk2
  rw [View.read_apply]
  refine congrArg (V c (Pipeline.arrRef spec2 4)) (funext fun a => Fin.ext ?_)
  match a with
  | ⟨0, _⟩ => show win2_4.index t (0 : Fin 2) * 128 + 1 * (j 0).val = (j 0).val; rw [hi.1]; omega
  | ⟨1, _⟩ => show win2_4.index t (1 : Fin 2) * 128 + 1 * (j 1).val = (j 1).val; rw [hi.2]; omega

/-- Window 5's block is its whole array, at every point. -/
theorem whole_5 (c : Dev nD) (t : Fin cfg2.N) : (iblk2 V c 5 t : Vec Ideal S128x16 .f32) = V c (Pipeline.arrRef spec2 5) := by
  have hi : win2_5.index t (0 : Fin 2) = 0 ∧ win2_5.index t (1 : Fin 2) = 0 := by
    have h := idx_whole t; simp only [h, and_self]
  funext j
  unfold iblk2
  rw [View.read_apply]
  refine congrArg (V c (Pipeline.arrRef spec2 5)) (funext fun a => Fin.ext ?_)
  match a with
  | ⟨0, _⟩ => show win2_5.index t (0 : Fin 2) * 128 + 1 * (j 0).val = (j 0).val; rw [hi.1]; omega
  | ⟨1, _⟩ => show win2_5.index t (1 : Fin 2) * 16 + 1 * (j 1).val = (j 1).val; rw [hi.2]; omega

/-- Window 6's block is its whole array, at every point. -/
theorem whole_6 (c : Dev nD) (t : Fin cfg2.N) : (iblk2 V c 6 t : Vec Ideal S1x128 .f32) = V c (Pipeline.arrRef spec2 6) := by
  have hi : win2_6.index t (0 : Fin 2) = 0 ∧ win2_6.index t (1 : Fin 2) = 0 := by
    have h := idx_whole t; simp only [h, and_self]
  funext j
  unfold iblk2
  rw [View.read_apply]
  refine congrArg (V c (Pipeline.arrRef spec2 6)) (funext fun a => Fin.ext ?_)
  match a with
  | ⟨0, _⟩ => show win2_6.index t (0 : Fin 2) * 1 + 1 * (j 0).val = (j 0).val; rw [hi.1]; omega
  | ⟨1, _⟩ => show win2_6.index t (1 : Fin 2) * 128 + 1 * (j 1).val = (j 1).val; rw [hi.2]; omega

/-- The decoder's linear map of the region's arrays, at labelled edge p and feature q. -/
abbrev D (c : Dev nD) (p : Fin 500000) (q : Fin 128) : EReal :=
  Cert.Spec.decode (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) p q

set_option maxHeartbeats 1000000 in
/-- The linear map of the blocks at point t, at the block's row r, is the arrays' at row 4000 t + r. -/
theorem decode_block (c : Dev nD) (t : Fin cfg2.N) (r : Fin 4000) (q : Fin 128) (p : Fin 500000) (hp : p.val = 4000 * t.val + r.val) :
    Cert.Spec.decode (iblk2 V c 0 t) (iblk2 V c 1 t) (iblk2 V c 2 t) (iblk2 V c 3 t) (iblk2 V c 4 t) (iblk2 V c 5 t) (iblk2 V c 6 t) r q = D V c p q := by
  rw [whole_3 V c t, whole_4 V c t, whole_5 V c t, whole_6 V c t]
  unfold D Cert.Spec.decode
  refine congrArg₂ (· + ·) (congrArg₂ (· + ·) (congrArg₂ (· + ·) ?_ ?_) ?_) rfl
  · exact Finset.sum_congr rfl fun k _ => by rw [s_block V c t r k p hp]
  · exact Finset.sum_congr rfl fun k _ => by rw [d_block V c t r k p hp]
  · exact Finset.sum_congr rfl fun k _ => by rw [a_block V c t r k p hp]

end Blocks

section Arrays

variable (V : (c : Dev nD) → (b : Ref sig .tc) → Buf (Elt Ideal) ((c : Thread nD τ).loc b))

/-- A rank-3 index's coordinates are below the extents, written as the extents themselves. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- Row r of block T is a row of the 500000. -/
theorem row_lt (T : Nat) (hT : T < 125) (r : Fin 4000) : 4000 * T + r.val < 500000 := by
  have := r.isLt; omega

/-- The whole z array: the linear map at every labelled edge and feature. -/
abbrev G7 (c : Dev nD) : S500000x128.Idx → EReal := fun i => D V c ⟨(i 0).val, idx2_lt0 i⟩ ⟨(i 1).val, idx2_lt1 i⟩

/-- The whole array of per-block column sums. -/
abbrev G8 (c : Dev nD) : S125x1x128.Idx → EReal := fun i =>
  ∑ r : Fin 4000, D V c ⟨4000 * (i 0).val + r.val, row_lt _ (idx3_lt0 i) r⟩ ⟨(i 2).val, idx3_lt2 i⟩

/-- The whole array of per-block column sums of squares. -/
abbrev G9 (c : Dev nD) : S125x1x128.Idx → EReal := fun i =>
  ∑ r : Fin 4000, D V c ⟨4000 * (i 0).val + r.val, row_lt _ (idx3_lt0 i) r⟩ ⟨(i 2).val, idx3_lt2 i⟩
    * D V c ⟨4000 * (i 0).val + r.val, row_lt _ (idx3_lt0 i) r⟩ ⟨(i 2).val, idx3_lt2 i⟩

/-! ## Each output block of point t is block t of its whole array -/

set_option maxHeartbeats 1000000 in
theorem out7_block (c : Dev nD) (t : Fin cfg2.N) (y : S4000x128.Idx) (i : S500000x128.Idx)
    (h0 : (i 0).val = 4000 * t.val + (y 0).val) (h1 : (i 1).val = (y 1).val) :
    out2_7 (iblk2 V c 0 t) (iblk2 V c 1 t) (iblk2 V c 2 t) (iblk2 V c 3 t) (iblk2 V c 4 t) (iblk2 V c 5 t) (iblk2 V c 6 t) y = G7 V c i := by
  have hr : (y 0).val < 4000 := idx2_lt0 y
  refine (out7_apply (iblk2 V c 0 t) (iblk2 V c 1 t) (iblk2 V c 2 t) (iblk2 V c 3 t) (iblk2 V c 4 t) (iblk2 V c 5 t) (iblk2 V c 6 t) y ⟨(y 0).val, hr⟩ ⟨(i 1).val, idx2_lt1 i⟩ rfl h1.symm).trans ?_
  exact decode_block V c t ⟨(y 0).val, hr⟩ ⟨(i 1).val, idx2_lt1 i⟩ ⟨(i 0).val, idx2_lt0 i⟩ h0

set_option maxHeartbeats 1000000 in
theorem out8_block (c : Dev nD) (t : Fin cfg2.N) (y : S1x1x128.Idx) (i : S125x1x128.Idx)
    (h0 : (i 0).val = t.val) (h2 : (i 2).val = (y 2).val) :
    out2_8 (iblk2 V c 0 t) (iblk2 V c 1 t) (iblk2 V c 2 t) (iblk2 V c 3 t) (iblk2 V c 4 t) (iblk2 V c 5 t) (iblk2 V c 6 t) y = G8 V c i := by
  refine (out8_apply (iblk2 V c 0 t) (iblk2 V c 1 t) (iblk2 V c 2 t) (iblk2 V c 3 t) (iblk2 V c 4 t) (iblk2 V c 5 t) (iblk2 V c 6 t) y ⟨(i 2).val, idx3_lt2 i⟩ h2.symm).trans ?_
  exact Finset.sum_congr rfl fun r _ => decode_block V c t r ⟨(i 2).val, idx3_lt2 i⟩ ⟨4000 * (i 0).val + r.val, row_lt _ (idx3_lt0 i) r⟩
    (by show 4000 * (i 0).val + r.val = 4000 * t.val + r.val; rw [h0])

set_option maxHeartbeats 1000000 in
theorem out9_block (c : Dev nD) (t : Fin cfg2.N) (y : S1x1x128.Idx) (i : S125x1x128.Idx)
    (h0 : (i 0).val = t.val) (h2 : (i 2).val = (y 2).val) :
    out2_9 (iblk2 V c 0 t) (iblk2 V c 1 t) (iblk2 V c 2 t) (iblk2 V c 3 t) (iblk2 V c 4 t) (iblk2 V c 5 t) (iblk2 V c 6 t) y = G9 V c i := by
  refine (out9_apply (iblk2 V c 0 t) (iblk2 V c 1 t) (iblk2 V c 2 t) (iblk2 V c 3 t) (iblk2 V c 4 t) (iblk2 V c 5 t) (iblk2 V c 6 t) y ⟨(i 2).val, idx3_lt2 i⟩ h2.symm).trans ?_
  refine Finset.sum_congr rfl fun r _ => ?_
  rw [decode_block V c t r ⟨(i 2).val, idx3_lt2 i⟩ ⟨4000 * (i 0).val + r.val, row_lt _ (idx3_lt0 i) r⟩
    (by show 4000 * (i 0).val + r.val = 4000 * t.val + r.val; rw [h0])]

set_option maxHeartbeats 1000000 in
/-- What point t writes back to z is block t of the whole z array. -/
theorem flushed7_eq (c : Dev nD) (t : Fin cfg2.N) :
    (dat2 V c).flushed 7 t = ((cfg2.win 7).blk t).view.read (Elt Ideal) (G7 V c) := by
  show (cfg2.win 7).cut (grid2.coords t) ((dat2 V c).after 7 t) = _
  rw [after2_7]
  obtain ⟨e0, e1, -⟩ := idx_out t
  funext j
  rw [View.read_apply]
  refine out7_block V c t _ _ ?_ ?_
  · show win2_7.index t (0 : Fin 2) * 4000 + 1 * (j 0).val = 4000 * t.val + (j 0).val
    rw [e0]; omega
  · show win2_7.index t (1 : Fin 2) * 128 + 1 * (j 1).val = (j 1).val
    rw [e1]; omega

set_option maxHeartbeats 1000000 in
/-- What point t writes back to the column sums is block t of their whole array. -/
theorem flushed8_eq (c : Dev nD) (t : Fin cfg2.N) :
    (dat2 V c).flushed 8 t = ((cfg2.win 8).blk t).view.read (Elt Ideal) (G8 V c) := by
  show (cfg2.win 8).cut (grid2.coords t) ((dat2 V c).after 8 t) = _
  rw [after2_8]
  obtain ⟨-, -, e0, e1, e2, -⟩ := idx_out t
  funext j
  rw [View.read_apply]
  have hj0 : (j 0).val < 1 := (j 0).isLt
  refine out8_block V c t _ _ ?_ ?_
  · show win2_8.index t (0 : Fin 3) * 1 + 1 * (j 0).val = t.val
    rw [e0]; omega
  · show win2_8.index t (2 : Fin 3) * 128 + 1 * (j 2).val = (j 2).val
    rw [e2]; omega

set_option maxHeartbeats 1000000 in
/-- What point t writes back to the column sums of squares is block t of their whole array. -/
theorem flushed9_eq (c : Dev nD) (t : Fin cfg2.N) :
    (dat2 V c).flushed 9 t = ((cfg2.win 9).blk t).view.read (Elt Ideal) (G9 V c) := by
  show (cfg2.win 9).cut (grid2.coords t) ((dat2 V c).after 9 t) = _
  rw [after2_9]
  obtain ⟨-, -, -, -, -, e0, e1, e2⟩ := idx_out t
  funext j
  rw [View.read_apply]
  have hj0 : (j 0).val < 1 := (j 0).isLt
  refine out9_block V c t _ _ ?_ ?_
  · show win2_9.index t (0 : Fin 3) * 1 + 1 * (j 0).val = t.val
    rw [e0]; omega
  · show win2_9.index t (2 : Fin 3) * 128 + 1 * (j 2).val = (j 2).val
    rw [e2]; omega

/-! ## The blocks cover the arrays -/

/-- An index of z is in point t's block iff each coordinate is in the block's range on its axis. -/
theorem mem_blk7 (t : Fin cfg2.N) (i : S500000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v61_0).slice (win2_7.rect t)).set ↔ _
  rw [View.set_slice_whole, Rect.mem_set_unit]
  exact Iff.rfl

theorem mem_blk8 (t : Fin cfg2.N) (i : S125x1x128.Idx) :
    i ∈ ((cfg2.win 8).blk t).view.set ↔ ∀ a : Fin 3, win2_8.index t a * S1x1x128.size a ≤ (i a).val ∧ (i a).val < win2_8.index t a * S1x1x128.size a + S1x1x128.size a := by
  show i ∈ ((View.whole main_v61_1).slice (win2_8.rect t)).set ↔ _
  rw [View.set_slice_whole, Rect.mem_set_unit]
  exact Iff.rfl

theorem mem_blk9 (t : Fin cfg2.N) (i : S125x1x128.Idx) :
    i ∈ ((cfg2.win 9).blk t).view.set ↔ ∀ a : Fin 3, win2_9.index t a * S1x1x128.size a ≤ (i a).val ∧ (i a).val < win2_9.index t a * S1x1x128.size a + S1x1x128.size a := by
  show i ∈ ((View.whole main_v61_2).slice (win2_9.rect t)).set ↔ _
  rw [View.set_slice_whole, Rect.mem_set_unit]
  exact Iff.rfl

/-- Row p of z lies in the block of point p / 4000. -/
theorem cover7 (i : S500000x128.Idx) : ∃ t : Fin cfg2.N, (cfg2.win 7).flush t = true ∧ i ∈ ((cfg2.win 7).blk t).view.set := by
  have h0 : (i 0).val < 500000 := idx2_lt0 i
  have h1 : (i 1).val < 128 := idx2_lt1 i
  have hN : cfg2.N = 125 := N_2
  have hlt : (i 0).val / 4000 < cfg2.N := by rw [hN]; omega
  obtain ⟨e0, e1, -⟩ := idx_out ⟨(i 0).val / 4000, hlt⟩
  refine ⟨⟨(i 0).val / 4000, hlt⟩, flush2_7 _, ?_⟩
  rw [mem_blk7]
  intro a
  match a with
  | ⟨0, _⟩ =>
    show win2_7.index ⟨(i 0).val / 4000, hlt⟩ (0 : Fin 2) * 4000 ≤ (i 0).val ∧ (i 0).val < win2_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win2_7.index ⟨(i 0).val / 4000, hlt⟩ (1 : Fin 2) * 128 ≤ (i 1).val ∧ (i 1).val < win2_7.index ⟨(i 0).val / 4000, hlt⟩ (1 : Fin 2) * 128 + 128
    rw [e1]; omega

/-- Entry (t, 0, q) of the column sums lies in the block of point t. -/
theorem cover8 (i : S125x1x128.Idx) : ∃ t : Fin cfg2.N, (cfg2.win 8).flush t = true ∧ i ∈ ((cfg2.win 8).blk t).view.set := by
  have h0 : (i 0).val < 125 := idx3_lt0 i
  have h1 : (i 1).val < 1 := idx3_lt1 i
  have h2 : (i 2).val < 128 := idx3_lt2 i
  have hN : cfg2.N = 125 := N_2
  have hlt : (i 0).val < cfg2.N := by rw [hN]; exact h0
  obtain ⟨-, -, e0, e1, e2, -⟩ := idx_out ⟨(i 0).val, hlt⟩
  refine ⟨⟨(i 0).val, hlt⟩, flush2_8 _, ?_⟩
  rw [mem_blk8]
  intro a
  match a with
  | ⟨0, _⟩ =>
    show win2_8.index ⟨(i 0).val, hlt⟩ (0 : Fin 3) * 1 ≤ (i 0).val ∧ (i 0).val < win2_8.index ⟨(i 0).val, hlt⟩ (0 : Fin 3) * 1 + 1
    rw [e0]; show (i 0).val * 1 ≤ (i 0).val ∧ (i 0).val < (i 0).val * 1 + 1; omega
  | ⟨1, _⟩ =>
    show win2_8.index ⟨(i 0).val, hlt⟩ (1 : Fin 3) * 1 ≤ (i 1).val ∧ (i 1).val < win2_8.index ⟨(i 0).val, hlt⟩ (1 : Fin 3) * 1 + 1
    rw [e1]; omega
  | ⟨2, _⟩ =>
    show win2_8.index ⟨(i 0).val, hlt⟩ (2 : Fin 3) * 128 ≤ (i 2).val ∧ (i 2).val < win2_8.index ⟨(i 0).val, hlt⟩ (2 : Fin 3) * 128 + 128
    rw [e2]; omega

/-- Entry (t, 0, q) of the column sums of squares lies in the block of point t. -/
theorem cover9 (i : S125x1x128.Idx) : ∃ t : Fin cfg2.N, (cfg2.win 9).flush t = true ∧ i ∈ ((cfg2.win 9).blk t).view.set := by
  have h0 : (i 0).val < 125 := idx3_lt0 i
  have h1 : (i 1).val < 1 := idx3_lt1 i
  have h2 : (i 2).val < 128 := idx3_lt2 i
  have hN : cfg2.N = 125 := N_2
  have hlt : (i 0).val < cfg2.N := by rw [hN]; exact h0
  obtain ⟨-, -, -, -, -, e0, e1, e2⟩ := idx_out ⟨(i 0).val, hlt⟩
  refine ⟨⟨(i 0).val, hlt⟩, flush2_9 _, ?_⟩
  rw [mem_blk9]
  intro a
  match a with
  | ⟨0, _⟩ =>
    show win2_9.index ⟨(i 0).val, hlt⟩ (0 : Fin 3) * 1 ≤ (i 0).val ∧ (i 0).val < win2_9.index ⟨(i 0).val, hlt⟩ (0 : Fin 3) * 1 + 1
    rw [e0]; show (i 0).val * 1 ≤ (i 0).val ∧ (i 0).val < (i 0).val * 1 + 1; omega
  | ⟨1, _⟩ =>
    show win2_9.index ⟨(i 0).val, hlt⟩ (1 : Fin 3) * 1 ≤ (i 1).val ∧ (i 1).val < win2_9.index ⟨(i 0).val, hlt⟩ (1 : Fin 3) * 1 + 1
    rw [e1]; omega
  | ⟨2, _⟩ =>
    show win2_9.index ⟨(i 0).val, hlt⟩ (2 : Fin 3) * 128 ≤ (i 2).val ∧ (i 2).val < win2_9.index ⟨(i 0).val, hlt⟩ (2 : Fin 3) * 128 + 128
    rw [e2]; omega

/-! ## The three output arrays after all write-backs -/

theorem final7_eq (c : Dev nD) : (dat2 V c).arrAt 7 cfg2.N = G7 V c :=
  (dat2 V c).arrAt_eq_of_cover 7 (G7 V c) (fun t _ => flushed7_eq V c t) cover7

theorem final8_eq (c : Dev nD) : (dat2 V c).arrAt 8 cfg2.N = G8 V c :=
  (dat2 V c).arrAt_eq_of_cover 8 (G8 V c) (fun t _ => flushed8_eq V c t) cover8

theorem final9_eq (c : Dev nD) : (dat2 V c).arrAt 9 cfg2.N = G9 V c :=
  (dat2 V c).arrAt_eq_of_cover 9 (G9 V c) (fun t _ => flushed9_eq V c t) cover9

/-- z at labelled edge p and feature q is the decoder's linear map there. -/
theorem final7 (c : Dev nD) (p : Fin 500000) (q : Fin 128) :
    (Gen.dat2 (F := Ideal) V c).arrAt 7 cfg2.N (ix2 p q) = Cert.Spec.decode (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) p q := by
  rw [final7_eq]

/-- The column sums' entry (t, 0, q) is the sum of the linear map over the 4000 rows of block t. -/
theorem final8 (c : Dev nD) (t : Fin 125) (q : Fin 128) :
    (Gen.dat2 (F := Ideal) V c).arrAt 8 cfg2.N (ix3 t 0 q)
      = ∑ r : Fin 4000, Cert.Spec.decode (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) ⟨4000 * t.val + r.val, by omega⟩ q := by
  rw [final8_eq]

/-- The column sums of squares' entry (t, 0, q) is the sum of the squared linear map over the 4000 rows of block t. -/
theorem final9 (c : Dev nD) (t : Fin 125) (q : Fin 128) :
    (Gen.dat2 (F := Ideal) V c).arrAt 9 cfg2.N (ix3 t 0 q)
      = ∑ r : Fin 4000, Cert.Spec.decode (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) ⟨4000 * t.val + r.val, by omega⟩ q
          * Cert.Spec.decode (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) ⟨4000 * t.val + r.val, by omega⟩ q := by
  rw [final9_eq]

end Arrays

end Cert.KernelIdeal.DecodeValue

end
-- ==== Proof.NormValue.lean ====
/-
  The decoder's normalise-and-project region at the extended reals, where every float operation is exact and the format
  changes are the identity: what the region's output array holds once every block has been written back, as one function
  of the arrays the region starts from — at labelled edge p,
      ∑_q max((z(p,q) − μ(q))·rsqrt(σ²(q) + ε)·g(q) + β(q), 0)·w(q) + c.
  First the body's value at one row of a block, then each input block as rows of its array, then the blocks' cover of the
  500000 rows (row p lies in block p / 4000).
-/
import proofs.«158941_j57870389346679_2_alg».proof.Proof.Gen.KernelIdeal.Frame
import proofs.«158941_j57870389346679_2_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.NormValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a whole-block access, as the constant function. -/
theorem hz : (![0, 0] : Fin 2 → Nat) = fun _ => 0 := funext fun a => by fin_cases a <;> rfl

/-- A vector [a] viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- A [1, 1] array broadcast down a column [a, 1] reads its one entry everywhere. -/
theorem broadcastTo_11_a1_apply {α : Type} {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The sum along the 128 lanes of a [4000, 128] block, at row r. -/
theorem lane_sum (src : FVec Ideal S4000x128 .f32) (h : S4000x128.Reduces [1] S4000) (hφ : FKind.Formats .f32)
    (hacc : (0x00000000#32 : BitVec 32) = 0x00000000#32) (r : Fin 4000) :
    multiReduction (F := Ideal) .add [1] S4000 src 0x00000000#32 h hφ hacc (ix1 r) = ∑ q : Fin 128, src (ix2 r q) := by
  refine (Ideal.multiReduction_add_single src 0x00000000#32 h hφ hacc (ix1 r)).trans ?_
  refine Finset.sum_congr rfl fun q _ => congrArg src ?_
  funext a; apply Fin.ext
  match a with
  | ⟨0, _⟩ => rfl
  | ⟨1, _⟩ => rfl

/-- The body's stored value at row r of a block: the normalised, clipped row contracted with the weight row, plus the offset. -/
theorem pay_apply (v0 : Vec Ideal S4000x128 .bf16) (v3 v8 v14 v18 v24 : Vec Ideal S1x128 .f32) (v29 : Vec Ideal S1x1 .f32)
    (r : Fin 4000) (u : Fin 1) :
    k3_pay1 (F := Ideal) v0 v3 v8 v14 v18 v24 v29 (ix2 r u)
      = (∑ q : Fin 128, max ((v0 (ix2 r q) - v8 (ix2 0 q)) * Ideal.rsqrt (v3 (ix2 0 q) + Cert.Spec.eps) * v14 (ix2 0 q) + v18 (ix2 0 q)) 0
          * v24 (ix2 0 q)) + v29 (ix2 0 0) := by
  unfold k3_pay1
  dsimp only
  simp only [shapeCast_self]
  rw [addf_apply]
  refine congrArg₂ (· + ·) ?_ ?_
  · refine (shapeCast_a_a1_apply _ _ r u).trans ?_
    refine (lane_sum _ _ _ _ r).trans ?_
    refine Finset.sum_congr rfl fun q _ => ?_
    simp only [mulf_apply, maximumf_apply, addf_apply, subf_apply, extf_apply, broadcast_apply, broadcastTo_1b_ab_apply]
    show max (_ * Ideal.rsqrt (v3 (ix2 0 q) + Ideal.ofBits .f32 0x3727C5AC#32) * _ + _) (Ideal.ofBits .f32 0x00000000#32) * _ = _
    rw [Ideal.ofBits_zero_f32]
    rfl
  · exact broadcastTo_11_a1_apply _ _ r u

/-- What the body leaves in the output block, at the block's row r: the payload of the input blocks. -/
theorem out_apply (x0 : Vec Ideal S4000x128 .bf16) (x1 x2 x3 x4 x5 : Vec Ideal S1x128 .f32) (x6 : Vec Ideal S1x1 .f32)
    (y : S4000x1.Idx) (r : Fin 4000) (hr : (y 0).val = r.val) :
    out3_7 (F := Ideal) x0 x1 x2 x3 x4 x5 x6 y
      = (∑ q : Fin 128, max ((x0 (ix2 r q) - x1 (ix2 0 q)) * Ideal.rsqrt (x2 (ix2 0 q) + Cert.Spec.eps) * x3 (ix2 0 q) + x4 (ix2 0 q)) 0
          * x5 (ix2 0 q)) + x6 (ix2 0 0) := by
  have hy : y = ix2 r (0 : Fin 1) := by
    funext a; apply Fin.ext
    match a with
    | ⟨0, _⟩ => exact hr
    | ⟨1, _⟩ => show (y 1).val = 0; have := idx2_lt1 y; omega
  subst hy
  unfold out3_7
  rw [View.canon_unit_zero hz]
  simp only [View.ld_unit_zero (S := S4000x128) hz, View.ld_unit_zero (S := S1x128) hz, View.ld_unit_zero (S := S1x1) hz]
  exact pay_apply x0 x2 x1 x3 x4 x5 x6 r 0

section Blocks

variable (V : (c : Dev nD) → (b : Ref sig .tc) → Buf (Elt Ideal) ((c : Thread nD τ).loc b))

/-- The blocks' index maps over the grid: the row-blocked windows sit at block t, the others at block 0. -/
theorem idx_facts : ∀ t : Fin cfg3.N,
    win3_0.index t (0 : Fin 2) = t.val ∧ win3_0.index t (1 : Fin 2) = 0
    ∧ win3_7.index t (0 : Fin 2) = t.val ∧ win3_7.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- The block of z at point t holds rows 4000 t … 4000 t + 3999 of the array. -/
theorem z_block (c : Dev nD) (t : Fin cfg3.N) (r : Fin 4000) (q : Fin 128) (p : Fin 500000) (hp : p.val = 4000 * t.val + r.val) :
    iblk3 V c 0 t (ix2 r q) = (V c (Pipeline.arrRef spec3 0) : Cert.Spec.Arr2 500000 128) (ix2 p q) := by
  obtain ⟨e0, e1, -⟩ := idx_facts t
  unfold iblk3
  rw [View.read_apply]
  refine congrArg (V c (Pipeline.arrRef spec3 0)) ?_
  funext a; apply Fin.ext
  match a with
  | ⟨0, _⟩ => show win3_0.index t (0 : Fin 2) * 4000 + 1 * r.val = p.val; rw [e0, hp]; omega
  | ⟨1, _⟩ => show win3_0.index t (1 : Fin 2) * 128 + 1 * q.val = q.val; rw [e1]; omega

/-- Window 1's block is its whole array, at every point. -/
theorem whole_1 (c : Dev nD) (t : Fin cfg3.N) : (iblk3 V c 1 t : Vec Ideal S1x128 .f32) = V c (Pipeline.arrRef spec3 1) := by
  have hi : win3_1.index t (0 : Fin 2) = 0 ∧ win3_1.index t (1 : Fin 2) = 0 := by
    have h := idx_facts t; simp only [h, and_self]
  funext j
  unfold iblk3
  rw [View.read_apply]
  refine congrArg (V c (Pipeline.arrRef spec3 1)) (funext fun a => Fin.ext ?_)
  match a with
  | ⟨0, _⟩ => show win3_1.index t (0 : Fin 2) * 1 + 1 * (j 0).val = (j 0).val; rw [hi.1]; omega
  | ⟨1, _⟩ => show win3_1.index t (1 : Fin 2) * 128 + 1 * (j 1).val = (j 1).val; rw [hi.2]; omega

/-- Window 2's block is its whole array, at every point. -/
theorem whole_2 (c : Dev nD) (t : Fin cfg3.N) : (iblk3 V c 2 t : Vec Ideal S1x128 .f32) = V c (Pipeline.arrRef spec3 2) := by
  have hi : win3_2.index t (0 : Fin 2) = 0 ∧ win3_2.index t (1 : Fin 2) = 0 := by
    have h := idx_facts t; simp only [h, and_self]
  funext j
  unfold iblk3
  rw [View.read_apply]
  refine congrArg (V c (Pipeline.arrRef spec3 2)) (funext fun a => Fin.ext ?_)
  match a with
  | ⟨0, _⟩ => show win3_2.index t (0 : Fin 2) * 1 + 1 * (j 0).val = (j 0).val; rw [hi.1]; omega
  | ⟨1, _⟩ => show win3_2.index t (1 : Fin 2) * 128 + 1 * (j 1).val = (j 1).val; rw [hi.2]; omega

/-- Window 3's block is its whole array, at every point. -/
theorem whole_3 (c : Dev nD) (t : Fin cfg3.N) : (iblk3 V c 3 t : Vec Ideal S1x128 .f32) = V c (Pipeline.arrRef spec3 3) := by
  have hi : win3_3.index t (0 : Fin 2) = 0 ∧ win3_3.index t (1 : Fin 2) = 0 := by
    have h := idx_facts t; simp only [h, and_self]
  funext j
  unfold iblk3
  rw [View.read_apply]
  refine congrArg (V c (Pipeline.arrRef spec3 3)) (funext fun a => Fin.ext ?_)
  match a with
  | ⟨0, _⟩ => show win3_3.index t (0 : Fin 2) * 1 + 1 * (j 0).val = (j 0).val; rw [hi.1]; omega
  | ⟨1, _⟩ => show win3_3.index t (1 : Fin 2) * 128 + 1 * (j 1).val = (j 1).val; rw [hi.2]; omega

/-- Window 4's block is its whole array, at every point. -/
theorem whole_4 (c : Dev nD) (t : Fin cfg3.N) : (iblk3 V c 4 t : Vec Ideal S1x128 .f32) = V c (Pipeline.arrRef spec3 4) := by
  have hi : win3_4.index t (0 : Fin 2) = 0 ∧ win3_4.index t (1 : Fin 2) = 0 := by
    have h := idx_facts t; simp only [h, and_self]
  funext j
  unfold iblk3
  rw [View.read_apply]
  refine congrArg (V c (Pipeline.arrRef spec3 4)) (funext fun a => Fin.ext ?_)
  match a with
  | ⟨0, _⟩ => show win3_4.index t (0 : Fin 2) * 1 + 1 * (j 0).val = (j 0).val; rw [hi.1]; omega
  | ⟨1, _⟩ => show win3_4.index t (1 : Fin 2) * 128 + 1 * (j 1).val = (j 1).val; rw [hi.2]; omega

/-- Window 5's block is its whole array, at every point. -/
theorem whole_5 (c : Dev nD) (t : Fin cfg3.N) : (iblk3 V c 5 t : Vec Ideal S1x128 .f32) = V c (Pipeline.arrRef spec3 5) := by
  have hi : win3_5.index t (0 : Fin 2) = 0 ∧ win3_5.index t (1 : Fin 2) = 0 := by
    have h := idx_facts t; simp only [h, and_self]
  funext j
  unfold iblk3
  rw [View.read_apply]
  refine congrArg (V c (Pipeline.arrRef spec3 5)) (funext fun a => Fin.ext ?_)
  match a with
  | ⟨0, _⟩ => show win3_5.index t (0 : Fin 2) * 1 + 1 * (j 0).val = (j 0).val; rw [hi.1]; omega
  | ⟨1, _⟩ => show win3_5.index t (1 : Fin 2) * 128 + 1 * (j 1).val = (j 1).val; rw [hi.2]; omega

/-- Window 6's block is its whole array, at every point. -/
theorem whole_6 (c : Dev nD) (t : Fin cfg3.N) : (iblk3 V c 6 t : Vec Ideal S1x1 .f32) = V c (Pipeline.arrRef spec3 6) := by
  have hi : win3_6.index t (0 : Fin 2) = 0 ∧ win3_6.index t (1 : Fin 2) = 0 := by
    have h := idx_facts t; simp only [h, and_self]
  funext j
  unfold iblk3
  rw [View.read_apply]
  refine congrArg (V c (Pipeline.arrRef spec3 6)) (funext fun a => Fin.ext ?_)
  match a with
  | ⟨0, _⟩ => show win3_6.index t (0 : Fin 2) * 1 + 1 * (j 0).val = (j 0).val; rw [hi.1]; omega
  | ⟨1, _⟩ => show win3_6.index t (1 : Fin 2) * 1 + 1 * (j 1).val = (j 1).val; rw [hi.2]; omega

/-- The whole output array: at labelled edge i, the normalised and contracted row of the region's arrays. -/
abbrev G (c : Dev nD) : S500000x1.Idx → EReal := fun i =>
  Cert.Spec.normOut (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)) (V c (Pipeline.arrRef spec3 6))
    (⟨(i 0).val, idx2_lt0 i⟩ : Fin 500000)

set_option maxHeartbeats 1000000 in
/-- The output block of point t at its row y 0 is the whole-array function at row 4000 t + y 0. -/
theorem out_block (c : Dev nD) (t : Fin cfg3.N) (y : S4000x1.Idx) (p : Fin 500000) (hp : p.val = 4000 * t.val + (y 0).val) :
    out3_7 (iblk3 V c 0 t) (iblk3 V c 1 t) (iblk3 V c 2 t) (iblk3 V c 3 t) (iblk3 V c 4 t) (iblk3 V c 5 t) (iblk3 V c 6 t) y
      = Cert.Spec.normOut (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) (V c (Pipeline.arrRef spec3 6)) p := by
  have hr : (y 0).val < 4000 := idx2_lt0 y
  refine (out_apply (iblk3 V c 0 t) (iblk3 V c 1 t) (iblk3 V c 2 t) (iblk3 V c 3 t) (iblk3 V c 4 t) (iblk3 V c 5 t) (iblk3 V c 6 t)
    y ⟨(y 0).val, hr⟩ rfl).trans ?_
  rw [whole_1 V c t, whole_2 V c t, whole_3 V c t, whole_4 V c t, whole_5 V c t, whole_6 V c t]
  unfold Cert.Spec.normOut
  refine congrArg₂ (· + ·) (Finset.sum_congr rfl fun q _ => ?_) rfl
  rw [z_block V c t ⟨(y 0).val, hr⟩ q p hp]

set_option maxHeartbeats 1000000 in
/-- What point t writes back is block t of the whole output array. -/
theorem flushed_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  obtain ⟨-, -, e0, -⟩ := idx_facts t
  funext j
  rw [View.read_apply]
  refine out_block V c t _ _ ?_
  show win3_7.index t (0 : Fin 2) * 4000 + 1 * (j 0).val = 4000 * t.val + (j 0).val
  rw [e0]; omega

/-- An index of the output array is in point t's block iff each coordinate is in the block's range on its axis. -/
theorem mem_blk (t : Fin cfg3.N) (i : S500000x1.Idx) :
    i ∈ ((cfg3.win 7).blk t).view.set ↔ ∀ a : Fin 2, win3_7.index t a * S4000x1.size a ≤ (i a).val ∧ (i a).val < win3_7.index t a * S4000x1.size a + S4000x1.size a := by
  show i ∈ ((View.whole main_v73).slice (win3_7.rect t)).set ↔ _
  rw [View.set_slice_whole, Rect.mem_set_unit]
  exact Iff.rfl

/-- Row p of the output lies in the block of point p / 4000. -/
theorem cover (i : S500000x1.Idx) : ∃ t : Fin cfg3.N, (cfg3.win 7).flush t = true ∧ i ∈ ((cfg3.win 7).blk t).view.set := by
  have h0 : (i 0).val < 500000 := idx2_lt0 i
  have h1 : (i 1).val < 1 := idx2_lt1 i
  have hN : cfg3.N = 125 := N_3
  have hlt : (i 0).val / 4000 < cfg3.N := by rw [hN]; omega
  obtain ⟨-, -, e0, e1, -⟩ := idx_facts ⟨(i 0).val / 4000, hlt⟩
  refine ⟨⟨(i 0).val / 4000, hlt⟩, flush3_7 _, ?_⟩
  rw [mem_blk]
  intro a
  match a with
  | ⟨0, _⟩ =>
    show win3_7.index ⟨(i 0).val / 4000, hlt⟩ (0 : Fin 2) * 4000 ≤ (i 0).val ∧ (i 0).val < win3_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win3_7.index ⟨(i 0).val / 4000, hlt⟩ (1 : Fin 2) * 1 ≤ (i 1).val ∧ (i 1).val < win3_7.index ⟨(i 0).val / 4000, hlt⟩ (1 : Fin 2) * 1 + 1
    rw [e1]; omega

/-- The output array after all write-backs is the whole-array function. -/
theorem final_eq (c : Dev nD) : (dat3 V c).arrAt 7 cfg3.N = G V c :=
  (dat3 V c).arrAt_eq_of_cover 7 (G V c) (fun t _ => flushed_eq V c t) cover

/-- The region's output at labelled edge p. -/
theorem final (c : Dev nD) (p : Fin 500000) :
    (Gen.dat3 (F := Ideal) V c).arrAt 7 cfg3.N (ix2 p 0)
      = Cert.Spec.normOut (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) (V c (Pipeline.arrRef spec3 6)) p := by
  rw [final_eq]

end Blocks

end Cert.KernelIdeal.NormValue

end
-- ==== Proof.KernelNet.lean ====
/-
  What the kernel's program computes, region by region, over the launch arrays of one core `c`:
    the first hidden features  H₁(p,q) = max(layer(mean₁, x, w₁ˡ, w₁ʳ, b₁)(p,q), 0),
    the second                 H₂(p,q) = layer(mean₂, H₁, w₂ˡ, w₂ʳ, b₂)(p,q),
    the decoder's rows         Z(p,q) = decode(s, d, a, w[:, 0:128], w[:, 128:256], w[:, 256:272], b₃)(p,q)
  with their 125 blocks' partial column sums, and the result, the normalised, clipped and contracted rows.
  The neighbour means mean₁, mean₂ and the gathered end-node embeddings s, d are parameters here: they are the values
  the host operations before each region leave, whatever those are.
-/
import proofs.«158941_j57870389346679_2_alg».proof.Proof.KernelChain
import proofs.«158941_j57870389346679_2_alg».proof.Proof.LayerValue0
import proofs.«158941_j57870389346679_2_alg».proof.Proof.LayerValue1
import proofs.«158941_j57870389346679_2_alg».proof.Proof.DecodeValue
import proofs.«158941_j57870389346679_2_alg».proof.Proof.NormValue
import proofs.«158941_j57870389346679_2_alg».proof.Proof.Bridge

noncomputable section

open scoped BigOperators

namespace Cert.KernelIdeal.KernelNet

open Idealize.ShloMosaic Idealize.ShloMosaic.TcCoe Idealize.ShloMosaic.ValueIdx Idealize.SL.Sem Cert.KernelIdeal Cert.KernelIdeal.Gen
open Cert.KernelIdeal.KernelStats Cert.KernelIdeal.KernelChain Cert.Spec Cert.Bridge

variable (m : (ℓ : Loc nD τ sig) → Buf (Elt Ideal) ℓ) (ρ : Dev nD → PrngReg) (c : Dev nD)

/-! ## The launch arrays, with their types -/

abbrev feat : FVec Ideal S100000x64 .f32 := m ((c : Thread nD τ).loc main_arg0)
abbrev w1l : FVec Ideal S128x64 .f32 := m ((c : Thread nD τ).loc main_arg1)
abbrev w1r : FVec Ideal S128x64 .f32 := m ((c : Thread nD τ).loc main_arg3)
abbrev w2l : FVec Ideal S128x128 .f32 := m ((c : Thread nD τ).loc main_arg4)
abbrev w2r : FVec Ideal S128x128 .f32 := m ((c : Thread nD τ).loc main_arg6)
abbrev attr : FVec Ideal S500000x16 .f32 := m ((c : Thread nD τ).loc main_arg13)
abbrev wOut : FVec Ideal S1x128 .f32 := m ((c : Thread nD τ).loc main_arg11)

/-- A vector of 128 numbers as a one-row array. -/
def rowOf (v : FVec Ideal S128 .f32) : Arr2 1 128 := fun j => v (ix1 (j 1))
theorem rowOf_apply (v : FVec Ideal S128 .f32) (q : Fin 128) : rowOf v (ix2 0 q) = v (ix1 q) := rfl

/-- The three column pieces of the decoder's weight matrix. -/
def wSrc (w : FVec Ideal S128x272 .f32) : Arr2 128 128 := fun j => w (ix2 (j 0) ⟨(j 1).val, by have h : (j 1).val < 128 := (j 1).isLt; omega⟩)
def wDst (w : FVec Ideal S128x272 .f32) : Arr2 128 128 := fun j => w (ix2 (j 0) ⟨128 + (j 1).val, by have h : (j 1).val < 128 := (j 1).isLt; omega⟩)
def wAttr (w : FVec Ideal S128x272 .f32) : Arr2 128 16 := fun j => w (ix2 (j 0) ⟨256 + (j 1).val, by have h : (j 1).val < 16 := (j 1).isLt; omega⟩)

/-! ## The regions' outputs -/

/-- The first hidden features, as the first region leaves them. -/
abbrev hid1 : FVec Ideal S100000x128 .f32 := (dat0 (V1 m ρ) c).arrAt 5 cfg0.N
/-- The second hidden features, as the second region leaves them. -/
abbrev hid2 : FVec Ideal S100000x128 .bf16 := (dat1 (V3 m ρ) c).arrAt 5 cfg1.N

theorem hid1_apply (M : FVec Ideal S100000x64 .f32) (hM : V1 m ρ c main_v22 = M) (p : Fin 100000) (q : Fin 128) :
    hid1 m ρ c (ix2 p q) = max (layer M (feat m c) (w1l m c) (w1r m c) (rowOf (bias1 m c)) p q) 0 := by
  refine (LayerValue0.final (V1 m ρ) c p q).trans (congrArg (fun v : EReal => max v 0) ?_)
  refine layer_congr p q (fun k => ?_) (fun k => ?_) (fun k => ?_) (fun k => ?_) ?_
  · exact congrFun hM _
  · exact congrFun (V1_arg0 m ρ c) _
  · exact congrFun (V1_arg1 m ρ c) _
  · exact congrFun (V1_arg3 m ρ c) _
  · exact V1_bias m ρ c q

theorem hid2_apply (M : FVec Ideal S100000x128 .f32) (hM : V3 m ρ c main_v36 = M) (p : Fin 100000) (q : Fin 128) :
    hid2 m ρ c (ix2 p q) = layer M (hid1 m ρ c) (w2l m c) (w2r m c) (rowOf (bias2 m c)) p q := by
  refine (LayerValue1.final (V3 m ρ) c p q).trans ?_
  refine layer_congr p q (fun k => ?_) (fun k => ?_) (fun k => ?_) (fun k => ?_) ?_
  · exact congrFun hM _
  · exact congrFun (V3_hidden m ρ c) _
  · exact congrFun (V3_arg4 m ρ c) _
  · exact congrFun (V3_arg6 m ρ c) _
  · exact V3_bias m ρ c q

/-! ## The third region: the decoder's rows and their partial column sums -/

section Decode
variable (S D : FVec Ideal S500000x128 .bf16) (hS : V5 m ρ c main_v47 = S) (hD : V5 m ρ c main_v56 = D)
include hS hD

/-- The decoder's row function over the gathered embeddings `S`, `D` and the launch arrays. -/
abbrev dec (S D : FVec Ideal S500000x128 .bf16) (p : Fin 500000) (q : Fin 128) : EReal :=
  decode S D (attr m c) (wSrc (wDec m c)) (wDst (wDec m c)) (wAttr (wDec m c)) (rowOf (bias3 m c)) p q

theorem decV5_eq (p : Fin 500000) (q : Fin 128) :
    decode (V5 m ρ c (Pipeline.arrRef spec2 0)) (V5 m ρ c (Pipeline.arrRef spec2 1)) (V5 m ρ c (Pipeline.arrRef spec2 2))
      (V5 m ρ c (Pipeline.arrRef spec2 3)) (V5 m ρ c (Pipeline.arrRef spec2 4)) (V5 m ρ c (Pipeline.arrRef spec2 5))
      (V5 m ρ c (Pipeline.arrRef spec2 6)) p q = dec m c S D p q := by
  refine decode_congr p q (fun k => ?_) (fun k => ?_) (fun k => ?_) (fun k => ?_) (fun k => ?_) (fun k => ?_) ?_
  · exact congrFun hS _
  · exact congrFun hD _
  · exact congrFun (V5_attr m ρ c) _
  · exact V5_ws m ρ c q k
  · exact V5_wd m ρ c q k
  · exact V5_we m ρ c q k
  · exact V5_bias m ρ c q

theorem pre_apply (p : Fin 500000) (q : Fin 128) : preArr m ρ c (ix2 p q) = dec m c S D p q :=
  (DecodeValue.final7 (V5 m ρ) c p q).trans (decV5_eq m ρ c S D hS hD p q)

theorem partSum_apply (t : Fin 125) (q : Fin 128) :
    (partSum m ρ c (ix3 t 0 q) : EReal) = ∑ r : Fin 4000, dec m c S D ⟨4000 * t.val + r.val, by omega⟩ q :=
  by
  refine (DecodeValue.final8 (V5 m ρ) c t q).trans ?_
  refine Finset.sum_congr (M := EReal) rfl fun r _ => ?_
  exact decV5_eq m ρ c S D hS hD _ q

theorem partSq_apply (t : Fin 125) (q : Fin 128) :
    (partSq m ρ c (ix3 t 0 q) : EReal)
      = ∑ r : Fin 4000, dec m c S D ⟨4000 * t.val + r.val, by omega⟩ q * dec m c S D ⟨4000 * t.val + r.val, by omega⟩ q :=
  by
  refine (DecodeValue.final9 (V5 m ρ) c t q).trans ?_
  refine Finset.sum_congr (M := EReal) rfl fun r _ => ?_
  rw [decV5_eq m ρ c S D hS hD _ q]

end Decode

/-! ## The fourth region: the result -/

/-- The mean of feature `q` as the host forms it from the 125 partial sums. -/
def muQ (q : Fin 128) : EReal := Ideal.div (0 + ∑ t : Fin 125, partSum m ρ c (ix3 t 0 q)) count
/-- The variance of feature `q` as the host forms it: mean of squares less squared mean. -/
def varQ (q : Fin 128) : EReal :=
  Ideal.div (0 + ∑ t : Fin 125, partSq m ρ c (ix3 t 0 q)) count - muQ m ρ c q * muQ m ρ c q
/-- A function of the feature index as a one-row array. -/
def rowQ (f : Fin 128 → EReal) : Arr2 1 128 := fun j => f ⟨(j 1).val, (j 1).isLt⟩
theorem rowQ_apply (f : Fin 128 → EReal) (q : Fin 128) : rowQ f (ix2 0 q) = f q := rfl

/-- The result array at labelled edge `p`. -/
theorem out_apply (p : Fin 500000) :
    W8 m ρ c (Proc.devRef .tc main_v73) (ix2 p 0)
      = normOut (preArr m ρ c) (rowQ (muQ m ρ c)) (rowQ (varQ m ρ c)) (rowOf (gammaV m c)) (rowOf (betaV m c)) (wOut m c)
          (fun _ => bias4 m c (ix1 0)) p := by
  have h8 : W8 m ρ c (Proc.devRef .tc main_v73) = (dat3 (V7 m ρ) c).arrAt 7 cfg3.N := W8_arr m ρ c 7
  rw [h8]
  refine (NormValue.final (V7 m ρ) c p).trans ?_
  refine normOut_congr p (fun q => ?_) (fun q => ?_) (fun q => ?_) (fun q => ?_) (fun q => ?_) (fun q => ?_) ?_
  · exact congrFun (V7_pre m ρ c) _
  · exact V7_mean m ρ c q
  · exact V7_var m ρ c q
  · exact V7_gamma m ρ c q
  · exact V7_beta m ρ c q
  · exact congrFun (V7_weight m ρ c) _
  · exact V7_bias m ρ c

end Cert.KernelIdeal.KernelNet

end
-- ==== Proof.FiniteOps.lean ====
/-
  Finiteness passes through the host operations on the extended reals.

  An array whose entries are all real numbers (`IsReal`: neither infinity) keeps that property under every
  operation listed here, for any shapes and dimension records: re-indexings (gather, broadcast, transpose, reshape,
  slice, concatenation, selection) read an entry of an operand; the entrywise arithmetic (sum, difference, product,
  maximum, minimum, negation, and the quotient by a nonzero real) is closed on the reals; a scatter-add, a
  contraction and a reduction by addition are an entry plus a finite sum of entries or of products of entries.
  Conversions between formats are the identity on the extended reals.
-/
import Idealize.ShloMosaic.PureOps.Ideal
import Idealize.ShloMosaic.PureOps.Ideal.Laws
import Idealize.ShloMosaic.Lib.ValueIdx
import proofs.«158941_j57870389346679_2_alg».proof.Proof.LibBatchMoments

noncomputable section

open scoped BigOperators

namespace Cert.FiniteOps

open Idealize.ShloMosaic Cert.LibBatchMoments

/-! ### Re-indexings: every result entry is an operand entry -/

theorem gather_real {s si t : Shape} {w : Nat} (d : GatherDims s si t) (x : s.Idx → EReal) (idx : IVec si w)
    (hx : ∀ i, IsReal (x i)) : ∀ j, IsReal (Host.gather d x idx j) := fun _ => hx _

theorem broadcastInDim_real {s t : Shape} (dims : Fin s.rank → Fin t.rank) (h : s.BroadcastsInDim t dims)
    (x : s.Idx → EReal) (hx : ∀ i, IsReal (x i)) : ∀ j, IsReal (broadcastInDim t dims h x j) := fun _ => hx _

theorem transpose_real {s t : Shape} (perm : List (Fin s.rank)) (x : s.Idx → EReal) (h : s.Transposes perm t)
    (hx : ∀ i, IsReal (x i)) : ∀ j, IsReal (transpose t perm x h j) := fun _ => hx _

theorem shapeCast_real {s t : Shape} (x : s.Idx → EReal) (h : s.ShapeCasts t)
    (hx : ∀ i, IsReal (x i)) : ∀ j, IsReal (shapeCast t x h j) := fun _ => hx _

theorem extractStridedSlice_real {s t : Shape} (off : Fin s.rank → Nat) (x : s.Idx → EReal) (h : s.Slices off t)
    (hx : ∀ i, IsReal (x i)) : ∀ j, IsReal (extractStridedSlice t off x h j) := fun _ => hx _

/-- A concatenation along any axis of any list of arrays whose entries are all finite. -/
theorem concatenate_real {t : Shape} (a : Fin t.rank) (xs : List ((s : Shape) × (s.Idx → EReal)))
    (h : Shape.Concatenates (xs.map (·.1)) t a) (hx : ∀ p ∈ xs, ∀ i, IsReal (p.2 i)) :
    ∀ j, IsReal (concatenate t a xs h j) := by
  intro j
  unfold concatenate
  exact hx _ (List.getElem_mem _) _

/-- The concatenation of three arrays. -/
theorem concatenate3_real {t s₁ s₂ s₃ : Shape} (a : Fin t.rank) (x₁ : s₁.Idx → EReal) (x₂ : s₂.Idx → EReal)
    (x₃ : s₃.Idx → EReal)
    (h : Shape.Concatenates (([⟨s₁, x₁⟩, ⟨s₂, x₂⟩, ⟨s₃, x₃⟩] : List ((s : Shape) × (s.Idx → EReal))).map (·.1)) t a)
    (h₁ : ∀ i, IsReal (x₁ i)) (h₂ : ∀ i, IsReal (x₂ i)) (h₃ : ∀ i, IsReal (x₃ i)) :
    ∀ j, IsReal (concatenate t a [⟨s₁, x₁⟩, ⟨s₂, x₂⟩, ⟨s₃, x₃⟩] h j) := by
  apply concatenate_real
  intro p hp
  simp only [List.mem_cons, List.not_mem_nil, or_false] at hp
  rcases hp with rfl | rfl | rfl
  · exact h₁
  · exact h₂
  · exact h₃

/-- A selection, entry by entry, between two arrays of finite entries. -/
theorem select_real {s : Shape} (c : IVec s 1) (a b : s.Idx → EReal) (ha : ∀ i, IsReal (a i)) (hb : ∀ i, IsReal (b i)) :
    ∀ i, IsReal (select c a b i) := by
  intro i
  show IsReal (if c i = 1 then a i else b i)
  split
  · exact ha i
  · exact hb i

/-! ### Constants -/

/-- A splat of a word that denotes a real number. -/
theorem constant_real (s : Shape) (φ : FTy) (b : BitVec φ.bits) (h : IsReal (Ideal.ofBits φ b)) :
    ∀ i, IsReal (constant (F := Ideal) s φ b i) := fun _ => h

theorem constant_zero_real (s : Shape) : ∀ i, IsReal (constant (F := Ideal) s .f32 0x00000000#32 i) :=
  constant_real s .f32 _ isReal_ofBits_zero

theorem constant_one_real (s : Shape) : ∀ i, IsReal (constant (F := Ideal) s .f32 0x3F800000#32 i) :=
  constant_real s .f32 _ isReal_ofBits_one

theorem constant_500000_real (s : Shape) : ∀ i, IsReal (constant (F := Ideal) s .f32 0x48F42400#32 i) :=
  constant_real s .f32 _ isReal_ofBits_500000

/-! ### Entrywise arithmetic -/

section Entrywise
variable {s : Shape} {φ : FTy} (x y : FVec Ideal s φ)

theorem addf_real (hx : ∀ i, IsReal (x i)) (hy : ∀ i, IsReal (y i)) : ∀ i, IsReal (addf x y i) :=
  fun i => (hx i).add (hy i)

theorem subf_real (hx : ∀ i, IsReal (x i)) (hy : ∀ i, IsReal (y i)) : ∀ i, IsReal (subf x y i) :=
  fun i => (hx i).sub (hy i)

theorem mulf_real (hx : ∀ i, IsReal (x i)) (hy : ∀ i, IsReal (y i)) : ∀ i, IsReal (mulf x y i) :=
  fun i => (hx i).mul (hy i)

theorem maximumf_real (hx : ∀ i, IsReal (x i)) (hy : ∀ i, IsReal (y i)) : ∀ i, IsReal (maximumf x y i) :=
  fun i => (hx i).max (hy i)

theorem minimumf_real (hx : ∀ i, IsReal (x i)) (hy : ∀ i, IsReal (y i)) : ∀ i, IsReal (minimumf x y i) :=
  fun i => (hx i).min (hy i)

theorem negf_real (hx : ∀ i, IsReal (x i)) : ∀ i, IsReal (negf x i) :=
  fun i => (hx i).neg

/-- The host's quotient by an array whose entries are all nonzero reals. -/
theorem divf_real (hx : ∀ i, IsReal (x i)) (hy : ∀ i, IsReal (y i)) (h0 : ∀ i, y i ≠ 0) :
    ∀ i, IsReal (Host.divf x y i) :=
  fun i => (hx i).div' (hy i) (h0 i)

/-- The host's quotient by an array each of whose entries is the larger of a finite value and one. -/
theorem divf_max_one_real (hx : ∀ i, IsReal (x i)) (hy : ∀ i, ∃ c : EReal, IsReal c ∧ y i = max c 1) :
    ∀ i, IsReal (Host.divf x y i) := by
  intro i
  obtain ⟨c, hc, e⟩ := hy i
  show IsReal (Ideal.div (x i) (y i))
  rw [e]
  exact (hx i).div_max_one hc

/-- The kernel's quotient, likewise. -/
theorem kdivf_real (hx : ∀ i, IsReal (x i)) (hy : ∀ i, IsReal (y i)) (h0 : ∀ i, y i ≠ 0) :
    ∀ i, IsReal (divf x y i) :=
  fun i => (hx i).div' (hy i) (h0 i)

end Entrywise

/-- The host's quotient by a broadcast of the entrywise larger of a finite array and the splat of one: the
    neighbour sums divided by the degrees clipped below at one. -/
theorem divf_broadcast_max_one_real {s t : Shape} (dims : Fin s.rank → Fin t.rank) (h : s.BroadcastsInDim t dims)
    (x : FVec Ideal t .f32) (c : FVec Ideal s .f32) (hx : ∀ i, IsReal (x i)) (hc : ∀ i, IsReal (c i)) :
    ∀ i, IsReal (Host.divf x (broadcastInDim t dims h (maximumf c (constant s .f32 0x3F800000#32))) i) := by
  have e : ∀ k, maximumf c (constant (F := Ideal) s .f32 0x3F800000#32) k = max (c k) 1 := by
    intro k
    show max (c k) (Ideal.ofBits .f32 0x3F800000#32) = max (c k) 1
    rw [ofBits_one']
  apply divf_max_one_real x _ hx
  intro i
  unfold broadcastInDim
  exact ⟨_, hc _, e _⟩

/-- A conversion to a wider or a narrower format is the identity on the extended reals. -/
theorem extf_real {s : Shape} {φ : FTy} (ψ : FTy) (x : FVec Ideal s φ) (h : φ.bits < ψ.bits)
    (hx : ∀ i, IsReal (x i)) : ∀ i, IsReal (extf ψ x h i) := fun i => hx i

theorem truncf_real {s : Shape} {φ : FTy} (ψ : FTy) (x : FVec Ideal s φ) (h : ψ.bits < φ.bits)
    (hx : ∀ i, IsReal (x i)) : ∀ i, IsReal (truncf ψ x h i) := fun i => hx i

/-! ### Sums -/

/-- The host's scatter-add: an operand entry plus the finite sum of the updates landing on it. -/
theorem scatterAdd_real {s si u : Shape} {w : Nat} {φ : FTy} (d : ScatterDims s si u) (x : FVec Ideal s φ)
    (idx : IVec si w) (upd : FVec Ideal u φ) (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact (hx i).add (isReal_sum _ _ fun j _ => hu j)

/-- The host's contraction, for any dimension record: a finite sum of products of entries. -/
theorem dotGeneral_real {sl sr so : Shape} {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) :
    ∀ j, IsReal (Host.dotGeneral (F := Ideal) d prec lhs rhs j) := by
  intro j
  show IsReal (FloatOps.dotGeneral d prec .single lhs rhs j)
  rw [Ideal.dotGeneral_apply]
  exact isReal_sum_univ _ fun k => (hl _).mul (hr _)

/-- The kernel's matrix product into an accumulator of finite entries. -/
theorem matmul_real {sl sr so : Shape} {φ₁ φ₂ : FTy} (d : DotDims sl sr so) (prec : Option ContractPrecision)
    (lhs : FVec Ideal sl φ₁) (rhs : FVec Ideal sr φ₂) (acc : FVec Ideal so .f32)
    (hl : ∀ i, IsReal (lhs i)) (hr : ∀ i, IsReal (rhs i)) (ha : ∀ i, IsReal (acc i)) :
    ∀ j, IsReal (FloatOps.matmul d prec lhs rhs acc j) := by
  intro j
  rw [Ideal.matmul_apply]
  exact (ha j).add (isReal_sum_univ _ fun k => (hl _).mul (hr _))

/-- The host's reduction by addition, over any axes, from a finite initial value. -/
theorem reduceAdd_real {s t u : Shape} {φ : FTy} {axes : List (Fin s.rank)} (x : FVec Ideal s φ) (init : u.Idx → Ideal φ)
    (h : s.ReducesTo axes t) (hu : 0 < u.numel) (hx : ∀ i, IsReal (x i)) (hi : ∀ i, IsReal (init i)) :
    ∀ j, IsReal (Host.reduceAdd (F := Ideal) x init h hu j) := by
  intro j
  show IsReal (init (Shape.Idx.first hu) + ∑ i ∈ Finset.univ.filter (fun i => h.drop i = j), x i)
  exact (hi _).add (isReal_sum _ _ fun i _ => hx i)

/-- The kernel's reduction by addition over any axes. -/
theorem kreduceAdd_real {s t : Shape} {axes : List (Fin s.rank)} (h : s.Reduces axes t) (x : s.Idx → EReal)
    (hx : ∀ i, IsReal (x i)) : ∀ j, IsReal (Ideal.reduceAdd h x j) := by
  intro j
  show IsReal (∑ i ∈ Finset.univ.filter (fun i => h.drop i = j), x i)
  exact isReal_sum _ _ fun i _ => hx i

end Cert.FiniteOps

end
-- ==== Proof.KernelShared.lean ====
/-
  The host stages the kernel's program shares between its layers, as named functions of the arrays they read.

  The edge list is a 2 × 1600000 integer array: row 0 the source nodes, row 1 the target nodes. A node's degree is
  the number of edges that point at it (ones scattered and added onto zeros at the targets); the clipped degree is
  the larger of it and one, kept as a column. The neighbour mean of a node-feature array gathers its rows at the
  sources (a negative index is first moved up by the number of nodes), scatters and adds them onto zeros at the
  targets and divides every row by the clipped degree. The decoder reads, for each of the 500000 labelled edges, the
  rows of the node embeddings at the edge's two end nodes.

  Each stage is read off the program's host operations for an arbitrary valuation of the buffers, and each keeps
  finite entries finite: a gather reads an entry; a scatter-add is an entry plus a finite sum of entries; the
  division is by the larger of a finite count and one, which is a nonzero real.
-/
import proofs.«158941_j57870389346679_2_alg».proof.Proof.Gen.KernelIdeal.Launch
import Idealize.ShloMosaic.Lib.StableHlo.Run
import proofs.«158941_j57870389346679_2_alg».proof.Proof.FiniteOps
import proofs.«158941_j57870389346679_2_alg».proof.Proof.LibBatchMoments

noncomputable section

namespace Cert.KernelIdeal.KernelShared

open Idealize.ShloMosaic Idealize.SL.Sem Cert.KernelIdeal Cert.KernelIdeal.Gen Cert.LibBatchMoments Cert.FiniteOps

/-! ## The stages -/

/-- The edges' source nodes: row 0 of the edge list, as a vector. -/
def srcIdx (ei : IVec S2x1600000 32) : IVec S1600000 32 :=
  shapeCast S1600000 (extractStridedSlice S1x1600000 ![0, 0] ei slices_S2x1600000_S1x1600000_0_0) shapeCasts_S1x1600000_S1600000

/-- The edges' target nodes: row 1 of the edge list, as a vector. -/
def dstIdx (ei : IVec S2x1600000 32) : IVec S1600000 32 :=
  shapeCast S1600000 (extractStridedSlice S1x1600000 ![1, 0] ei slices_S2x1600000_S1x1600000_1_0) shapeCasts_S1x1600000_S1600000

/-- The number of edges pointing at each node: ones scattered and added onto zeros at the targets. -/
def degCount (ei : IVec S2x1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (dstIdx ei))
    (broadcastInDim S1600000 ![] bcast_S_S1600000 (constant (F := Ideal) S_ .f32 0x3F800000#32))

/-- The clipped degree, as a column: the larger of the degree and one. -/
def degCol (ei : IVec S2x1600000 32) : FVec Ideal S100000x1 .f32 :=
  broadcastInDim S100000x1 ![0] bcast_S100000_S100000x1_0
    (maximumf (degCount ei) (broadcastInDim S100000 ![] bcast_S_S100000 (constant (F := Ideal) S_ .f32 0x3F800000#32)))

/-- The neighbour mean of a 64-wide node array, from the sources, the targets and the clipped degree column. -/
def meanBy64 (x : FVec Ideal S100000x64 .f32) (src dst : IVec S1600000 32) (deg : FVec Ideal S100000x1 .f32) :
    FVec Ideal S100000x64 .f32 :=
  Host.divf
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (Host.gather gather_S100000x64_S1600000x1_S1600000x64_1_0_n_n_0_1_164 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1 deg)

/-- The neighbour mean of a 128-wide node array, likewise. -/
def meanBy128 (h : FVec Ideal S100000x128 .f32) (src dst : IVec S1600000 32) (deg : FVec Ideal S100000x1 .f32) :
    FVec Ideal S100000x128 .f32 :=
  Host.divf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1 deg)

/-- The first layer's neighbour means, from the node features and the edge list. -/
def meanOf64 (x : FVec Ideal S100000x64 .f32) (ei : IVec S2x1600000 32) : FVec Ideal S100000x64 .f32 :=
  meanBy64 x (srcIdx ei) (dstIdx ei) (degCol ei)

/-- The second layer's neighbour means, from the first layer's output and the edge list. -/
def meanOf128 (h : FVec Ideal S100000x128 .f32) (ei : IVec S2x1600000 32) : FVec Ideal S100000x128 .f32 :=
  meanBy128 h (srcIdx ei) (dstIdx ei) (degCol ei)

/-- The embeddings' rows at the nodes listed in row 0 of the labelled-edge list, the edges' first end nodes (a negative
    index is first moved up by the number of nodes). -/
def rowsOf0 (h : FVec Ideal S100000x128 .bf16) (eli : IVec S2x500000 32) : FVec Ideal S500000x128 .bf16 :=
  Host.gather gather_S100000x128_S500000x1_S500000x128_1_0_n_n_0_1_1128 h
    (broadcastInDim S500000x1 ![0] bcast_S500000_S500000x1_0
      (select
        (cmpi .slt (shapeCast S500000 (extractStridedSlice S1x500000 ![0, 0] eli slices_S2x500000_S1x500000_0_0) shapeCasts_S1x500000_S500000)
          (broadcastInDim S500000 ![] bcast_S_S500000 (constantI S_ 32 0#32)))
        (addi (shapeCast S500000 (extractStridedSlice S1x500000 ![0, 0] eli slices_S2x500000_S1x500000_0_0) shapeCasts_S1x500000_S500000)
          (broadcastInDim S500000 ![] bcast_S_S500000 (constantI S_ 32 100000#32)))
        (shapeCast S500000 (extractStridedSlice S1x500000 ![0, 0] eli slices_S2x500000_S1x500000_0_0) shapeCasts_S1x500000_S500000)))

/-- The same for row 1 of the labelled-edge list (`rowsOf0` reads row 0: the edges' first end nodes; this one the
    second end nodes). -/
def rowsOf1 (h : FVec Ideal S100000x128 .bf16) (eli : IVec S2x500000 32) : FVec Ideal S500000x128 .bf16 :=
  Host.gather gather_S100000x128_S500000x1_S500000x128_1_0_n_n_0_1_1128 h
    (broadcastInDim S500000x1 ![0] bcast_S500000_S500000x1_0
      (select
        (cmpi .slt (shapeCast S500000 (extractStridedSlice S1x500000 ![1, 0] eli slices_S2x500000_S1x500000_1_0) shapeCasts_S1x500000_S500000)
          (broadcastInDim S500000 ![] bcast_S_S500000 (constantI S_ 32 0#32)))
        (addi (shapeCast S500000 (extractStridedSlice S1x500000 ![1, 0] eli slices_S2x500000_S1x500000_1_0) shapeCasts_S1x500000_S500000)
          (broadcastInDim S500000 ![] bcast_S_S500000 (constantI S_ 32 100000#32)))
        (shapeCast S500000 (extractStridedSlice S1x500000 ![1, 0] eli slices_S2x500000_S1x500000_1_0) shapeCasts_S1x500000_S500000)))

/-! ## The stages read off the host operations -/

variable (W : Valuation τ sig (Elt Ideal))

theorem h0_src : StableHlo.after (hostOps0 (F := Ideal)) W (Proc.devRef .tc main_v1) = srcIdx (W (Proc.devRef .tc main_arg14)) := by
  after_results; rfl

theorem h0_dst : StableHlo.after (hostOps0 (F := Ideal)) W (Proc.devRef .tc main_v3) = dstIdx (W (Proc.devRef .tc main_arg14)) := by
  after_results; rfl

theorem h0_deg : StableHlo.after (hostOps0 (F := Ideal)) W (Proc.devRef .tc main_v10) = degCol (W (Proc.devRef .tc main_arg14)) := by
  after_results; rfl

theorem h0_mean : StableHlo.after (hostOps0 (F := Ideal)) W (Proc.devRef .tc main_v22)
    = meanOf64 (W (Proc.devRef .tc main_arg0)) (W (Proc.devRef .tc main_arg14)) := by
  after_results_simp; rfl

/-- The second host stretch forms the second layer's means from the sources, the targets and the clipped degrees
    the first stretch left, whatever edge list they came from. -/
theorem h1_mean (ei : IVec S2x1600000 32) (h1 : (W (Proc.devRef .tc main_v1) : IVec S1600000 32) = srcIdx ei)
    (h3 : (W (Proc.devRef .tc main_v3) : IVec S1600000 32) = dstIdx ei)
    (h10 : (W (Proc.devRef .tc main_v10) : FVec Ideal S100000x1 .f32) = degCol ei) :
    StableHlo.after (hostOps1 (F := Ideal)) W (Proc.devRef .tc main_v36) = meanOf128 (W (Proc.devRef .tc main_v24)) ei := by
  have e : StableHlo.after (hostOps1 (F := Ideal)) W (Proc.devRef .tc main_v36)
      = meanBy128 (W (Proc.devRef .tc main_v24)) (W (Proc.devRef .tc main_v1)) (W (Proc.devRef .tc main_v3))
          (W (Proc.devRef .tc main_v10)) := by
    after_results_simp; rfl
  rw [e, h1, h3, h10]; rfl

theorem h2_rows0 : StableHlo.after (hostOps2 (F := Ideal)) W (Proc.devRef .tc main_v47)
    = rowsOf0 (W (Proc.devRef .tc main_v38)) (W (Proc.devRef .tc main_arg15)) := by
  after_results_simp; rfl

theorem h2_rows1 : StableHlo.after (hostOps2 (F := Ideal)) W (Proc.devRef .tc main_v56)
    = rowsOf1 (W (Proc.devRef .tc main_v38)) (W (Proc.devRef .tc main_arg15)) := by
  after_results_simp; rfl

/-- The second host stretch leaves the sources, the targets and the clipped degrees as it found them. -/
theorem kept1_v1 : StableHlo.after (hostOps1 (F := Ideal)) W (Proc.devRef .tc main_v1) = W (Proc.devRef .tc main_v1) := by after_results
theorem kept1_v3 : StableHlo.after (hostOps1 (F := Ideal)) W (Proc.devRef .tc main_v3) = W (Proc.devRef .tc main_v3) := by after_results
theorem kept1_v10 : StableHlo.after (hostOps1 (F := Ideal)) W (Proc.devRef .tc main_v10) = W (Proc.devRef .tc main_v10) := by after_results

/-! ## Finite entries stay finite -/

/-- The degree counts are finite: zero plus a finite sum of ones. -/
theorem degCount_real (ei : IVec S2x1600000 32) : ∀ i, IsReal (degCount ei i) := by
  unfold degCount
  exact scatterAdd_real _ _ _ _ (broadcastInDim_real _ _ _ (constant_zero_real S_))
    (broadcastInDim_real _ _ _ (constant_one_real S_))

/-- The entrywise larger of a finite array and an array of ones: every entry is the larger of a finite value and one. -/
theorem max_one_spec {s : Shape} (c o : FVec Ideal s .f32) (hc : ∀ i, IsReal (c i)) (ho : ∀ i, o i = 1) :
    ∀ i, ∃ r : EReal, IsReal r ∧ maximumf c o i = max r 1 := fun i =>
  ⟨c i, hc i, by show max (c i) (o i) = max (c i) 1; rw [ho i]⟩

/-- Every entry of the clipped degree column is the larger of a finite count and one. -/
theorem degCol_spec (ei : IVec S2x1600000 32) : ∀ i, ∃ r : EReal, IsReal r ∧ degCol ei i = max r 1 := by
  intro i
  unfold degCol broadcastInDim
  exact max_one_spec (degCount ei) _ (degCount_real ei) (fun _ => ofBits_one') _

theorem meanBy64_real (x : FVec Ideal S100000x64 .f32) (src dst : IVec S1600000 32) (deg : FVec Ideal S100000x1 .f32)
    (hx : ∀ i, IsReal (x i)) (hdeg : ∀ i, ∃ r : EReal, IsReal r ∧ deg i = max r 1) :
    ∀ i, IsReal (meanBy64 x src dst deg i) := by
  unfold meanBy64
  apply divf_max_one_real
  · exact scatterAdd_real _ _ _ _ (broadcastInDim_real _ _ _ (constant_zero_real S_)) (gather_real _ _ _ hx)
  · intro i; unfold broadcastInDim; exact hdeg _

theorem meanBy128_real (h : FVec Ideal S100000x128 .f32) (src dst : IVec S1600000 32) (deg : FVec Ideal S100000x1 .f32)
    (hh : ∀ i, IsReal (h i)) (hdeg : ∀ i, ∃ r : EReal, IsReal r ∧ deg i = max r 1) :
    ∀ i, IsReal (meanBy128 h src dst deg i) := by
  unfold meanBy128
  apply divf_max_one_real
  · exact scatterAdd_real _ _ _ _ (broadcastInDim_real _ _ _ (constant_zero_real S_)) (gather_real _ _ _ hh)
  · intro i; unfold broadcastInDim; exact hdeg _

/-- The first layer's neighbour means of finite node features are finite. -/
theorem meanOf64_real (x : FVec Ideal S100000x64 .f32) (ei : IVec S2x1600000 32) (hx : ∀ i, IsReal (x i)) :
    ∀ i, IsReal (meanOf64 x ei i) :=
  meanBy64_real x _ _ _ hx (degCol_spec ei)

/-- The second layer's neighbour means of a finite array are finite. -/
theorem meanOf128_real (h : FVec Ideal S100000x128 .f32) (ei : IVec S2x1600000 32) (hh : ∀ i, IsReal (h i)) :
    ∀ i, IsReal (meanOf128 h ei i) :=
  meanBy128_real h _ _ _ hh (degCol_spec ei)

/-- Rows gathered from a finite array are finite. -/
theorem rowsOf0_real (h : FVec Ideal S100000x128 .bf16) (eli : IVec S2x500000 32) (hh : ∀ i, IsReal (h i)) :
    ∀ i, IsReal (rowsOf0 h eli i) := by
  unfold rowsOf0; exact gather_real _ _ _ hh

theorem rowsOf1_real (h : FVec Ideal S100000x128 .bf16) (eli : IVec S2x500000 32) (hh : ∀ i, IsReal (h i)) :
    ∀ i, IsReal (rowsOf1 h eli i) := by
  unfold rowsOf1; exact gather_real _ _ _ hh

end Cert.KernelIdeal.KernelShared

end
-- ==== Proof.KernelJoin.lean ====
/-
  The kernel's program with its shared host stages named.

  What the first region finds as its neighbour means is the mean stage of the node features over the edge list; what
  the second region finds is the same stage of the first region's output, because the host operations between the
  regions re-use the sources, the targets and the clipped degrees the first stretch computed from the same edge list
  and leave them untouched; what the third region finds as the end nodes' embeddings are the rows of the second
  region's output at the two rows of the labelled-edge list. Hence the three arrays the regions write are the layer,
  the layer and the decoder of the specification over these stages.
-/
import proofs.«158941_j57870389346679_2_alg».proof.Proof.KernelNet
import proofs.«158941_j57870389346679_2_alg».proof.Proof.KernelShared

noncomputable section

open scoped BigOperators

namespace Cert.KernelIdeal.KernelJoin

open Idealize.ShloMosaic Idealize.ShloMosaic.TcCoe Idealize.ShloMosaic.ValueIdx Idealize.SL.Sem Cert.KernelIdeal Cert.KernelIdeal.Gen
open Cert.KernelIdeal.KernelChain Cert.KernelIdeal.KernelNet Cert.KernelIdeal.KernelShared Cert.Spec

variable (m : (ℓ : Loc nD τ sig) → Buf (Elt Ideal) ℓ) (ρ : Dev nD → PrngReg) (c : Dev nD)

/-- The edge list and the labelled-edge list of the launch. -/
abbrev ei : IVec S2x1600000 32 := m ((c : Thread nD τ).loc main_arg14)
abbrev eli : IVec S2x500000 32 := m ((c : Thread nD τ).loc main_arg15)

/-! ## The first region's neighbour means -/

theorem V1_mean : V1 m ρ c main_v22 = meanOf64 (feat m c) (ei m c) := (h0_mean (W0 m ρ c)).trans rfl

/-! ## The second region's neighbour means -/

/-- The sources, the targets and the clipped degrees pass the first region unchanged. -/
theorem W2_src : (W2 m ρ c (Proc.devRef .tc main_v1) : IVec S1600000 32) = srcIdx (ei m c) :=
  (W2_of_ne m ρ c main_v1 (by decide)).trans ((h0_src (W0 m ρ c)).trans rfl)
theorem W2_dst : (W2 m ρ c (Proc.devRef .tc main_v3) : IVec S1600000 32) = dstIdx (ei m c) :=
  (W2_of_ne m ρ c main_v3 (by decide)).trans ((h0_dst (W0 m ρ c)).trans rfl)
theorem W2_deg : (W2 m ρ c (Proc.devRef .tc main_v10) : FVec Ideal S100000x1 .f32) = degCol (ei m c) :=
  (W2_of_ne m ρ c main_v10 (by decide)).trans ((h0_deg (W0 m ρ c)).trans rfl)

theorem V3_mean : V3 m ρ c main_v36 = meanOf128 (hid1 m ρ c) (ei m c) := by
  have e := h1_mean (W2 m ρ c) (ei m c) (W2_src m ρ c) (W2_dst m ρ c) (W2_deg m ρ c)
  have a : W2 m ρ c (Proc.devRef .tc main_v24) = hid1 m ρ c := W2_arr m ρ c 5
  rw [a] at e
  exact e

/-! ## The third region's gathered rows -/

theorem V5_rows0 : V5 m ρ c main_v47 = rowsOf0 (hid2 m ρ c) (eli m c) := by
  have e := h2_rows0 (W4 m ρ c)
  have a : W4 m ρ c (Proc.devRef .tc main_v38) = hid2 m ρ c := W4_arr m ρ c 5
  have b : W4 m ρ c (Proc.devRef .tc main_arg15) = eli m c := W4_arg15 m ρ c
  rw [a, b] at e
  exact e

theorem V5_rows1 : V5 m ρ c main_v56 = rowsOf1 (hid2 m ρ c) (eli m c) := by
  have e := h2_rows1 (W4 m ρ c)
  have a : W4 m ρ c (Proc.devRef .tc main_v38) = hid2 m ρ c := W4_arr m ρ c 5
  have b : W4 m ρ c (Proc.devRef .tc main_arg15) = eli m c := W4_arg15 m ρ c
  rw [a, b] at e
  exact e

/-! ## The three arrays the regions write -/

/-- The first hidden features: the layer over the neighbour means of the node features, clipped below at zero. -/
theorem hid1_eq (p : Fin 100000) (q : Fin 128) :
    hid1 m ρ c (ix2 p q)
      = max (layer (meanOf64 (feat m c) (ei m c)) (feat m c) (w1l m c) (w1r m c) (rowOf (bias1 m c)) p q) 0 :=
  hid1_apply m ρ c _ (V1_mean m ρ c) p q

/-- The second hidden features: the layer over the neighbour means of the first. -/
theorem hid2_eq (p : Fin 100000) (q : Fin 128) :
    hid2 m ρ c (ix2 p q)
      = layer (meanOf128 (hid1 m ρ c) (ei m c)) (hid1 m ρ c) (w2l m c) (w2r m c) (rowOf (bias2 m c)) p q :=
  hid2_apply m ρ c _ (V3_mean m ρ c) p q

/-- The decoder's rows: over the second hidden features gathered at the labelled edges' end nodes. -/
theorem pre_eq (p : Fin 500000) (q : Fin 128) :
    preArr m ρ c (ix2 p q)
      = dec m c (rowsOf0 (hid2 m ρ c) (eli m c)) (rowsOf1 (hid2 m ρ c) (eli m c)) p q :=
  pre_apply m ρ c _ _ (V5_rows0 m ρ c) (V5_rows1 m ρ c) p q

end Cert.KernelIdeal.KernelJoin

end
-- ==== Proof.PreReal.lean ====
/-
  The precondition read back: every entry of every float argument is a real number.

  The predicate computes, for each float argument x, the conjunction over all entries of |x| < +∞ (the
  comparison against the broadcast binary32 word 0x7F800000, reduced by "and" from 1), and then the
  conjunction of the fourteen bits.  At the ideal instance a float is an extended real, |x| is max x (−x),
  the word 0x7F800000 is ⊤, and |x| < ⊤ fails exactly at x = ⊤ and x = ⊥.  So the predicate being 1 says
  that every entry is the image of a real number.
-/
import proofs.«158941_j57870389346679_2_alg».proof.Pre_finite_inputs
import proofs.«158941_j57870389346679_2_alg».proof.Proof.Gen.Pre_finite_inputs
import proofs.«158941_j57870389346679_2_alg».proof.Proof.LibBatchMoments
import Idealize.ShloMosaic.Lib.ReduceAll
import Idealize.ShloMosaic.PureOps.Ideal
import Idealize.ShloMosaic.Lib.ValueIdx

noncomputable section

namespace Cert.PreReal

open Idealize.ShloMosaic Cert.Pre_finite_inputs Cert.LibBatchMoments

/-- The scalar shape has one index. -/
instance subsingleton_scalar_idx : Subsingleton S_.Idx := ⟨fun a b => funext fun d => d.elim0⟩

/-- The binary32 word 0x7F800000 denotes +∞. -/
theorem inf_word : Ideal.ofBits .f32 0x7F800000#32 = (⊤ : EReal) := by simp [Ideal.ofBits, Ideal.ieee]

/-- An extended real whose absolute value max x (−x) is strictly below +∞ is a real number. -/
theorem isReal_of_abs_lt (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- One argument: if the conjunction over all entries of |x| < +∞ is 1 then every entry of x is a real number. -/
theorem real_of_all {s : Shape} (hb : S_.BroadcastsInDim s (![] : Fin 0 → Fin s.rank)) {axes : List (Fin s.rank)}
    (hr : s.ReducesTo axes S_) (hu : 0 < S_.numel) (x : FVec Ideal s .f32) (j : S_.Idx)
    (h : Host.reduce IntOp.andi
          (cmpf .olt (Host.absf x) (broadcastInDim s ![] hb (constant (F := Ideal) S_ .f32 0x7F800000#32)))
          (constantI S_ 1 1#1) hr hu j = 1#1) :
    ∀ i, IsReal (x i) := by
  intro i
  have e1 := Host.reduce_andi_all _ _ hr hu j h i
  have e2 : Ideal.cmp .olt (max (x i) (-(x i))) (Ideal.ofBits .f32 0x7F800000#32) = 1#1 := e1
  rw [inf_word] at e2
  exact isReal_of_abs_lt _ e2

/-- THE PRECONDITION DECODED: the predicate being 1 makes every entry of each of the fourteen float arguments a
    real number (the two integer arguments carry no condition). -/
theorem all_real (a0 : FVec Ideal S100000x64 .f32) (a1 : FVec Ideal S128x64 .f32) (a2 : FVec Ideal S128 .f32)
    (a3 : FVec Ideal S128x64 .f32) (a4 : FVec Ideal S128x128 .f32) (a5 : FVec Ideal S128 .f32)
    (a6 : FVec Ideal S128x128 .f32) (a7 : FVec Ideal S128x272 .f32) (a8 : FVec Ideal S128 .f32)
    (a9 : FVec Ideal S128 .f32) (a10 : FVec Ideal S128 .f32) (a11 : FVec Ideal S1x128 .f32)
    (a12 : FVec Ideal S1 .f32) (a13 : FVec Ideal S500000x16 .f32) (a14 : IVec S2x1600000 32) (a15 : IVec S2x500000 32)
    (h : Cert.Pre_finite_inputs.fn (F := Ideal) a0 a1 a2 a3 a4 a5 a6 a7 a8 a9 a10 a11 a12 a13 a14 a15 = fun _ => 1#1) :
    (∀ i, IsReal (a0 i)) ∧ (∀ i, IsReal (a1 i)) ∧ (∀ i, IsReal (a2 i)) ∧ (∀ i, IsReal (a3 i)) ∧
    (∀ i, IsReal (a4 i)) ∧ (∀ i, IsReal (a5 i)) ∧ (∀ i, IsReal (a6 i)) ∧ (∀ i, IsReal (a7 i)) ∧
    (∀ i, IsReal (a8 i)) ∧ (∀ i, IsReal (a9 i)) ∧ (∀ i, IsReal (a10 i)) ∧ (∀ i, IsReal (a11 i)) ∧
    (∀ i, IsReal (a12 i)) ∧ (∀ i, IsReal (a13 i)) := by
  have e := congrFun h ValueIdx.ix0
  unfold Cert.Pre_finite_inputs.fn Cert.Pre_finite_inputs.fn_part1 Cert.Pre_finite_inputs.fn_part2
    Cert.Pre_finite_inputs.fn_part3 Cert.Pre_finite_inputs.fn_part4 at e
  simp only [andi, IntOp.andi_eq_one] at e
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := e
  exact ⟨real_of_all _ _ _ a0 _ h0, real_of_all _ _ _ a1 _ h1, real_of_all _ _ _ a2 _ h2, real_of_all _ _ _ a3 _ h3,
    real_of_all _ _ _ a4 _ h4, real_of_all _ _ _ a5 _ h5, real_of_all _ _ _ a6 _ h6, real_of_all _ _ _ a7 _ h7,
    real_of_all _ _ _ a8 _ h8, real_of_all _ _ _ a9 _ h9, real_of_all _ _ _ a10 _ h10, real_of_all _ _ _ a11 _ h11,
    real_of_all _ _ _ a12 _ h12, real_of_all _ _ _ a13 _ h13⟩

end Cert.PreReal

end
-- ==== Proof.KernelFinite.lean ====
/-
  Finiteness along the kernel's program.

  The precondition says that every entry of every float argument is a real number. A neighbour mean of a finite
  array is finite (the division is by the larger of a finite count and one); a layer of finite arrays is a finite sum
  of products plus a finite bias, and clipping at zero keeps it finite; gathered rows are entries. So the first and
  the second hidden features are finite, the rows gathered from them are, and each entry of the decoder's rows is a
  real number.
-/
import proofs.«158941_j57870389346679_2_alg».proof.Proof.KernelJoin
import proofs.«158941_j57870389346679_2_alg».proof.Proof.PreReal
import proofs.«158941_j57870389346679_2_alg».proof.Proof.Bridge
import proofs.«158941_j57870389346679_2_alg».proof.Defs

noncomputable section

open scoped BigOperators

namespace Cert.KernelIdeal.KernelFinite

open Idealize.ShloMosaic Idealize.ShloMosaic.TcCoe Idealize.ShloMosaic.ValueIdx Idealize.SL.Sem Cert.KernelIdeal Cert.KernelIdeal.Gen
open Cert.KernelIdeal.KernelChain Cert.KernelIdeal.KernelNet Cert.KernelIdeal.KernelShared Cert.KernelIdeal.KernelJoin
open Cert.Spec Cert.Bridge Cert.LibBatchMoments

variable (m : (ℓ : Loc nD τ sig) → Buf (Elt Ideal) ℓ) (ρ : Dev nD → PrngReg)

/-- Every entry of each of the fourteen float arguments of the launch is a real number. -/
theorem inputs_real (hpre : Cert.Pre_KernelIdeal m) (c : Dev nD) :
    (∀ i, IsReal (feat m c i)) ∧ (∀ i, IsReal (w1l m c i)) ∧ (∀ i, IsReal (bias1 m c i)) ∧ (∀ i, IsReal (w1r m c i)) ∧
    (∀ i, IsReal (w2l m c i)) ∧ (∀ i, IsReal (bias2 m c i)) ∧ (∀ i, IsReal (w2r m c i)) ∧ (∀ i, IsReal (wDec m c i)) ∧
    (∀ i, IsReal (bias3 m c i)) ∧ (∀ i, IsReal (gammaV m c i)) ∧ (∀ i, IsReal (betaV m c i)) ∧ (∀ i, IsReal (wOut m c i)) ∧
    (∀ i, IsReal (bias4 m c i)) ∧ (∀ i, IsReal (attr m c i)) :=
  Cert.PreReal.all_real _ _ _ _ _ _ _ _ _ _ _ _ _ _ _ _ (hpre c)

/-- A vector of finite entries laid out as a row has finite entries. -/
theorem rowOf_real (v : FVec Ideal S128 .f32) (hv : ∀ i, IsReal (v i)) : ∀ i, IsReal (rowOf v i) := fun _ => hv _

/-- The first hidden features are finite. -/
theorem hid1_real (hpre : Cert.Pre_KernelIdeal m) (c : Dev nD) : ∀ i, IsReal (hid1 m ρ c i) := by
  intro i
  obtain ⟨p, q, rfl⟩ : ∃ (p : Fin 100000) (q : Fin 128), i = ix2 p q := ⟨i 0, i 1, eq_ix2 i⟩
  obtain ⟨h0, h1, h2, h3, -⟩ := inputs_real m hpre c
  rw [hid1_eq]
  exact layer_relu_real _ _ _ _ _ p q (meanOf64_real _ _ h0) h0 h1 h3 (rowOf_real _ h2)

/-- The second hidden features are finite. -/
theorem hid2_real (hpre : Cert.Pre_KernelIdeal m) (c : Dev nD) : ∀ i, IsReal (hid2 m ρ c i) := by
  intro i
  obtain ⟨p, q, rfl⟩ : ∃ (p : Fin 100000) (q : Fin 128), i = ix2 p q := ⟨i 0, i 1, eq_ix2 i⟩
  obtain ⟨-, -, -, -, h4, h5, h6, -⟩ := inputs_real m hpre c
  rw [hid2_eq]
  exact layer_real _ _ _ _ _ p q (meanOf128_real _ _ (hid1_real m ρ hpre c)) (hid1_real m ρ hpre c) h4 h6 (rowOf_real _ h5)

/-- The embeddings gathered at the labelled edges' end nodes are finite. -/
theorem rows0_real (hpre : Cert.Pre_KernelIdeal m) (c : Dev nD) : ∀ i, IsReal (rowsOf0 (hid2 m ρ c) (eli m c) i) :=
  rowsOf0_real _ _ (hid2_real m ρ hpre c)
theorem rows1_real (hpre : Cert.Pre_KernelIdeal m) (c : Dev nD) : ∀ i, IsReal (rowsOf1 (hid2 m ρ c) (eli m c) i) :=
  rowsOf1_real _ _ (hid2_real m ρ hpre c)

/-- Every entry of the decoder's rows is a real number. -/
theorem dec_real (hpre : Cert.Pre_KernelIdeal m) (c : Dev nD) (p : Fin 500000) (q : Fin 128) :
    IsReal (dec m c (rowsOf0 (hid2 m ρ c) (eli m c)) (rowsOf1 (hid2 m ρ c) (eli m c)) p q) := by
  obtain ⟨-, -, -, -, -, -, -, h7, h8, -, -, -, -, h13⟩ := inputs_real m hpre c
  exact decode_real _ _ _ _ _ _ _ p q (rows0_real m ρ hpre c) (rows1_real m ρ hpre c) h13
    (fun _ => h7 _) (fun _ => h7 _) (fun _ => h7 _) (rowOf_real _ h8)

end Cert.KernelIdeal.KernelFinite

end
-- ==== Proof.KernelMoments.lean ====
/-
  The kernel's batch statistics joined to whole-column sums: the mean of feature q that the host forms from the 125 blocks'
  partial sums is the mean of the decoder's rows over all 500000 labelled edges, and its mean of squares less the squared
  mean is the mean of the squared deviations from that mean (for finite rows).
-/
import proofs.«158941_j57870389346679_2_alg».proof.Proof.KernelNet
import proofs.«158941_j57870389346679_2_alg».proof.Proof.Bridge

noncomputable section

open scoped BigOperators

namespace Cert.KernelIdeal.KernelMoments

open Idealize.ShloMosaic Idealize.ShloMosaic.TcCoe Idealize.ShloMosaic.ValueIdx Idealize.SL.Sem Cert.KernelIdeal Cert.KernelIdeal.Gen
open Cert.KernelIdeal.KernelStats Cert.KernelIdeal.KernelChain Cert.Spec Cert.Bridge Cert.LibBatchMoments

variable (m : (ℓ : Loc nD τ sig) → Buf (Elt Ideal) ℓ) (ρ : Dev nD → PrngReg) (c : Dev nD)
variable (S D : FVec Ideal S500000x128 .bf16) (hS : V5 m ρ c main_v47 = S) (hD : V5 m ρ c main_v56 = D)
include hS hD

/-- The 125 partial sums of feature q, added, are the blocks' sums of the decoder's rows. -/
theorem sum_partSum (q : Fin 128) :
    (∑ t : Fin 125, partSum m ρ c (ix3 t 0 q))
      = ∑ t : Fin 125, ∑ r : Fin 4000, KernelNet.dec m c S D ⟨4000 * t.val + r.val, by omega⟩ q :=
  Finset.sum_congr rfl fun t _ => KernelNet.partSum_apply m ρ c S D hS hD t q

/-- The 125 partial sums of squares of feature q, added, are the blocks' sums of the squared rows. -/
theorem sum_partSq (q : Fin 128) :
    (∑ t : Fin 125, partSq m ρ c (ix3 t 0 q))
      = ∑ t : Fin 125, ∑ r : Fin 4000, KernelNet.dec m c S D ⟨4000 * t.val + r.val, by omega⟩ q
          * KernelNet.dec m c S D ⟨4000 * t.val + r.val, by omega⟩ q :=
  Finset.sum_congr rfl fun t _ => KernelNet.partSq_apply m ρ c S D hS hD t q

/-- The host's mean of feature q is the mean of the decoder's rows over all labelled edges. -/
theorem muQ_eq (q : Fin 128) :
    KernelNet.muQ m ρ c q = Ideal.div (0 + ∑ p : Fin 500000, KernelNet.dec m c S D p q) Cert.Bridge.N := by
  unfold KernelNet.muQ
  rw [sum_partSum m ρ c S D hS hD q]
  exact mean_blocks' (fun p => KernelNet.dec m c S D p q)
    (fun t r => KernelNet.dec m c S D ⟨4000 * t.val + r.val, by omega⟩ q) (fun _ _ => rfl)

/-- The host's variance of feature q is the mean of the squared deviations of the decoder's rows from their mean. -/
theorem varQ_eq (q : Fin 128) (hreal : ∀ p, IsReal (KernelNet.dec m c S D p q)) :
    KernelNet.varQ m ρ c q
      = Ideal.div (0 + ∑ p : Fin 500000,
            (KernelNet.dec m c S D p q - Ideal.div (0 + ∑ p, KernelNet.dec m c S D p q) Cert.Bridge.N)
              * (KernelNet.dec m c S D p q - Ideal.div (0 + ∑ p, KernelNet.dec m c S D p q) Cert.Bridge.N))
          (Cert.Bridge.N - ((0 : ℝ) : EReal)) := by
  unfold KernelNet.varQ KernelNet.muQ
  rw [sum_partSum m ρ c S D hS hD q, sum_partSq m ρ c S D hS hD q]
  exact var_blocks' (fun p => KernelNet.dec m c S D p q) hreal
    (fun t r => KernelNet.dec m c S D ⟨4000 * t.val + r.val, by omega⟩ q) (fun _ _ => rfl)

end Cert.KernelIdeal.KernelMoments

end
-- ==== Proof.SharedEq.lean ====
/-
  The host stages the two programs share are the same functions. Both programs gather the rows of a node array at
  the edges' sources, scatter and add them onto zeros at the targets and divide by the clipped degree, and both read
  the embeddings' rows at the labelled edges' end nodes; the kernel's program forms the index vectors and the degree
  once and reuses them, the reference forms them at each use. The two programs' shapes are the same shapes and their
  dimension records have the same fields, so the two compositions are the same term: no operation is evaluated.
-/
import proofs.«158941_j57870389346679_2_alg».proof.Proof.KernelShared
import proofs.«158941_j57870389346679_2_alg».proof.Proof.RefStageDefs
import Idealize.ShloMosaic.PureOps.Ideal

noncomputable section

namespace Cert.SharedEq

open Idealize.ShloMosaic

/-! ## The dimension records: field by field the same -/

theorem gather64_eq :
    Cert.KernelIdeal.gather_S100000x64_S1600000x1_S1600000x64_1_0_n_n_0_1_164
      = Cert.ReferenceIdeal.gather_S100000x64_S1600000x1_S1600000x64_1_0_n_n_0_1_164 := rfl

theorem scatter64_eq :
    Cert.KernelIdeal.scatter_S100000x64_S1600000x1_S1600000x64_1_0_0_1
      = Cert.ReferenceIdeal.scatter_S100000x64_S1600000x1_S1600000x64_1_0_0_1 := rfl

theorem scatterDeg_eq :
    Cert.KernelIdeal.scatter_S100000_S1600000x1_S1600000_n_0_0_1
      = Cert.ReferenceIdeal.scatter_S100000_S1600000x1_S1600000_n_0_0_1 := rfl

theorem gather128_eq :
    Cert.KernelIdeal.gather_S100000x128_S1600000x1_S1600000x128_1_0_n_n_0_1_1128
      = Cert.ReferenceIdeal.gather_S100000x128_S1600000x1_S1600000x128_1_0_n_n_0_1_1128 := rfl

theorem scatter128_eq :
    Cert.KernelIdeal.scatter_S100000x128_S1600000x1_S1600000x128_1_0_0_1
      = Cert.ReferenceIdeal.scatter_S100000x128_S1600000x1_S1600000x128_1_0_0_1 := rfl

theorem gatherRows_eq :
    Cert.KernelIdeal.gather_S100000x128_S500000x1_S500000x128_1_0_n_n_0_1_1128
      = Cert.ReferenceIdeal.gather_S100000x128_S500000x1_S500000x128_1_0_n_n_0_1_1128 := rfl

/-! ## The stages -/

open Cert.KernelIdeal.KernelShared Cert.ReferenceIdeal.RefStages

set_option maxHeartbeats 50000 in
/-- The 64-wide neighbour mean. -/
theorem mean64_eq (x : FVec Ideal Cert.KernelIdeal.S100000x64 .f32) (ei : IVec Cert.KernelIdeal.S2x1600000 32) :
    meanOf64 x ei = mean64 (F := Ideal) x ei := by
  unfold meanOf64 meanBy64 srcIdx dstIdx degCol degCount mean64
  rfl

set_option maxHeartbeats 50000 in
/-- The 128-wide neighbour mean. -/
theorem mean128_eq (h : FVec Ideal Cert.KernelIdeal.S100000x128 .f32) (ei : IVec Cert.KernelIdeal.S2x1600000 32) :
    meanOf128 h ei = mean128 (F := Ideal) h ei := by
  unfold meanOf128 meanBy128 srcIdx dstIdx degCol degCount mean128
  rfl

set_option maxHeartbeats 50000 in
/-- The embeddings' rows at the labelled edges' first end nodes. -/
theorem rows0_eq (h : FVec Ideal Cert.KernelIdeal.S100000x128 .bf16) (eli : IVec Cert.KernelIdeal.S2x500000 32) :
    rowsOf0 h eli = rowsAt0 (F := Ideal) h eli := by
  unfold rowsOf0 rowsAt0
  rfl

set_option maxHeartbeats 50000 in
/-- The embeddings' rows at the labelled edges' second end nodes. -/
theorem rows1_eq (h : FVec Ideal Cert.KernelIdeal.S100000x128 .bf16) (eli : IVec Cert.KernelIdeal.S2x500000 32) :
    rowsOf1 h eli = rowsAt1 (F := Ideal) h eli := by
  unfold rowsOf1 rowsAt1
  rfl

end Cert.SharedEq

end
-- ==== Proof.Final.lean ====
/-
  The two programs' results are equal.

  The reference's result is its last stage over the decoder's linear map, that map's column means and column
  variances, and four arguments. On memories that agree on the sixteen arguments the stages are, one after the other,
  what the other program's regions leave: the first hidden features, the second, the rows gathered at the labelled edges'
  end nodes, the decoder's rows; the mean that program forms from 125 blocks' sums is the column mean, and its mean of
  squares less the squared mean is the two-pass variance, because every entry of the decoder's rows is a real number.
  Both results are then the same normalised, clipped and contracted rows.
-/
import proofs.«158941_j57870389346679_2_alg».proof.Proof.RefRead
import proofs.«158941_j57870389346679_2_alg».proof.Proof.RefStages
import proofs.«158941_j57870389346679_2_alg».proof.Proof.KernelNet
import proofs.«158941_j57870389346679_2_alg».proof.Proof.KernelJoin
import proofs.«158941_j57870389346679_2_alg».proof.Proof.KernelFinite
import proofs.«158941_j57870389346679_2_alg».proof.Proof.KernelMoments
import proofs.«158941_j57870389346679_2_alg».proof.Proof.SharedEq
import proofs.«158941_j57870389346679_2_alg».proof.Proof.Bridge
import proofs.«158941_j57870389346679_2_alg».proof.Defs

noncomputable section

open scoped BigOperators

namespace Cert.Final

open Idealize.ShloMosaic Idealize.ShloMosaic.TcCoe Idealize.ShloMosaic.ValueIdx Idealize.SL.Sem
open Cert.KernelIdeal.KernelChain Cert.KernelIdeal.KernelNet Cert.KernelIdeal.KernelJoin Cert.KernelIdeal.KernelShared
open Cert.Spec Cert.LibBatchMoments

variable (m : (ℓ : Loc Cert.KernelIdeal.nD Cert.KernelIdeal.τ Cert.KernelIdeal.sig) → Buf (Elt Ideal) ℓ) (ρ : Dev Cert.KernelIdeal.nD → PrngReg)

/-- From any contents of the reference's buffers whose sixteen arguments are the other program's launch arrays, the
    reference's result array is that program's result array. -/
theorem result_eq_of (hpre : Cert.Pre_KernelIdeal m) (c : Dev Cert.KernelIdeal.nD)
    (V : Valuation Cert.ReferenceIdeal.τ Cert.ReferenceIdeal.sig (Elt Ideal))
    (h0 : V (Proc.devRef .tc Cert.ReferenceIdeal.main_arg0) = feat m c)
    (h1 : V (Proc.devRef .tc Cert.ReferenceIdeal.main_arg1) = w1l m c)
    (h2 : V (Proc.devRef .tc Cert.ReferenceIdeal.main_arg2) = bias1 m c)
    (h3 : V (Proc.devRef .tc Cert.ReferenceIdeal.main_arg3) = w1r m c)
    (h4 : V (Proc.devRef .tc Cert.ReferenceIdeal.main_arg4) = w2l m c)
    (h5 : V (Proc.devRef .tc Cert.ReferenceIdeal.main_arg5) = bias2 m c)
    (h6 : V (Proc.devRef .tc Cert.ReferenceIdeal.main_arg6) = w2r m c)
    (h7 : V (Proc.devRef .tc Cert.ReferenceIdeal.main_arg7) = wDec m c)
    (h8 : V (Proc.devRef .tc Cert.ReferenceIdeal.main_arg8) = bias3 m c)
    (h9 : V (Proc.devRef .tc Cert.ReferenceIdeal.main_arg9) = gammaV m c)
    (h10 : V (Proc.devRef .tc Cert.ReferenceIdeal.main_arg10) = betaV m c)
    (h11 : V (Proc.devRef .tc Cert.ReferenceIdeal.main_arg11) = wOut m c)
    (h12 : V (Proc.devRef .tc Cert.ReferenceIdeal.main_arg12) = bias4 m c)
    (h13 : V (Proc.devRef .tc Cert.ReferenceIdeal.main_arg13) = attr m c)
    (h14 : V (Proc.devRef .tc Cert.ReferenceIdeal.main_arg14) = ei m c)
    (h15 : V (Proc.devRef .tc Cert.ReferenceIdeal.main_arg15) = eli m c) :
    StableHlo.after Cert.ReferenceIdeal.RefRun.ops V (Proc.devRef .tc Cert.ReferenceIdeal.main_v111)
      = Cert.KernelIdeal.Gen.W8 m ρ c (Proc.devRef .tc Cert.KernelIdeal.main_v73) := by
  -- the first hidden features
  have E1 : Cert.ReferenceIdeal.RefStages.h1Of (F := Ideal) V = hid1 m ρ c := by
    funext j
    obtain ⟨p, q, rfl⟩ : ∃ (p : Fin 100000) (q : Fin 128), j = ix2 p q := ⟨j 0, j 1, eq_ix2 j⟩
    unfold Cert.ReferenceIdeal.RefStages.h1Of
    rw [h0, h14, h1, h2, h3,
      Cert.ReferenceIdeal.RefRead.hidden1_apply (Cert.ReferenceIdeal.RefStages.mean64 (F := Ideal) (feat m c) (ei m c)) (feat m c) (w1l m c) (w1r m c)
        (bias1 m c) (rowOf (bias1 m c)) p q rfl,
      hid1_eq m ρ c p q, Cert.SharedEq.mean64_eq]
  -- the second hidden features
  have E2 : Cert.ReferenceIdeal.RefStages.h2Of (F := Ideal) V = hid2 m ρ c := by
    funext j
    obtain ⟨p, q, rfl⟩ : ∃ (p : Fin 100000) (q : Fin 128), j = ix2 p q := ⟨j 0, j 1, eq_ix2 j⟩
    unfold Cert.ReferenceIdeal.RefStages.h2Of
    rw [E1, h14, h4, h5, h6,
      Cert.ReferenceIdeal.RefRead.hidden2_apply (Cert.ReferenceIdeal.RefStages.mean128 (F := Ideal) (hid1 m ρ c) (ei m c)) (hid1 m ρ c) (w2l m c) (w2r m c)
        (bias2 m c) (rowOf (bias2 m c)) p q rfl,
      hid2_eq m ρ c p q, Cert.SharedEq.mean128_eq]
  -- the decoder's rows
  have E4 : ∀ (p : Fin 500000) (q : Fin 128), Cert.ReferenceIdeal.RefStages.zOf (F := Ideal) V (ix2 p q)
      = dec m c (rowsOf0 (hid2 m ρ c) (eli m c)) (rowsOf1 (hid2 m ρ c) (eli m c)) p q := by
    intro p q
    unfold Cert.ReferenceIdeal.RefStages.zOf
    rw [E2, h15, h13, h7, h8, ← Cert.SharedEq.rows0_eq, ← Cert.SharedEq.rows1_eq]
    exact Cert.ReferenceIdeal.RefRead.pre_apply (rowsOf0 (hid2 m ρ c) (eli m c)) (rowsOf1 (hid2 m ρ c) (eli m c)) (attr m c) (wDec m c)
      (bias3 m c) (wSrc (wDec m c)) (wDst (wDec m c)) (wAttr (wDec m c)) (rowOf (bias3 m c)) p q
      (fun _ => rfl) (fun _ => rfl) (fun _ => rfl) rfl
  have E4' : ∀ (p : Fin 500000) (q : Fin 128), Cert.ReferenceIdeal.RefStages.zOf (F := Ideal) V (ix2 p q) = preArr m ρ c (ix2 p q) :=
    fun p q => (E4 p q).trans (pre_eq m ρ c p q).symm
  -- the column means
  have E5 : ∀ q : Fin 128, Cert.ReferenceIdeal.RefStages.colMean (F := Ideal) (Cert.ReferenceIdeal.RefStages.zOf (F := Ideal) V) (ix1 q) = muQ m ρ c q := by
    intro q
    rw [Cert.ReferenceIdeal.RefRead.colMean_apply,
      Cert.KernelIdeal.KernelMoments.muQ_eq m ρ c _ _ (V5_rows0 m ρ c) (V5_rows1 m ρ c) q]
    simp only [E4]
  -- the column variances
  have E6 : ∀ q : Fin 128, Cert.ReferenceIdeal.RefStages.colVar (F := Ideal) (Cert.ReferenceIdeal.RefStages.zOf (F := Ideal) V) (ix1 q) = varQ m ρ c q := by
    intro q
    rw [Cert.ReferenceIdeal.RefRead.colVar_apply,
      Cert.KernelIdeal.KernelMoments.varQ_eq m ρ c _ _ (V5_rows0 m ρ c) (V5_rows1 m ρ c) q
        (fun p => Cert.KernelIdeal.KernelFinite.dec_real m ρ hpre c p q)]
    simp only [E4]
  -- the result
  funext j
  obtain ⟨p, z, rfl⟩ : ∃ (p : Fin 500000) (z : Fin 1), j = ix2 p z := ⟨j 0, j 1, eq_ix2 j⟩
  obtain rfl : z = 0 := Subsingleton.elim _ _
  rw [Cert.ReferenceIdeal.RefStages.out_eq, h9, h10, h11, h12, out_apply m ρ c p,
    Cert.ReferenceIdeal.RefRead.result_apply (Cert.ReferenceIdeal.RefStages.zOf (F := Ideal) V) (Cert.ReferenceIdeal.RefStages.colMean (F := Ideal) (Cert.ReferenceIdeal.RefStages.zOf (F := Ideal) V))
      (Cert.ReferenceIdeal.RefStages.colVar (F := Ideal) (Cert.ReferenceIdeal.RefStages.zOf (F := Ideal) V)) (gammaV m c) (betaV m c) (wOut m c) (bias4 m c)
      (rowQ (muQ m ρ c)) (rowQ (varQ m ρ c)) (rowOf (gammaV m c)) (rowOf (betaV m c)) (fun _ => bias4 m c (ix1 0)) p
      (fun q => (E5 q).symm) (fun q => (E6 q).symm) (fun _ => rfl) (fun _ => rfl) rfl]
  exact Cert.Bridge.normOut_congr p (fun q => E4' p q) (fun _ => rfl) (fun _ => rfl) (fun _ => rfl) (fun _ => rfl)
    (fun _ => rfl) rfl

/-- THE TWO PROGRAMS' RESULT ARRAYS ARE EQUAL, from memories that agree on the sixteen arguments. -/
theorem result_eq (hpre : Cert.Pre_KernelIdeal m)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    StableHlo.after Cert.ReferenceIdeal.RefRun.ops (fun b => m' (c, b)) (Proc.devRef .tc Cert.ReferenceIdeal.main_v111)
      = Cert.KernelIdeal.Gen.W8 m ρ c (Proc.devRef .tc Cert.KernelIdeal.main_v73) := by
  obtain ⟨a0, a1, a2, a3, a4, a5, a6, a7, a8, a9, a10, a11, a12, a13, a14, a15⟩ := hagree
  exact result_eq_of m ρ hpre c (fun b => m' (c, b)) a0 a1 a2 a3 a4 a5 a6 a7 a8 a9 a10 a11 a12 a13 a14 a15

end Cert.Final

end
-- ==== Proof.lean ====
/-
  The certificate of a graph network's decoder kernel against its plain reference.

  The network: two neighbour-mean layers on 100000 nodes (a gather, a segment sum and a division by the clipped degree
  give each node the mean of its in-neighbours' features; a layer is  mean·Wₗᵀ + x·Wᵣᵀ + b, the first followed by a
  clip at zero), then for each of 500000 labelled edges the two end nodes' embeddings and the edge's sixteen attributes
  go through one linear map, a normalisation of each of the 128 features by its mean and variance over all edges, a
  clip at zero and a contraction with one weight row.
  The kernel computes the two layers, the linear map with per-block partial column sums, and the normalised
  contraction in four pipelined regions; between them the host gathers, sums and divides, and forms
  μ = (∑ blocks' sums)/500000 and σ² = (∑ blocks' sums of squares)/500000 − μ². The reference writes one 272-wide
  contraction over the concatenated inputs and takes the mean and the two-pass variance ∑(z − μ)²/500000.
  On the extended reals every step is exact, so the two agree as soon as
    · a sum over 272 is the sum of its pieces over 128, 128 and 16, and a sum over 500000 rows is the sum of 125 blocks of 4000;
    · the mean of squares less the squared mean is the mean of squared deviations — true of REAL numbers, and every
      pre-activation is real because the inputs are finite and each step keeps finiteness (the degree is clipped at 1).
  The kernel's idealization rewrote nothing, and each frame is the program's own run with the result dropped.
-/
import proofs.«158941_j57870389346679_2_alg».proof.Defs
import proofs.«158941_j57870389346679_2_alg».proof.Proof.Gen.Kernel
import proofs.«158941_j57870389346679_2_alg».proof.Proof.Gen.Kernel.Skeleton
import proofs.«158941_j57870389346679_2_alg».proof.Proof.Gen.Kernel.Launch
import proofs.«158941_j57870389346679_2_alg».proof.Proof.Gen.Kernel.Points
import proofs.«158941_j57870389346679_2_alg».proof.Proof.Gen.Kernel.Frame
import proofs.«158941_j57870389346679_2_alg».proof.Proof.Gen.KernelIdeal
import proofs.«158941_j57870389346679_2_alg».proof.Proof.Gen.KernelIdeal.Skeleton
import proofs.«158941_j57870389346679_2_alg».proof.Proof.Gen.KernelIdeal.Launch
import proofs.«158941_j57870389346679_2_alg».proof.Proof.Gen.KernelIdeal.Points
import proofs.«158941_j57870389346679_2_alg».proof.Proof.Gen.KernelIdeal.Frame
import proofs.«158941_j57870389346679_2_alg».proof.Proof.Gen.ReferenceIdeal
import proofs.«158941_j57870389346679_2_alg».proof.Proof.Gen.Pre_finite_inputs
import proofs.«158941_j57870389346679_2_alg».proof.Proof.KernelRun
import proofs.«158941_j57870389346679_2_alg».proof.Proof.RefRun
import proofs.«158941_j57870389346679_2_alg».proof.Proof.Final
import Idealize.ShloMosaic.Adequacy
import Idealize.ShloMosaic.Init

noncomputable section

namespace Cert.Proof

open Idealize.ShloMosaic Idealize.SL.Sem

/-- The word-level kernel terminates without a fault and leaves its arguments as launched (the generated frame). -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing: the kernel on the extended reals is the kernel's own text read there. -/
theorem preserves : Cert.preserves_Kernel_KernelIdeal := trivial

/-- On the extended reals, from memories that agree on the sixteen arguments, both programs run and end with the same
    result array: the kernel's four regions and the reference's one line compute the same network, the one-pass variance
    of the kernel meeting the two-pass variance of the reference because every pre-activation is a real number. -/
theorem algebraic : Cert.algebraic_KernelIdeal_ReferenceIdeal := by
  intro m ρ m' ρ' hpre hagree
  refine ⟨fun c => Cert.KernelIdeal.Gen.W8 m ρ c (Proc.devRef .tc Cert.KernelIdeal.main_v73),
    Cert.KernelIdeal.KernelRun.run_value m ρ, ?_⟩
  refine (θ_run Cert.ReferenceIdeal.defs _ _).mono (fun r h c => ⟨(h c).1.trans ?_, (h c).2⟩)
    (Cert.ReferenceIdeal.RefRun.run (F := Ideal) m' ρ')
  exact Cert.Final.result_eq m ρ hpre m' c (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
